-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg9 : FVec F S2x64 .f32) (main_arg10 : FVec F S2x64 .f32) (main_arg11 : FVec F S2x64 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  main_v48

def fn_part1 {F : FTy → Type} [FloatOps F] (main_arg6 : FVec F S64 .f32) (main_arg7 : FVec F S64 .f32) (main_arg8 : FVec F S2x64x64 .f32) (main_arg9 : FVec F S2x64 .f32) (main_arg10 : FVec F S2x64 .f32) (main_arg11 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg9 main_arg10 main_arg11 main_v33

def fn {F : FTy → Type} [FloatOps F] (main_arg0 : IVec S1600000 32) (main_arg1 : IVec S1600000 32) (main_arg2 : FVec F S1600000 .f32) (main_arg3 : FVec F S100000x64 .f32) (main_arg4 : FVec F S64x64 .f32) (main_arg5 : FVec F S64 .f32) (main_arg6 : FVec F S64 .f32) (main_arg7 : FVec F S64 .f32) (main_arg8 : FVec F S2x64x64 .f32) (main_arg9 : FVec F S2x64 .f32) (main_arg10 : FVec F S2x64 .f32) (main_arg11 : FVec F S2x64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S1x64 : Shape := ⟨2, ![1, 64]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩

abbrev nBuf : Space → Nat
  | .hbm => 120
  | .vmem => 42
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2x64x64, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S1x64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S100000x64, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64x64, .f32⟩
  | .hbm, ⟨49, _⟩ => ⟨S64x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S1x64, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S100000x64, .f32⟩
  | .hbm, ⟨76, _⟩ => ⟨S1600000x1, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S1x64x64, .f32⟩
  | .hbm, ⟨93, _⟩ => ⟨S64x64, .f32⟩
  | .hbm, ⟨94, _⟩ => ⟨S1x64, .f32⟩
  | .hbm, ⟨95, _⟩ => ⟨S64, .f32⟩
  | .hbm, ⟨96, _⟩ => ⟨S1x64, .f32⟩
  | .hbm, ⟨97, _⟩ => ⟨S64, .f32⟩
  | .hbm, ⟨98, _⟩ => ⟨S1x64, .f32⟩
  | .hbm, ⟨99, _⟩ => ⟨S64, .f32⟩
  | .hbm, ⟨100, _⟩ => ⟨S1x64, .f32⟩
  | .hbm, ⟨101, _⟩ => ⟨S1x64, .f32⟩
  | .hbm, ⟨102, _⟩ => ⟨S64, .f32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64, .f32⟩
  | .hbm, ⟨111, _⟩ => ⟨S64, .f32⟩
  | .hbm, ⟨112, _⟩ => ⟨S_, .f32⟩
  | .hbm, ⟨113, _⟩ => ⟨S64, .f32⟩
  | .hbm, ⟨114, _⟩ => ⟨S64, .f32⟩
  | .hbm, ⟨115, _⟩ => ⟨S64, .f32⟩
  | .hbm, ⟨116, _⟩ => ⟨S64, .f32⟩
  | .hbm, ⟨117, _⟩ => ⟨S64, .f32⟩
  | .hbm, ⟨118, _⟩ => ⟨S64, .f32⟩
  | .hbm, ⟨119, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S1x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S10000x64, .f32⟩
  | .local _ .vmem, ⟨41, _⟩ => ⟨S10000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74_0 : Ref sig .tc := ⟨.hbm, 100, rfl⟩
abbrev main_v74_1 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_cst_11 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S1x64_S1x64 : S1x64.ShapeCasts S1x64
  reduces_S10000x64_S64 : S10000x64.Reduces [0] S64
  shapeCasts_S1x64_S64 : S1x64.ShapeCasts S64
  bcast_S_S64 : S_.BroadcastsInDim S64 (![] : Fin 0 → Fin S64.rank)
  shapeCasts_S64_S64 : S64.ShapeCasts S64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S10000x64_S10000x64 : S10000x64.ShapeCasts S10000x64
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg3) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37_0) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37_1) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v65) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74_0) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74_1) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v65) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩

abbrev nBuf : Space → Nat
  | .hbm => 213
  | .vmem => 0
  | .smem => 0
  | _ => 0

abbrev hbmTy0_0 (i : Nat) : BufTy := match i % 128 with
  | 0 => ⟨S1600000, .i32⟩
  | 1 => ⟨S1600000, .i32⟩
  | 2 => ⟨S1600000, .f32⟩
  | 3 => ⟨S100000x64, .f32⟩
  | 4 => ⟨S64x64, .f32⟩
  | 5 => ⟨S64, .f32⟩
  | 6 => ⟨S64, .f32⟩
  | 7 => ⟨S64, .f32⟩
  | 8 => ⟨S2x64x64, .f32⟩
  | 9 => ⟨S2x64, .f32⟩
  | 10 => ⟨S2x64, .f32⟩
  | 11 => ⟨S2x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S100000x64, .f32⟩
  | 29 => ⟨S100000x64, .f32⟩
  | 30 => ⟨S100000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x64x64, .f32⟩
  | 80 => ⟨S64x64, .f32⟩
  | 81 => ⟨S100000x64, .f32⟩
  | 82 => ⟨S1x64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S64, .f32⟩
  | 89 => ⟨S1x64, .f32⟩
  | 90 => ⟨S64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S1600000, .i32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S1x64x64, .f32⟩
  | 27 => ⟨S64x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S64, .f32⟩
  | 38 => ⟨S_, .f32⟩
  | 39 => ⟨S64, .f32⟩
  | 40 => ⟨S_, .f32⟩
  | 41 => ⟨S64, .f32⟩
  | 42 => ⟨S64, .f32⟩
  | 43 => ⟨S_, .i32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S100000x64, .f32⟩
  | 51 => ⟨S100000x64, .f32⟩
  | 52 => ⟨S100000x64, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S64, .f32⟩
  | 60 => ⟨S_, .f32⟩
  | 61 => ⟨S_, .i1⟩
  | 62 => ⟨S_, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call1_cst : Ref sig .tc := ⟨.hbm, 60, rfl⟩
abbrev main_call1_v0 : Ref sig .tc := ⟨.hbm, 61, rfl⟩
abbrev main_v23 : Ref sig .tc := ⟨.hbm, 62, rfl⟩
abbrev main_v24 : Ref sig .tc := ⟨.hbm, 63, rfl⟩
abbrev main_c_2 : Ref sig .tc := ⟨.hbm, 64, rfl⟩
abbrev main_v25 : Ref sig .tc := ⟨.hbm, 65, rfl⟩
abbrev main_v26 : Ref sig .tc := ⟨.hbm, 66, rfl⟩
abbrev main_c_3 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_5 : Ref sig .tc := ⟨.hbm, 91, rfl⟩
abbrev main_v49 : Ref sig .tc := ⟨.hbm, 92, rfl⟩
abbrev main_cst_6 : Ref sig .tc := ⟨.hbm, 93, rfl⟩
abbrev main_v50 : Ref sig .tc := ⟨.hbm, 94, rfl⟩
abbrev main_v51 : Ref sig .tc := ⟨.hbm, 95, rfl⟩
abbrev main_c_7 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_cst_1 : Ref sig .tc := ⟨.hbm, 107, rfl⟩
abbrev main_call2_v8 : Ref sig .tc := ⟨.hbm, 108, rfl⟩
abbrev main_call2_cst_2 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_cst_3 : Ref sig .tc := ⟨.hbm, 113, rfl⟩
abbrev main_call2_v12 : Ref sig .tc := ⟨.hbm, 114, rfl⟩
abbrev main_call2_cst_4 : Ref sig .tc := ⟨.hbm, 115, rfl⟩
abbrev main_call2_call0_v0 : Ref sig .tc := ⟨.hbm, 116, rfl⟩
abbrev main_call2_call0_v1 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_8 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_call3_cst : Ref sig .tc := ⟨.hbm, 135, rfl⟩
abbrev main_call3_v0 : Ref sig .tc := ⟨.hbm, 136, rfl⟩
abbrev main_v68 : Ref sig .tc := ⟨.hbm, 137, rfl⟩
abbrev main_v69 : Ref sig .tc := ⟨.hbm, 138, rfl⟩
abbrev main_c_9 : Ref sig .tc := ⟨.hbm, 139, rfl⟩
abbrev main_v70 : Ref sig .tc := ⟨.hbm, 140, rfl⟩
abbrev main_v71 : Ref sig .tc := ⟨.hbm, 141, rfl⟩
abbrev main_c_10 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_11 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_12 : Ref sig .tc := ⟨.hbm, 166, rfl⟩
abbrev main_v94 : Ref sig .tc := ⟨.hbm, 167, rfl⟩
abbrev main_cst_13 : Ref sig .tc := ⟨.hbm, 168, rfl⟩
abbrev main_v95 : Ref sig .tc := ⟨.hbm, 169, rfl⟩
abbrev main_v96 : Ref sig .tc := ⟨.hbm, 170, rfl⟩
abbrev main_c_14 : Ref sig .tc := ⟨.hbm, 171, rfl⟩
abbrev main_call4_cst : Ref sig .tc := ⟨.hbm, 172, rfl⟩
abbrev main_call4_v0 : Ref sig .tc := ⟨.hbm, 173, rfl⟩
abbrev main_call4_v1 : Ref sig .tc := ⟨.hbm, 174, rfl⟩
abbrev main_call4_cst_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_v6 : Ref sig .tc := ⟨.hbm, 180, rfl⟩
abbrev main_call4_v7 : Ref sig .tc := ⟨.hbm, 181, rfl⟩
abbrev main_call4_cst_1 : Ref sig .tc := ⟨.hbm, 182, rfl⟩
abbrev main_call4_v8 : Ref sig .tc := ⟨.hbm, 183, rfl⟩
abbrev main_call4_cst_2 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_cst_3 : Ref sig .tc := ⟨.hbm, 188, rfl⟩
abbrev main_call4_v12 : Ref sig .tc := ⟨.hbm, 189, rfl⟩
abbrev main_call4_cst_4 : Ref sig .tc := ⟨.hbm, 190, rfl⟩
abbrev main_call4_call0_v0 : Ref sig .tc := ⟨.hbm, 191, rfl⟩
abbrev main_call4_call0_v1 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_15 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_call5_cst : Ref sig .tc := ⟨.hbm, 210, rfl⟩
abbrev main_call5_v0 : Ref sig .tc := ⟨.hbm, 211, rfl⟩
abbrev main_v113 : Ref sig .tc := ⟨.hbm, 212, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run with its three results named.

  @main is six kernel regions among five stretches of host operations.  Every weakly fair execution terminates, and in the
  final state every buffer of the TensorCore holds what the fold of the segments leaves there: each of the three result
  arrays at the fold's value, each argument as launched.  (The run is the launch over the segments; the last thread state
  is read against the final memory, buffer by buffer.)
-/
import proofs.«172633_j57071525429473_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with each result array at the value the fold of the segments
    leaves in its buffer, and every argument array as launched. -/
theorem run_W : θ_run defs (onTc (τ := τ) (main (F := F))) ⟨m, fun _ => 0, ρ⟩ (fun r => ∀ c : Dev nD,
      r.2.mem ((c.tc : Thread nD τ).loc main_v15) = W11 m ρ c (Proc.devRef .tc main_v15)
      ∧ r.2.mem ((c.tc : Thread nD τ).loc main_v52) = W11 m ρ c (Proc.devRef .tc main_v52)
      ∧ r.2.mem ((c.tc : Thread nD τ).loc main_v89) = W11 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v15 (by decide)), h c _ (mem_uc main_v52 (by decide)), h c _ (mem_uc main_v89 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.KRun

end
-- ==== Proof.Spec.lean ====
/-
  The mathematics both programs compute, stated once, away from either program.

  A "layer" takes a matrix X : [100000, 64], a weight W : [64, 64], a bias b, and the two batch-normalisation vectors
  γ, β : [64].  With L = X·W + b (entry (r, c) is ∑ₖ X (r, k) · W (k, c) + b c) the layer's output is, column by column,
  the rectified batch normalisation of L over its 100000 rows.  It is written here in two arrangements:

  * `bnK`: mean = (∑ᵣ L r c) / n and second moment = (∑ᵣ (L r c)²) / n, variance = second moment − mean², and the affine
    transform folded into one scale γ·(var + ε)^(-1/2) and one shift β − mean·scale: out = max (L·scale + shift) 0;
  * `bnR`: the variance as the mean of the squared deviations ∑ᵣ (L r c − mean)² / n, and
    out = max ((L − mean)·(var + ε)^(-1/2)·γ + β) 0.

  On real entries the two agree (the variance identity E[x²] − E[x]² = E[(x − E x)²] and distributivity).

  Between layers the rows are aggregated along a list of 1600000 weighted edges: the source row of every edge is
  gathered, scaled by the edge's weight, and added into the edge's target row of a zero matrix.  That chain of
  whole-array operations is the same text in both programs; it is named here once (`aggChain`) and never opened
  except to see that it keeps real entries real.
-/
import Idealize.ShloMosaic.PureOps.Ideal
import Idealize.ShloMosaic.Lib.StackMember
import Idealize.ShloMosaic.Lib.KernelVsHost
import Idealize.ShloMosaic.Lib.ValueIdx

noncomputable section

open scoped BigOperators

namespace Cert.Spec

open Idealize.ShloMosaic Idealize.ShloMosaic.ValueIdx

abbrev SND : Shape := ⟨2, ![100000, 64]⟩
abbrev SDD : Shape := ⟨2, ![64, 64]⟩
abbrev SD : Shape := ⟨1, ![64]⟩
abbrev SE : Shape := ⟨1, ![1600000]⟩
abbrev SE1 : Shape := ⟨2, ![1600000, 1]⟩
abbrev SED : Shape := ⟨2, ![1600000, 64]⟩
abbrev S0 : Shape := ⟨0, ![]⟩

/-- The number of rows, as the float both programs divide by. -/
def nF : EReal := Ideal.ofBits .f32 0x47C35000#32
/-- The variance's offset ε. -/
def epsF : EReal := Ideal.ofBits .f32 0x3727C5AC#32

/-- A matrix given by its entries. -/
def arr2 (f : Fin 100000 → Fin 64 → EReal) : SND.Idx → EReal := fun i => f (i 0) (i 1)

@[simp] theorem arr2_ix2 (f : Fin 100000 → Fin 64 → EReal) (r : Fin 100000) (c : Fin 64) : arr2 f (ix2 r c) = f r c := rfl

/-- Entry (r, c) of X·W + b. -/
def lin (X : SND.Idx → EReal) (W : SDD.Idx → EReal) (b : SD.Idx → EReal) (r : Fin 100000) (c : Fin 64) : EReal :=
  (∑ k : Fin 64, X (ix2 r k) * W (ix2 k c)) + b (ix1 c)

/-- Column c's mean. -/
def mean (L : Fin 100000 → Fin 64 → EReal) (c : Fin 64) : EReal := Ideal.div (∑ r : Fin 100000, L r c) nF

/-- Rectified batch normalisation, moments form. -/
def bnK (L : Fin 100000 → Fin 64 → EReal) (γ β : SD.Idx → EReal) (r : Fin 100000) (c : Fin 64) : EReal :=
  max (L r c * (γ (ix1 c) * Ideal.rsqrt ((Ideal.div (∑ r' : Fin 100000, L r' c * L r' c) nF - mean L c * mean L c) + epsF))
      + (β (ix1 c) - mean L c * (γ (ix1 c) * Ideal.rsqrt ((Ideal.div (∑ r' : Fin 100000, L r' c * L r' c) nF - mean L c * mean L c) + epsF)))) 0

/-- Rectified batch normalisation, deviations form. -/
def bnR (L : Fin 100000 → Fin 64 → EReal) (γ β : SD.Idx → EReal) (r : Fin 100000) (c : Fin 64) : EReal :=
  max (((L r c - mean L c)
        * Ideal.rsqrt (Ideal.div (∑ r' : Fin 100000, (L r' c - mean L c) * (L r' c - mean L c)) nF + epsF))
      * γ (ix1 c) + β (ix1 c)) 0

/-- One layer, moments form, as a matrix. -/
def layerK (X : SND.Idx → EReal) (W : SDD.Idx → EReal) (b γ β : SD.Idx → EReal) : SND.Idx → EReal :=
  arr2 (bnK (lin X W b) γ β)

/-- One layer, deviations form, as a matrix. -/
def layerR (X : SND.Idx → EReal) (W : SDD.Idx → EReal) (b γ β : SD.Idx → EReal) : SND.Idx → EReal :=
  arr2 (bnR (lin X W b) γ β)

/-- Every entry is a real number. -/
def Real' {ι : Type} (x : ι → EReal) : Prop := ∀ i, ∃ v : ℝ, x i = (v : EReal)

/-- The aggregation along the edges, as the chain of whole-array operations both programs apply: a negative source index
    is wrapped by +100000, the source rows gathered, scaled by the weights laid along the rows, and added into the target
    rows of the zero matrix. -/
def aggChain (g : GatherDims SND SE1 SED) (s : ScatterDims SND SE1 SED)
    (hb1 : SE.BroadcastsInDim SE1 (![0] : Fin 1 → Fin SE1.rank))
    (hb0 : S0.BroadcastsInDim SE (![] : Fin 0 → Fin SE.rank))
    (hb2 : SE1.BroadcastsInDim SED (![0, 1] : Fin 2 → Fin SED.rank))
    (hbz : S0.BroadcastsInDim SND (![] : Fin 0 → Fin SND.rank))
    (rows cols : IVec SE 32) (vals : FVec Ideal SE .f32) (H : FVec Ideal SND .f32) : FVec Ideal SND .f32 :=
  Host.scatterAdd s (broadcastInDim SND ![] hbz (constant (F := Ideal) S0 .f32 0x00000000#32))
    (broadcastInDim SE1 ![0] hb1 rows)
    (mulf (broadcastInDim SED ![0, 1] hb2 (broadcastInDim SE1 ![0] hb1 vals))
      (Host.gather g H (broadcastInDim SE1 ![0] hb1
        (select (cmpi .slt cols (broadcastInDim SE ![] hb0 (constantI S0 32 0#32)))
          (addi cols (broadcastInDim SE ![] hb0 (constantI S0 32 100000#32))) cols))))

end Cert.Spec

end
-- ==== Proof.KHost.lean ====
/-
  The host operations between the kernel regions, as pure functions of the buffers they read.

  After a statistics region the host turns the two [1, 64] rows — the column sums S and the column sums of squares SS of
  x·w + b — into the two vectors the apply region multiplies and adds by: with mean = S / n and second moment = SS / n,
  scale = γ · (second moment − mean² + ε)^(-1/2) and shift = β − mean · scale.  Between layers it aggregates the rows of
  the previous layer's output along the edges and cuts the next layer's weight and vectors out of the stacked arguments.
-/
import proofs.«172633_j57071525429473_1_alg».proof.Proof.Gen.KernelIdeal.Launch
import proofs.«172633_j57071525429473_1_alg».proof.Proof.Gen.KernelIdeal
import proofs.«172633_j57071525429473_1_alg».proof.Proof.Spec
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

/-- A [1, 64] row as a vector. -/
def rowV (S : FVec Ideal S1x64 .f32) : FVec Ideal S64 .f32 := fun i => shapeCast S64 S shapeCasts_S1x64_S64 i
/-- The row count laid along a vector. -/
def nV : FVec Ideal S64 .f32 := broadcastInDim S64 ![] bcast_S_S64 (constant (F := Ideal) S_ .f32 0x47C35000#32)
/-- ε laid along a vector. -/
def epsV : FVec Ideal S64 .f32 := broadcastInDim S64 ![] bcast_S_S64 (constant (F := Ideal) S_ .f32 0x3727C5AC#32)
/-- The scale γ · (SS / n − (S / n)² + ε)^(-1/2). -/
def scaleT (S SS : FVec Ideal S1x64 .f32) (γ : FVec Ideal S64 .f32) : FVec Ideal S64 .f32 :=
  mulf γ (Host.rsqrt (addf (subf (Host.divf (rowV SS) nV) (mulf (Host.divf (rowV S) nV) (Host.divf (rowV S) nV))) epsV))
/-- The shift β − (S / n) · scale. -/
def shiftT (S SS : FVec Ideal S1x64 .f32) (γ β : FVec Ideal S64 .f32) : FVec Ideal S64 .f32 :=
  subf β (mulf (Host.divf (rowV S) nV) (scaleT S SS γ))
/-- Layer 1's weight: the first [64, 64] slab of the stacked weights. -/
def wA (a : FVec Ideal S2x64x64 .f32) : FVec Ideal S64x64 .f32 := fun i => shapeCast S64x64 (extractStridedSlice S1x64x64 ![0, 0, 0] a slices_S2x64x64_S1x64x64_0_0_0) shapeCasts_S1x64x64_S64x64 i
/-- Layer 2's weight: the second slab. -/
def wB (a : FVec Ideal S2x64x64 .f32) : FVec Ideal S64x64 .f32 := fun i => shapeCast S64x64 (extractStridedSlice S1x64x64 ![1, 0, 0] a slices_S2x64x64_S1x64x64_1_0_0) shapeCasts_S1x64x64_S64x64 i
/-- Layer 1's vector: the first row of a stacked pair. -/
def vA (a : FVec Ideal S2x64 .f32) : FVec Ideal S64 .f32 := fun i => shapeCast S64 (extractStridedSlice S1x64 ![0, 0] a slices_S2x64_S1x64_0_0) shapeCasts_S1x64_S64 i
/-- Layer 2's vector: the second row. -/
def vB (a : FVec Ideal S2x64 .f32) : FVec Ideal S64 .f32 := fun i => shapeCast S64 (extractStridedSlice S1x64 ![1, 0] a slices_S2x64_S1x64_1_0) shapeCasts_S1x64_S64 i
/-- The aggregation of a layer's output along the edges. -/
def agg (rows cols : IVec S1600000 32) (vals : FVec Ideal S1600000 .f32) (H : FVec Ideal S100000x64 .f32) : FVec Ideal S100000x64 .f32 :=
  Cert.Spec.aggChain gather_S100000x64_S1600000x1_S1600000x64_1_0_n_n_0_1_164 scatter_S100000x64_S1600000x1_S1600000x64_1_0_0_1
    bcast_S1600000_S1600000x1_0 bcast_S_S1600000 bcast_S1600000x1_S1600000x64_0_1 bcast_S_S100000x64 rows cols vals H

variable (W : Valuation τ sig (Elt Ideal))

theorem h1_scale : StableHlo.after (hostOps1 (F := Ideal)) W (Proc.devRef .tc main_v12)
    = scaleT (W (Proc.devRef .tc main_v0_0)) (W (Proc.devRef .tc main_v0_1)) (W (Proc.devRef .tc main_arg6)) := by
  after_results_simp
  rfl
theorem h1_shift : StableHlo.after (hostOps1 (F := Ideal)) W (Proc.devRef .tc main_v14)
    = shiftT (W (Proc.devRef .tc main_v0_0)) (W (Proc.devRef .tc main_v0_1)) (W (Proc.devRef .tc main_arg6)) (W (Proc.devRef .tc main_arg7)) := by
  after_results_simp
  rfl
theorem h2_agg : StableHlo.after (hostOps2 (F := Ideal)) W (Proc.devRef .tc main_v28)
    = agg (W (Proc.devRef .tc main_arg0)) (W (Proc.devRef .tc main_arg1)) (W (Proc.devRef .tc main_arg2)) (W (Proc.devRef .tc main_v15)) := by
  after_results_simp
  rfl
theorem h2_w : StableHlo.after (hostOps2 (F := Ideal)) W (Proc.devRef .tc main_v30) = wA (W (Proc.devRef .tc main_arg8)) := by
  after_results_simp
  rfl
theorem h2_b : StableHlo.after (hostOps2 (F := Ideal)) W (Proc.devRef .tc main_v32) = vA (W (Proc.devRef .tc main_arg9)) := by
  after_results_simp
  rfl
theorem h2_g : StableHlo.after (hostOps2 (F := Ideal)) W (Proc.devRef .tc main_v34)
    = vA (W (Proc.devRef .tc main_arg10)) := by
  after_results_simp
  rfl
theorem h2_be : StableHlo.after (hostOps2 (F := Ideal)) W (Proc.devRef .tc main_v36)
    = vA (W (Proc.devRef .tc main_arg11)) := by
  after_results_simp
  rfl
theorem h3_scale : StableHlo.after (hostOps3 (F := Ideal)) W (Proc.devRef .tc main_v49)
    = scaleT (W (Proc.devRef .tc main_v37_0)) (W (Proc.devRef .tc main_v37_1)) (W (Proc.devRef .tc main_v34)) := by
  after_results_simp
  rfl
theorem h3_shift : StableHlo.after (hostOps3 (F := Ideal)) W (Proc.devRef .tc main_v51)
    = shiftT (W (Proc.devRef .tc main_v37_0)) (W (Proc.devRef .tc main_v37_1)) (W (Proc.devRef .tc main_v34)) (W (Proc.devRef .tc main_v36)) := by
  after_results_simp
  rfl
theorem h4_agg : StableHlo.after (hostOps4 (F := Ideal)) W (Proc.devRef .tc main_v65)
    = agg (W (Proc.devRef .tc main_arg0)) (W (Proc.devRef .tc main_arg1)) (W (Proc.devRef .tc main_arg2)) (W (Proc.devRef .tc main_v52)) := by
  after_results_simp
  rfl
theorem h4_w : StableHlo.after (hostOps4 (F := Ideal)) W (Proc.devRef .tc main_v67)
    = wB (W (Proc.devRef .tc main_arg8)) := by
  after_results_simp
  rfl
theorem h4_b : StableHlo.after (hostOps4 (F := Ideal)) W (Proc.devRef .tc main_v69)
    = vB (W (Proc.devRef .tc main_arg9)) := by
  after_results_simp
  rfl
theorem h4_g : StableHlo.after (hostOps4 (F := Ideal)) W (Proc.devRef .tc main_v71)
    = vB (W (Proc.devRef .tc main_arg10)) := by
  after_results_simp
  rfl
theorem h4_be : StableHlo.after (hostOps4 (F := Ideal)) W (Proc.devRef .tc main_v73)
    = vB (W (Proc.devRef .tc main_arg11)) := by
  after_results_simp
  rfl
theorem h5_scale : StableHlo.after (hostOps5 (F := Ideal)) W (Proc.devRef .tc main_v86)
    = scaleT (W (Proc.devRef .tc main_v74_0)) (W (Proc.devRef .tc main_v74_1)) (W (Proc.devRef .tc main_v71)) := by
  after_results_simp
  rfl
theorem h5_shift : StableHlo.after (hostOps5 (F := Ideal)) W (Proc.devRef .tc main_v88)
    = shiftT (W (Proc.devRef .tc main_v74_0)) (W (Proc.devRef .tc main_v74_1)) (W (Proc.devRef .tc main_v71)) (W (Proc.devRef .tc main_v73)) := by
  after_results_simp
  rfl

/-! ## The scale and the shift at an entry -/

/-- A [1, 64] row read as a vector: entry q is entry (0, q). -/
theorem rowV_apply (S : FVec Ideal S1x64 .f32) (q : Fin 64) : rowV S (ix1 q) = S (ix2 (0 : Fin 1) q) :=
  shapeCast_apply S shapeCasts_S1x64_S64 (ix1 q) (ix2 (0 : Fin 1) q) (by
    rw [Shape.rowMajor_val_two, Shape.rowMajor_val_one]; show 0 * 64 + q.val = q.val; omega)

theorem nV_apply (i : S64.Idx) : nV i = Cert.Spec.nF := rfl
theorem epsV_apply (i : S64.Idx) : epsV i = Cert.Spec.epsF := rfl

theorem scaleT_apply (S SS : FVec Ideal S1x64 .f32) (γ : FVec Ideal S64 .f32) (q : Fin 64) :
    scaleT S SS γ (ix1 q) = γ (ix1 q) * Ideal.rsqrt ((Ideal.div (SS (ix2 (0 : Fin 1) q)) Cert.Spec.nF
      - Ideal.div (S (ix2 (0 : Fin 1) q)) Cert.Spec.nF * Ideal.div (S (ix2 (0 : Fin 1) q)) Cert.Spec.nF) + Cert.Spec.epsF) := by
  show γ (ix1 q) * Ideal.rsqrt ((Ideal.div (rowV SS (ix1 q)) (nV (ix1 q)) - Ideal.div (rowV S (ix1 q)) (nV (ix1 q)) * Ideal.div (rowV S (ix1 q)) (nV (ix1 q))) + epsV (ix1 q)) = _
  rw [rowV_apply, rowV_apply, nV_apply, epsV_apply]

theorem shiftT_apply (S SS : FVec Ideal S1x64 .f32) (γ β : FVec Ideal S64 .f32) (q : Fin 64) :
    shiftT S SS γ β (ix1 q) = β (ix1 q) - Ideal.div (S (ix2 (0 : Fin 1) q)) Cert.Spec.nF * scaleT S SS γ (ix1 q) := by
  show β (ix1 q) - Ideal.div (rowV S (ix1 q)) (nV (ix1 q)) * scaleT S SS γ (ix1 q) = _
  rw [rowV_apply, nV_apply]

end Cert.KernelIdeal.KHost

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.KPay.lean ====
/-
  The arithmetic of the two kernel bodies, read at one entry over the extended reals.

  The "apply" body computes, on a block of 10000 rows, max ((x·w + b)·scale + shift) 0: entry (p, q) is
  max ((∑ₖ x (p, k) · w (k, q) + b q) · scale q + shift q) 0 — the change of float format into the matrix unit is the
  identity here, the product into the zero accumulator is the plain contraction, and the three vectors are laid along
  the rows.  The "statistics" body forms the same x·w + b and adds its column sums, and the column sums of its squares,
  to two running [1, 64] rows.
-/
import proofs.«172633_j57071525429473_1_alg».proof.Proof.Gen.KernelIdeal.Skeleton
import proofs.«172633_j57071525429473_1_alg».proof.Proof.LibPlainProduct
import proofs.«172633_j57071525429473_1_alg».proof.Proof.LibRowVector
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-- The printed contraction record is the plain [10000, 64] × [64, 64] product. -/
theorem dot_plain : dot_S10000x64_S64x64_S10000x64_1_0_0_1_n_n = DotDims.plain 10000 64 64 := rfl

/-- Entry (p, q) of a block of x·w + b. -/
def linB (x : FVec Ideal S10000x64 .f32) (w : FVec Ideal S64x64 .f32) (b : FVec Ideal S64 .f32) (p : Fin 10000) (q : Fin 64) : EReal :=
  (∑ k : Fin 64, x (ix2 p k) * w (ix2 k q)) + b (ix1 q)

/-- The apply body's stored value at (p, q). -/
theorem apply1_at (v0 : FVec Ideal S10000x64 .f32) (v2 : FVec Ideal S64x64 .f32) (v5 v9 v14 : FVec Ideal S64 .f32) (p : Fin 10000) (q : Fin 64) :
    k1_pay1 (F := Ideal) v0 v2 v5 v9 v14 (ix2 p q) = max (linB v0 v2 v5 p q * v9 (ix1 q) + v14 (ix1 q)) 0 := by
  have e1 := Cert.PlainProduct.matmul_plain_apply (φ₁ := .bf16) (φ₂ := .bf16) dot_S10000x64_S64x64_S10000x64_1_0_0_1_n_n dot_plain none
    (truncf .bf16 v0 bitsLt_bf16_f32) (truncf .bf16 v2 bitsLt_bf16_f32) p q
  have e2 := Cert.RowVector.rowBroadcast_apply (m := 10000) v5 shapeCasts_S64_S1x64 broadcasts_S1x64_S10000x64 p q
  have e3 := Cert.RowVector.rowBroadcast_apply (m := 10000) v9 shapeCasts_S64_S1x64 broadcasts_S1x64_S10000x64 p q
  have e4 := Cert.RowVector.rowBroadcast_apply (m := 10000) v14 shapeCasts_S64_S1x64 broadcasts_S1x64_S10000x64 p q
  unfold k1_pay1 linB
  simp only [shapeCast_self]
  rw [maximumf_apply, addf_apply, mulf_apply, addf_apply, broadcast_apply, e1, e2, e3, e4]
  simp only [truncf_apply, Ideal.ofBits_def, Ideal.ofBits_zero_f32]

/-- The apply body's stored value at (p, q). -/
theorem apply3_at (v0 : FVec Ideal S10000x64 .f32) (v2 : FVec Ideal S64x64 .f32) (v5 v9 v14 : FVec Ideal S64 .f32) (p : Fin 10000) (q : Fin 64) :
    k3_pay1 (F := Ideal) v0 v2 v5 v9 v14 (ix2 p q) = max (linB v0 v2 v5 p q * v9 (ix1 q) + v14 (ix1 q)) 0 := by
  have e1 := Cert.PlainProduct.matmul_plain_apply (φ₁ := .bf16) (φ₂ := .bf16) dot_S10000x64_S64x64_S10000x64_1_0_0_1_n_n dot_plain none
    (truncf .bf16 v0 bitsLt_bf16_f32) (truncf .bf16 v2 bitsLt_bf16_f32) p q
  have e2 := Cert.RowVector.rowBroadcast_apply (m := 10000) v5 shapeCasts_S64_S1x64 broadcasts_S1x64_S10000x64 p q
  have e3 := Cert.RowVector.rowBroadcast_apply (m := 10000) v9 shapeCasts_S64_S1x64 broadcasts_S1x64_S10000x64 p q
  have e4 := Cert.RowVector.rowBroadcast_apply (m := 10000) v14 shapeCasts_S64_S1x64 broadcasts_S1x64_S10000x64 p q
  unfold k3_pay1 linB
  simp only [shapeCast_self]
  rw [maximumf_apply, addf_apply, mulf_apply, addf_apply, broadcast_apply, e1, e2, e3, e4]
  simp only [truncf_apply, Ideal.ofBits_def, Ideal.ofBits_zero_f32]

/-- The apply body's stored value at (p, q). -/
theorem apply5_at (v0 : FVec Ideal S10000x64 .f32) (v2 : FVec Ideal S64x64 .f32) (v5 v9 v14 : FVec Ideal S64 .f32) (p : Fin 10000) (q : Fin 64) :
    k5_pay1 (F := Ideal) v0 v2 v5 v9 v14 (ix2 p q) = max (linB v0 v2 v5 p q * v9 (ix1 q) + v14 (ix1 q)) 0 := by
  have e1 := Cert.PlainProduct.matmul_plain_apply (φ₁ := .bf16) (φ₂ := .bf16) dot_S10000x64_S64x64_S10000x64_1_0_0_1_n_n dot_plain none
    (truncf .bf16 v0 bitsLt_bf16_f32) (truncf .bf16 v2 bitsLt_bf16_f32) p q
  have e2 := Cert.RowVector.rowBroadcast_apply (m := 10000) v5 shapeCasts_S64_S1x64 broadcasts_S1x64_S10000x64 p q
  have e3 := Cert.RowVector.rowBroadcast_apply (m := 10000) v9 shapeCasts_S64_S1x64 broadcasts_S1x64_S10000x64 p q
  have e4 := Cert.RowVector.rowBroadcast_apply (m := 10000) v14 shapeCasts_S64_S1x64 broadcasts_S1x64_S10000x64 p q
  unfold k5_pay1 linB
  simp only [shapeCast_self]
  rw [maximumf_apply, addf_apply, mulf_apply, addf_apply, broadcast_apply, e1, e2, e3, e4]
  simp only [truncf_apply, Ideal.ofBits_def, Ideal.ofBits_zero_f32]

/-- The statistics body's x·w + b at (p, q). -/
theorem lin0_at (v3 : FVec Ideal S10000x64 .f32) (v5 : FVec Ideal S64x64 .f32) (v8 : FVec Ideal S64 .f32) (p : Fin 10000) (q : Fin 64) :
    k0_pay3 (F := Ideal) v3 v5 v8 (ix2 p q) = linB v3 v5 v8 p q := by
  have e1 := Cert.PlainProduct.matmul_plain_apply (φ₁ := .bf16) (φ₂ := .bf16) dot_S10000x64_S64x64_S10000x64_1_0_0_1_n_n dot_plain none
    (truncf .bf16 v3 bitsLt_bf16_f32) (truncf .bf16 v5 bitsLt_bf16_f32) p q
  have e2 := Cert.RowVector.rowBroadcast_apply (m := 10000) v8 shapeCasts_S64_S1x64 broadcasts_S1x64_S10000x64 p q
  unfold k0_pay3 linB
  rw [addf_apply, e1, e2]
  rfl

/-- The statistics body's x·w + b at (p, q). -/
theorem lin2_at (v3 : FVec Ideal S10000x64 .f32) (v5 : FVec Ideal S64x64 .f32) (v8 : FVec Ideal S64 .f32) (p : Fin 10000) (q : Fin 64) :
    k2_pay3 (F := Ideal) v3 v5 v8 (ix2 p q) = linB v3 v5 v8 p q := by
  have e1 := Cert.PlainProduct.matmul_plain_apply (φ₁ := .bf16) (φ₂ := .bf16) dot_S10000x64_S64x64_S10000x64_1_0_0_1_n_n dot_plain none
    (truncf .bf16 v3 bitsLt_bf16_f32) (truncf .bf16 v5 bitsLt_bf16_f32) p q
  have e2 := Cert.RowVector.rowBroadcast_apply (m := 10000) v8 shapeCasts_S64_S1x64 broadcasts_S1x64_S10000x64 p q
  unfold k2_pay3 linB
  simp only [shapeCast_self]
  rw [addf_apply, e1, e2]
  rfl

/-- The statistics body's x·w + b at (p, q). -/
theorem lin4_at (v3 : FVec Ideal S10000x64 .f32) (v5 : FVec Ideal S64x64 .f32) (v8 : FVec Ideal S64 .f32) (p : Fin 10000) (q : Fin 64) :
    k4_pay3 (F := Ideal) v3 v5 v8 (ix2 p q) = linB v3 v5 v8 p q := by
  have e1 := Cert.PlainProduct.matmul_plain_apply (φ₁ := .bf16) (φ₂ := .bf16) dot_S10000x64_S64x64_S10000x64_1_0_0_1_n_n dot_plain none
    (truncf .bf16 v3 bitsLt_bf16_f32) (truncf .bf16 v5 bitsLt_bf16_f32) p q
  have e2 := Cert.RowVector.rowBroadcast_apply (m := 10000) v8 shapeCasts_S64_S1x64 broadcasts_S1x64_S10000x64 p q
  unfold k4_pay3 linB
  simp only [shapeCast_self]
  rw [addf_apply, e1, e2]
  rfl

end Cert.KernelIdeal.KPay

end
-- ==== Proof.KApply.lean ====
/-
  The three "apply" regions, read as whole-array functions.

  An apply region walks the 100000 rows of its input matrix in ten blocks of 10000 rows; at each block it stores
  max ((x·w + b)·scale + shift) 0 of the block's rows into the same rows of the output, the weight and the three vectors
  being the same whole arrays at every point.  So after the region the output array holds, at every entry (r, c),
  max ((∑ₖ X (r, k)·W (k, c) + b c)·scale c + shift c) 0 of the arrays as the region finds them: every row lies in
  exactly the block r / 10000, whose point writes it.
-/
import proofs.«172633_j57071525429473_1_alg».proof.Proof.Gen.KernelIdeal.Frame
import proofs.«172633_j57071525429473_1_alg».proof.Proof.KPay
import proofs.«172633_j57071525429473_1_alg».proof.Proof.Spec
import Idealize.ShloMosaic.Lib.Pipeline.Value

set_option maxRecDepth 16384

noncomputable section

open scoped BigOperators

namespace Cert.KernelIdeal.KApply

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KPay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The affine-rectified layer as a matrix: entry (r, c) is max ((X·W + b) (r, c) · scale c + shift c) 0. -/
def G (X : S100000x64.Idx → EReal) (W : S64x64.Idx → EReal) (b sc sh : S64.Idx → EReal) : S100000x64.Idx → EReal :=
  fun i => max (Cert.Spec.lin X W b (i 0) (i 1) * sc (ix1 (i 1)) + sh (ix1 (i 1))) 0

/-! ## The apply region 1 -/

section R1

/-- The printed index maps of region 1, decided over the ten grid points: the row blocks of the input matrix and of the
    output move with the point, every other window stays at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- Row p of the point's block of the input matrix is row 10000·t + p of the array. -/
theorem blk1_0 (c : Dev nD) (t : Fin cfg1.N) (p : Fin 10000) (k : Fin 64) (r : Fin 100000)
    (hr : r.val = 10000 * t.val + p.val) :
    (iblk1 V c 0 t : Vec Ideal S10000x64 .f32) (ix2 p k) = V c (Pipeline.arrRef spec1 0) (ix2 r k) := by
  obtain ⟨e0, e1, -⟩ := idx_facts1 t
  unfold iblk1
  rw [View.read_apply]
  show V c (Pipeline.arrRef spec1 0) (((cfg1.win 0).blk t).view.emb (ix2 p k)) = V c (Pipeline.arrRef spec1 0) (ix2 r k)
  refine congrArg _ ?_
  funext a; apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The weight window's block is the whole weight array. -/
theorem blk1_1 (c : Dev nD) (t : Fin cfg1.N) (y : S64x64.Idx) :
    (iblk1 V c 1 t : Vec Ideal S64x64 .f32) y = V c (Pipeline.arrRef spec1 1) y := by
  obtain ⟨-, -, e2, e3, -⟩ := idx_facts1 t
  unfold iblk1
  rw [View.read_apply]
  show V c (Pipeline.arrRef spec1 1) (((cfg1.win 1).blk t).view.emb y) = V c (Pipeline.arrRef spec1 1) y
  refine congrArg _ ?_
  funext a; apply Fin.ext
  match a with
  | ⟨0, _⟩ => show win1_1.index t (0 : Fin 2) * 64 + 1 * (y 0).val = (y 0).val; rw [e2]; omega
  | ⟨1, _⟩ => show win1_1.index t (1 : Fin 2) * 64 + 1 * (y 1).val = (y 1).val; rw [e3]; omega

/-- Each vector window's block is the whole vector. -/
theorem blk1_2 (c : Dev nD) (t : Fin cfg1.N) (y : S64.Idx) :
    (iblk1 V c 2 t : Vec Ideal S64 .f32) y = V c (Pipeline.arrRef spec1 2) y := by
  obtain ⟨-, -, -, -, e4, -⟩ := idx_facts1 t
  unfold iblk1
  rw [View.read_apply]
  show V c (Pipeline.arrRef spec1 2) (((cfg1.win 2).blk t).view.emb y) = V c (Pipeline.arrRef spec1 2) y
  refine congrArg _ ?_
  funext a; apply Fin.ext
  match a with
  | ⟨0, _⟩ => show win1_2.index t (0 : Fin 1) * 64 + 1 * (y 0).val = (y 0).val; rw [e4]; omega
theorem blk1_3 (c : Dev nD) (t : Fin cfg1.N) (y : S64.Idx) :
    (iblk1 V c 3 t : Vec Ideal S64 .f32) y = V c (Pipeline.arrRef spec1 3) y := by
  obtain ⟨-, -, -, -, -, e5, -⟩ := idx_facts1 t
  unfold iblk1
  rw [View.read_apply]
  show V c (Pipeline.arrRef spec1 3) (((cfg1.win 3).blk t).view.emb y) = V c (Pipeline.arrRef spec1 3) y
  refine congrArg _ ?_
  funext a; apply Fin.ext
  match a with
  | ⟨0, _⟩ => show win1_3.index t (0 : Fin 1) * 64 + 1 * (y 0).val = (y 0).val; rw [e5]; omega
theorem blk1_4 (c : Dev nD) (t : Fin cfg1.N) (y : S64.Idx) :
    (iblk1 V c 4 t : Vec Ideal S64 .f32) y = V c (Pipeline.arrRef spec1 4) y := by
  obtain ⟨-, -, -, -, -, -, e6, -⟩ := idx_facts1 t
  unfold iblk1
  rw [View.read_apply]
  show V c (Pipeline.arrRef spec1 4) (((cfg1.win 4).blk t).view.emb y) = V c (Pipeline.arrRef spec1 4) y
  refine congrArg _ ?_
  funext a; apply Fin.ext
  match a with
  | ⟨0, _⟩ => show win1_4.index t (0 : Fin 1) * 64 + 1 * (y 0).val = (y 0).val; rw [e6]; omega

set_option maxHeartbeats 1000000 in
/-- At row p of point t's block, column q: the stored value is the layer's entry at the array index i whose row is
    10000·t + p and whose column is q. -/
theorem point1 (c : Dev nD) (t : Fin cfg1.N) (p : Fin 10000) (q : Fin 64) (i : S100000x64.Idx)
    (hi0 : (i 0).val = 10000 * t.val + p.val) (hi1 : (i 1).val = q.val) :
    k1_pay1 (F := Ideal) (iblk1 V c 0 t) (iblk1 V c 1 t) (iblk1 V c 2 t) (iblk1 V c 3 t) (iblk1 V c 4 t) (ix2 p q)
      = G (V c (Pipeline.arrRef spec1 0)) (V c (Pipeline.arrRef spec1 1)) (V c (Pipeline.arrRef spec1 2)) (V c (Pipeline.arrRef spec1 3)) (V c (Pipeline.arrRef spec1 4)) i := by
  obtain ⟨r, s, rfl⟩ : ∃ (r : Fin 100000) (s : Fin 64), i = ix2 r s := ⟨i 0, i 1, eq_ix2 i⟩
  obtain rfl : s = q := Fin.ext hi1
  refine (apply1_at (iblk1 V c 0 t) (iblk1 V c 1 t) (iblk1 V c 2 t) (iblk1 V c 3 t) (iblk1 V c 4 t) p s).trans ?_
  have e2 : ((iblk1 V c 2 t : Vec Ideal S64 .f32) (ix1 s) : EReal) = V c (Pipeline.arrRef spec1 2) (ix1 s) := blk1_2 V c t (ix1 s)
  have e3 : ((iblk1 V c 3 t : Vec Ideal S64 .f32) (ix1 s) : EReal) = V c (Pipeline.arrRef spec1 3) (ix1 s) := blk1_3 V c t (ix1 s)
  have e4 : ((iblk1 V c 4 t : Vec Ideal S64 .f32) (ix1 s) : EReal) = V c (Pipeline.arrRef spec1 4) (ix1 s) := blk1_4 V c t (ix1 s)
  have e0 : ∀ k : Fin 64, ((iblk1 V c 0 t : Vec Ideal S10000x64 .f32) (ix2 p k) : EReal) = V c (Pipeline.arrRef spec1 0) (ix2 r k) := fun k => blk1_0 V c t p k r hi0
  have e1 : ∀ k : Fin 64, ((iblk1 V c 1 t : Vec Ideal S64x64 .f32) (ix2 k s) : EReal) = V c (Pipeline.arrRef spec1 1) (ix2 k s) := fun k => blk1_1 V c t (ix2 k s)
  show max (linB (iblk1 V c 0 t) (iblk1 V c 1 t) (iblk1 V c 2 t) p s * (iblk1 V c 3 t : Vec Ideal S64 .f32) (ix1 s) + (iblk1 V c 4 t : Vec Ideal S64 .f32) (ix1 s)) 0
    = max (Cert.Spec.lin (V c (Pipeline.arrRef spec1 0)) (V c (Pipeline.arrRef spec1 1)) (V c (Pipeline.arrRef spec1 2)) r s * V c (Pipeline.arrRef spec1 3) (ix1 s) + V c (Pipeline.arrRef spec1 4) (ix1 s)) 0
  unfold linB Cert.Spec.lin
  rw [e2, e3, e4]
  simp only [e0, e1]

set_option maxHeartbeats 1000000 in
/-- What point t writes back is block t of the layer's matrix of the arrays as the region finds them. -/
theorem flushed1_eq (c : Dev nD) (t : Fin cfg1.N) :
    (dat1 V c).flushed 5 t = ((cfg1.win 5).blk t).view.read (Elt Ideal)
      (G (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  obtain ⟨-, -, -, -, -, -, -, e7, e8⟩ := idx_facts1 t
  funext j
  show k1_pay1 (F := Ideal) (iblk1 V c 0 t) (iblk1 V c 1 t) (iblk1 V c 2 t) (iblk1 V c 3 t) (iblk1 V c 4 t) j
    = G (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
  refine (congrArg (k1_pay1 (F := Ideal) (iblk1 V c 0 t) (iblk1 V c 1 t) (iblk1 V c 2 t) (iblk1 V c 3 t) (iblk1 V c 4 t)) (eq_ix2 j)).trans ?_
  refine point1 V c t (j 0) (j 1) _ ?_ ?_
  · show win1_5.index t (0 : Fin 2) * 10000 + 1 * (j 0).val = _; rw [e7]; omega
  · show win1_5.index t (1 : Fin 2) * 64 + 1 * (j 1).val = _; rw [e8]; omega

/-- An index of the output array is in point t's block iff its row is among the block's 10000 rows. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v15).slice (win1_5.rect t)).set ↔ _
  rw [View.set_slice_whole, Rect.mem_set_unit]
  exact Iff.rfl

set_option maxHeartbeats 1000000 in
/-- The output array after the region: the layer's matrix of the arrays as the region finds them. -/
theorem final1 (c : Dev nD) : (dat1 V c).arrAt 5 cfg1.N
    = G (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) fun i => by
    have hN : cfg1.N = 10 := N_1
    have hi0 : (i 0).val < 100000 := (i 0).isLt
    have hi1 : (i 1).val < 64 := (i 1).isLt
    refine ⟨⟨(i 0).val / 10000, by rw [hN]; omega⟩, flush1_5 _, ?_⟩
    rw [mem_blk1]
    obtain ⟨-, -, -, -, -, -, -, e7, e8⟩ := idx_facts1 ⟨(i 0).val / 10000, by rw [hN]; omega⟩
    intro a
    match a with
    | ⟨0, _⟩ => show win1_5.index _ (0 : Fin 2) * 10000 ≤ (i 0).val ∧ (i 0).val < win1_5.index _ (0 : Fin 2) * 10000 + 10000; rw [e7]; dsimp only; omega
    | ⟨1, _⟩ => show win1_5.index _ (1 : Fin 2) * 64 ≤ (i 1).val ∧ (i 1).val < win1_5.index _ (1 : Fin 2) * 64 + 64; rw [e8]; omega

end R1

/-! ## The apply region 3 -/

section R3

/-- The printed index maps of region 3, decided over the ten grid points: the row blocks of the input matrix and of the
    output move with the point, every other window stays at block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- Row p of the point's block of the input matrix is row 10000·t + p of the array. -/
theorem blk3_0 (c : Dev nD) (t : Fin cfg3.N) (p : Fin 10000) (k : Fin 64) (r : Fin 100000)
    (hr : r.val = 10000 * t.val + p.val) :
    (iblk3 V c 0 t : Vec Ideal S10000x64 .f32) (ix2 p k) = V c (Pipeline.arrRef spec3 0) (ix2 r k) := by
  obtain ⟨e0, e1, -⟩ := idx_facts3 t
  unfold iblk3
  rw [View.read_apply]
  show V c (Pipeline.arrRef spec3 0) (((cfg3.win 0).blk t).view.emb (ix2 p k)) = V c (Pipeline.arrRef spec3 0) (ix2 r k)
  refine congrArg _ ?_
  funext a; apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- The weight window's block is the whole weight array. -/
theorem blk3_1 (c : Dev nD) (t : Fin cfg3.N) (y : S64x64.Idx) :
    (iblk3 V c 1 t : Vec Ideal S64x64 .f32) y = V c (Pipeline.arrRef spec3 1) y := by
  obtain ⟨-, -, e2, e3, -⟩ := idx_facts3 t
  unfold iblk3
  rw [View.read_apply]
  show V c (Pipeline.arrRef spec3 1) (((cfg3.win 1).blk t).view.emb y) = V c (Pipeline.arrRef spec3 1) y
  refine congrArg _ ?_
  funext a; apply Fin.ext
  match a with
  | ⟨0, _⟩ => show win3_1.index t (0 : Fin 2) * 64 + 1 * (y 0).val = (y 0).val; rw [e2]; omega
  | ⟨1, _⟩ => show win3_1.index t (1 : Fin 2) * 64 + 1 * (y 1).val = (y 1).val; rw [e3]; omega

/-- Each vector window's block is the whole vector. -/
theorem blk3_2 (c : Dev nD) (t : Fin cfg3.N) (y : S64.Idx) :
    (iblk3 V c 2 t : Vec Ideal S64 .f32) y = V c (Pipeline.arrRef spec3 2) y := by
  obtain ⟨-, -, -, -, e4, -⟩ := idx_facts3 t
  unfold iblk3
  rw [View.read_apply]
  show V c (Pipeline.arrRef spec3 2) (((cfg3.win 2).blk t).view.emb y) = V c (Pipeline.arrRef spec3 2) y
  refine congrArg _ ?_
  funext a; apply Fin.ext
  match a with
  | ⟨0, _⟩ => show win3_2.index t (0 : Fin 1) * 64 + 1 * (y 0).val = (y 0).val; rw [e4]; omega
theorem blk3_3 (c : Dev nD) (t : Fin cfg3.N) (y : S64.Idx) :
    (iblk3 V c 3 t : Vec Ideal S64 .f32) y = V c (Pipeline.arrRef spec3 3) y := by
  obtain ⟨-, -, -, -, -, e5, -⟩ := idx_facts3 t
  unfold iblk3
  rw [View.read_apply]
  show V c (Pipeline.arrRef spec3 3) (((cfg3.win 3).blk t).view.emb y) = V c (Pipeline.arrRef spec3 3) y
  refine congrArg _ ?_
  funext a; apply Fin.ext
  match a with
  | ⟨0, _⟩ => show win3_3.index t (0 : Fin 1) * 64 + 1 * (y 0).val = (y 0).val; rw [e5]; omega
theorem blk3_4 (c : Dev nD) (t : Fin cfg3.N) (y : S64.Idx) :
    (iblk3 V c 4 t : Vec Ideal S64 .f32) y = V c (Pipeline.arrRef spec3 4) y := by
  obtain ⟨-, -, -, -, -, -, e6, -⟩ := idx_facts3 t
  unfold iblk3
  rw [View.read_apply]
  show V c (Pipeline.arrRef spec3 4) (((cfg3.win 4).blk t).view.emb y) = V c (Pipeline.arrRef spec3 4) y
  refine congrArg _ ?_
  funext a; apply Fin.ext
  match a with
  | ⟨0, _⟩ => show win3_4.index t (0 : Fin 1) * 64 + 1 * (y 0).val = (y 0).val; rw [e6]; omega

set_option maxHeartbeats 1000000 in
/-- At row p of point t's block, column q: the stored value is the layer's entry at the array index i whose row is
    10000·t + p and whose column is q. -/
theorem point3 (c : Dev nD) (t : Fin cfg3.N) (p : Fin 10000) (q : Fin 64) (i : S100000x64.Idx)
    (hi0 : (i 0).val = 10000 * t.val + p.val) (hi1 : (i 1).val = q.val) :
    k3_pay1 (F := Ideal) (iblk3 V c 0 t) (iblk3 V c 1 t) (iblk3 V c 2 t) (iblk3 V c 3 t) (iblk3 V c 4 t) (ix2 p q)
      = G (V c (Pipeline.arrRef spec3 0)) (V c (Pipeline.arrRef spec3 1)) (V c (Pipeline.arrRef spec3 2)) (V c (Pipeline.arrRef spec3 3)) (V c (Pipeline.arrRef spec3 4)) i := by
  obtain ⟨r, s, rfl⟩ : ∃ (r : Fin 100000) (s : Fin 64), i = ix2 r s := ⟨i 0, i 1, eq_ix2 i⟩
  obtain rfl : s = q := Fin.ext hi1
  refine (apply3_at (iblk3 V c 0 t) (iblk3 V c 1 t) (iblk3 V c 2 t) (iblk3 V c 3 t) (iblk3 V c 4 t) p s).trans ?_
  have e2 : ((iblk3 V c 2 t : Vec Ideal S64 .f32) (ix1 s) : EReal) = V c (Pipeline.arrRef spec3 2) (ix1 s) := blk3_2 V c t (ix1 s)
  have e3 : ((iblk3 V c 3 t : Vec Ideal S64 .f32) (ix1 s) : EReal) = V c (Pipeline.arrRef spec3 3) (ix1 s) := blk3_3 V c t (ix1 s)
  have e4 : ((iblk3 V c 4 t : Vec Ideal S64 .f32) (ix1 s) : EReal) = V c (Pipeline.arrRef spec3 4) (ix1 s) := blk3_4 V c t (ix1 s)
  have e0 : ∀ k : Fin 64, ((iblk3 V c 0 t : Vec Ideal S10000x64 .f32) (ix2 p k) : EReal) = V c (Pipeline.arrRef spec3 0) (ix2 r k) := fun k => blk3_0 V c t p k r hi0
  have e1 : ∀ k : Fin 64, ((iblk3 V c 1 t : Vec Ideal S64x64 .f32) (ix2 k s) : EReal) = V c (Pipeline.arrRef spec3 1) (ix2 k s) := fun k => blk3_1 V c t (ix2 k s)
  show max (linB (iblk3 V c 0 t) (iblk3 V c 1 t) (iblk3 V c 2 t) p s * (iblk3 V c 3 t : Vec Ideal S64 .f32) (ix1 s) + (iblk3 V c 4 t : Vec Ideal S64 .f32) (ix1 s)) 0
    = max (Cert.Spec.lin (V c (Pipeline.arrRef spec3 0)) (V c (Pipeline.arrRef spec3 1)) (V c (Pipeline.arrRef spec3 2)) r s * V c (Pipeline.arrRef spec3 3) (ix1 s) + V c (Pipeline.arrRef spec3 4) (ix1 s)) 0
  unfold linB Cert.Spec.lin
  rw [e2, e3, e4]
  simp only [e0, e1]

set_option maxHeartbeats 1000000 in
/-- What point t writes back is block t of the layer's matrix of the arrays as the region finds them. -/
theorem flushed3_eq (c : Dev nD) (t : Fin cfg3.N) :
    (dat3 V c).flushed 5 t = ((cfg3.win 5).blk t).view.read (Elt Ideal)
      (G (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz2]
  simp only [View.ld_unit_zero (S := S10000x64) hz2, View.ld_unit_zero (S := S64x64) hz2, View.ld_unit_zero (S := S64) hz1]
  obtain ⟨-, -, -, -, -, -, -, e7, e8⟩ := idx_facts3 t
  funext j
  show k3_pay1 (F := Ideal) (iblk3 V c 0 t) (iblk3 V c 1 t) (iblk3 V c 2 t) (iblk3 V c 3 t) (iblk3 V c 4 t) j
    = G (V c (Pipeline.arrRef spec3 0)) (V c (Pipeline.arrRef spec3 1)) (V c (Pipeline.arrRef spec3 2)) (V c (Pipeline.arrRef spec3 3)) (V c (Pipeline.arrRef spec3 4)) (((cfg3.win 5).blk t).view.emb j)
  refine (congrArg (k3_pay1 (F := Ideal) (iblk3 V c 0 t) (iblk3 V c 1 t) (iblk3 V c 2 t) (iblk3 V c 3 t) (iblk3 V c 4 t)) (eq_ix2 j)).trans ?_
  refine point3 V c t (j 0) (j 1) _ ?_ ?_
  · show win3_5.index t (0 : Fin 2) * 10000 + 1 * (j 0).val = _; rw [e7]; omega
  · show win3_5.index t (1 : Fin 2) * 64 + 1 * (j 1).val = _; rw [e8]; omega

/-- An index of the output array is in point t's block iff its row is among the block's 10000 rows. -/
theorem mem_blk3 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v52).slice (win3_5.rect t)).set ↔ _
  rw [View.set_slice_whole, Rect.mem_set_unit]
  exact Iff.rfl

set_option maxHeartbeats 1000000 in
/-- The output array after the region: the layer's matrix of the arrays as the region finds them. -/
theorem final3 (c : Dev nD) : (dat3 V c).arrAt 5 cfg3.N
    = G (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) fun i => by
    have hN : cfg3.N = 10 := N_3
    have hi0 : (i 0).val < 100000 := (i 0).isLt
    have hi1 : (i 1).val < 64 := (i 1).isLt
    refine ⟨⟨(i 0).val / 10000, by rw [hN]; omega⟩, flush3_5 _, ?_⟩
    rw [mem_blk3]
    obtain ⟨-, -, -, -, -, -, -, e7, e8⟩ := idx_facts3 ⟨(i 0).val / 10000, by rw [hN]; omega⟩
    intro a
    match a with
    | ⟨0, _⟩ => show win3_5.index _ (0 : Fin 2) * 10000 ≤ (i 0).val ∧ (i 0).val < win3_5.index _ (0 : Fin 2) * 10000 + 10000; rw [e7]; dsimp only; omega
    | ⟨1, _⟩ => show win3_5.index _ (1 : Fin 2) * 64 ≤ (i 1).val ∧ (i 1).val < win3_5.index _ (1 : Fin 2) * 64 + 64; rw [e8]; omega

end R3

/-! ## The apply region 5 -/

section R5

/-- The printed index maps of region 5, decided over the ten grid points: the row blocks of the input matrix and of the
    output move with the point, every other window stays at block 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0 ∧ win5_3.index t (0 : Fin 1) = 0 ∧ win5_4.index t (0 : Fin 1) = 0
    ∧ win5_5.index t (0 : Fin 2) = t.val ∧ win5_5.index t (1 : Fin 2) = 0 :=
  (by decide +kernel : ∀ t : Fin grid5.N, _)

/-- Row p of the point's block of the input matrix is row 10000·t + p of the array. -/
theorem blk5_0 (c : Dev nD) (t : Fin cfg5.N) (p : Fin 10000) (k : Fin 64) (r : Fin 100000)
    (hr : r.val = 10000 * t.val + p.val) :
    (iblk5 V c 0 t : Vec Ideal S10000x64 .f32) (ix2 p k) = V c (Pipeline.arrRef spec5 0) (ix2 r k) := by
  obtain ⟨e0, e1, -⟩ := idx_facts5 t
  unfold iblk5
  rw [View.read_apply]
  show V c (Pipeline.arrRef spec5 0) (((cfg5.win 0).blk t).view.emb (ix2 p k)) = V c (Pipeline.arrRef spec5 0) (ix2 r k)
  refine congrArg _ ?_
  funext a; apply Fin.ext
  match a with
  | ⟨0, _⟩ => show win5_0.index t (0 : Fin 2) * 10000 + 1 * p.val = r.val; rw [e0, hr]; omega
  | ⟨1, _⟩ => show win5_0.index t (1 : Fin 2) * 64 + 1 * k.val = k.val; rw [e1]; omega

/-- The weight window's block is the whole weight array. -/
theorem blk5_1 (c : Dev nD) (t : Fin cfg5.N) (y : S64x64.Idx) :
    (iblk5 V c 1 t : Vec Ideal S64x64 .f32) y = V c (Pipeline.arrRef spec5 1) y := by
  obtain ⟨-, -, e2, e3, -⟩ := idx_facts5 t
  unfold iblk5
  rw [View.read_apply]
  show V c (Pipeline.arrRef spec5 1) (((cfg5.win 1).blk t).view.emb y) = V c (Pipeline.arrRef spec5 1) y
  refine congrArg _ ?_
  funext a; apply Fin.ext
  match a with
  | ⟨0, _⟩ => show win5_1.index t (0 : Fin 2) * 64 + 1 * (y 0).val = (y 0).val; rw [e2]; omega
  | ⟨1, _⟩ => show win5_1.index t (1 : Fin 2) * 64 + 1 * (y 1).val = (y 1).val; rw [e3]; omega

/-- Each vector window's block is the whole vector. -/
theorem blk5_2 (c : Dev nD) (t : Fin cfg5.N) (y : S64.Idx) :
    (iblk5 V c 2 t : Vec Ideal S64 .f32) y = V c (Pipeline.arrRef spec5 2) y := by
  obtain ⟨-, -, -, -, e4, -⟩ := idx_facts5 t
  unfold iblk5
  rw [View.read_apply]
  show V c (Pipeline.arrRef spec5 2) (((cfg5.win 2).blk t).view.emb y) = V c (Pipeline.arrRef spec5 2) y
  refine congrArg _ ?_
  funext a; apply Fin.ext
  match a with
  | ⟨0, _⟩ => show win5_2.index t (0 : Fin 1) * 64 + 1 * (y 0).val = (y 0).val; rw [e4]; omega
theorem blk5_3 (c : Dev nD) (t : Fin cfg5.N) (y : S64.Idx) :
    (iblk5 V c 3 t : Vec Ideal S64 .f32) y = V c (Pipeline.arrRef spec5 3) y := by
  obtain ⟨-, -, -, -, -, e5, -⟩ := idx_facts5 t
  unfold iblk5
  rw [View.read_apply]
  show V c (Pipeline.arrRef spec5 3) (((cfg5.win 3).blk t).view.emb y) = V c (Pipeline.arrRef spec5 3) y
  refine congrArg _ ?_
  funext a; apply Fin.ext
  match a with
  | ⟨0, _⟩ => show win5_3.index t (0 : Fin 1) * 64 + 1 * (y 0).val = (y 0).val; rw [e5]; omega
theorem blk5_4 (c : Dev nD) (t : Fin cfg5.N) (y : S64.Idx) :
    (iblk5 V c 4 t : Vec Ideal S64 .f32) y = V c (Pipeline.arrRef spec5 4) y := by
  obtain ⟨-, -, -, -, -, -, e6, -⟩ := idx_facts5 t
  unfold iblk5
  rw [View.read_apply]
  show V c (Pipeline.arrRef spec5 4) (((cfg5.win 4).blk t).view.emb y) = V c (Pipeline.arrRef spec5 4) y
  refine congrArg _ ?_
  funext a; apply Fin.ext
  match a with
  | ⟨0, _⟩ => show win5_4.index t (0 : Fin 1) * 64 + 1 * (y 0).val = (y 0).val; rw [e6]; omega

set_option maxHeartbeats 1000000 in
/-- At row p of point t's block, column q: the stored value is the layer's entry at the array index i whose row is
    10000·t + p and whose column is q. -/
theorem point5 (c : Dev nD) (t : Fin cfg5.N) (p : Fin 10000) (q : Fin 64) (i : S100000x64.Idx)
    (hi0 : (i 0).val = 10000 * t.val + p.val) (hi1 : (i 1).val = q.val) :
    k5_pay1 (F := Ideal) (iblk5 V c 0 t) (iblk5 V c 1 t) (iblk5 V c 2 t) (iblk5 V c 3 t) (iblk5 V c 4 t) (ix2 p q)
      = G (V c (Pipeline.arrRef spec5 0)) (V c (Pipeline.arrRef spec5 1)) (V c (Pipeline.arrRef spec5 2)) (V c (Pipeline.arrRef spec5 3)) (V c (Pipeline.arrRef spec5 4)) i := by
  obtain ⟨r, s, rfl⟩ : ∃ (r : Fin 100000) (s : Fin 64), i = ix2 r s := ⟨i 0, i 1, eq_ix2 i⟩
  obtain rfl : s = q := Fin.ext hi1
  refine (apply5_at (iblk5 V c 0 t) (iblk5 V c 1 t) (iblk5 V c 2 t) (iblk5 V c 3 t) (iblk5 V c 4 t) p s).trans ?_
  have e2 : ((iblk5 V c 2 t : Vec Ideal S64 .f32) (ix1 s) : EReal) = V c (Pipeline.arrRef spec5 2) (ix1 s) := blk5_2 V c t (ix1 s)
  have e3 : ((iblk5 V c 3 t : Vec Ideal S64 .f32) (ix1 s) : EReal) = V c (Pipeline.arrRef spec5 3) (ix1 s) := blk5_3 V c t (ix1 s)
  have e4 : ((iblk5 V c 4 t : Vec Ideal S64 .f32) (ix1 s) : EReal) = V c (Pipeline.arrRef spec5 4) (ix1 s) := blk5_4 V c t (ix1 s)
  have e0 : ∀ k : Fin 64, ((iblk5 V c 0 t : Vec Ideal S10000x64 .f32) (ix2 p k) : EReal) = V c (Pipeline.arrRef spec5 0) (ix2 r k) := fun k => blk5_0 V c t p k r hi0
  have e1 : ∀ k : Fin 64, ((iblk5 V c 1 t : Vec Ideal S64x64 .f32) (ix2 k s) : EReal) = V c (Pipeline.arrRef spec5 1) (ix2 k s) := fun k => blk5_1 V c t (ix2 k s)
  show max (linB (iblk5 V c 0 t) (iblk5 V c 1 t) (iblk5 V c 2 t) p s * (iblk5 V c 3 t : Vec Ideal S64 .f32) (ix1 s) + (iblk5 V c 4 t : Vec Ideal S64 .f32) (ix1 s)) 0
    = max (Cert.Spec.lin (V c (Pipeline.arrRef spec5 0)) (V c (Pipeline.arrRef spec5 1)) (V c (Pipeline.arrRef spec5 2)) r s * V c (Pipeline.arrRef spec5 3) (ix1 s) + V c (Pipeline.arrRef spec5 4) (ix1 s)) 0
  unfold linB Cert.Spec.lin
  rw [e2, e3, e4]
  simp only [e0, e1]

set_option maxHeartbeats 1000000 in
/-- What point t writes back is block t of the layer's matrix of the arrays as the region finds them. -/
theorem flushed5_eq (c : Dev nD) (t : Fin cfg5.N) :
    (dat5 V c).flushed 5 t = ((cfg5.win 5).blk t).view.read (Elt Ideal)
      (G (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz2]
  simp only [View.ld_unit_zero (S := S10000x64) hz2, View.ld_unit_zero (S := S64x64) hz2, View.ld_unit_zero (S := S64) hz1]
  obtain ⟨-, -, -, -, -, -, -, e7, e8⟩ := idx_facts5 t
  funext j
  show k5_pay1 (F := Ideal) (iblk5 V c 0 t) (iblk5 V c 1 t) (iblk5 V c 2 t) (iblk5 V c 3 t) (iblk5 V c 4 t) j
    = G (V c (Pipeline.arrRef spec5 0)) (V c (Pipeline.arrRef spec5 1)) (V c (Pipeline.arrRef spec5 2)) (V c (Pipeline.arrRef spec5 3)) (V c (Pipeline.arrRef spec5 4)) (((cfg5.win 5).blk t).view.emb j)
  refine (congrArg (k5_pay1 (F := Ideal) (iblk5 V c 0 t) (iblk5 V c 1 t) (iblk5 V c 2 t) (iblk5 V c 3 t) (iblk5 V c 4 t)) (eq_ix2 j)).trans ?_
  refine point5 V c t (j 0) (j 1) _ ?_ ?_
  · show win5_5.index t (0 : Fin 2) * 10000 + 1 * (j 0).val = _; rw [e7]; omega
  · show win5_5.index t (1 : Fin 2) * 64 + 1 * (j 1).val = _; rw [e8]; omega

/-- An index of the output array is in point t's block iff its row is among the block's 10000 rows. -/
theorem mem_blk5 (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v89).slice (win5_5.rect t)).set ↔ _
  rw [View.set_slice_whole, Rect.mem_set_unit]
  exact Iff.rfl

set_option maxHeartbeats 1000000 in
/-- The output array after the region: the layer's matrix of the arrays as the region finds them. -/
theorem final5 (c : Dev nD) : (dat5 V c).arrAt 5 cfg5.N
    = G (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_eq V c t) fun i => by
    have hN : cfg5.N = 10 := N_5
    have hi0 : (i 0).val < 100000 := (i 0).isLt
    have hi1 : (i 1).val < 64 := (i 1).isLt
    refine ⟨⟨(i 0).val / 10000, by rw [hN]; omega⟩, flush5_5 _, ?_⟩
    rw [mem_blk5]
    obtain ⟨-, -, -, -, -, -, -, e7, e8⟩ := idx_facts5 ⟨(i 0).val / 10000, by rw [hN]; omega⟩
    intro a
    match a with
    | ⟨0, _⟩ => show win5_5.index _ (0 : Fin 2) * 10000 ≤ (i 0).val ∧ (i 0).val < win5_5.index _ (0 : Fin 2) * 10000 + 10000; rw [e7]; dsimp only; omega
    | ⟨1, _⟩ => show win5_5.index _ (1 : Fin 2) * 64 ≤ (i 1).val ∧ (i 1).val < win5_5.index _ (1 : Fin 2) * 64 + 64; rw [e8]; omega

end R5

end Cert.KernelIdeal.KApply

end
-- ==== Proof.KPayStats.lean ====
/-
  The statistics body, read at one entry over the extended reals.

  Its two running [1, 64] rows start at zero; each step adds to the first the column sums of x·w + b over the block of
  10000 rows, and to the second the column sums of the squares.  A column sum is the reduction over the row axis read at
  a column; the cast of a length-64 vector to a single row keeps the column.
-/
import proofs.«172633_j57071525429473_1_alg».proof.Proof.KPay

noncomputable section

open scoped BigOperators

namespace Cert.KernelIdeal.KPay

open Idealize.ShloMosaic Idealize.ShloMosaic.ValueIdx Cert.KernelIdeal Cert.KernelIdeal.Gen

/-- A length-64 vector cast to one row, at (u, q), is the vector at q. -/
theorem cast_row_apply {α : Type} (v : S64.Idx → α) (h : S64.ShapeCasts S1x64) (u : Fin 1) (q : Fin 64) :
    shapeCast S1x64 v h (ix2 u q) = v (ix1 q) :=
  shapeCast_apply v h (ix2 u q) (ix1 q) (by
    rw [Shape.rowMajor_val_two, Shape.rowMajor_val_one]
    show q.val = u.val * 64 + q.val
    have := u.isLt
    omega)

/-- The index the reduction over the row axis inserts at column q and row p is (p, q). -/
theorem lift_col (h : S10000x64.Reduces [0] S64) (q : Fin 64) (p : Fin 10000) : h.lift (ix1 q) p = ix2 p q := by
  funext a
  refine Fin.ext ?_
  match a with
  | ⟨0, _⟩ => rfl
  | ⟨1, _⟩ => rfl

/-! ### The statistics body of kernel 0 -/

/-- The first running row starts at zero. -/
theorem zero0a_at (u : Fin 1) (q : Fin 64) : k0_pay1 (F := Ideal) (ix2 u q) = 0 := by
  show Ideal.ofBits .f32 0x00000000#32 = 0
  exact Ideal.ofBits_zero_f32

/-- The second running row starts at zero. -/
theorem zero0b_at (u : Fin 1) (q : Fin 64) : k0_pay2 (F := Ideal) (ix2 u q) = 0 := by
  show Ideal.ofBits .f32 0x00000000#32 = 0
  exact Ideal.ofBits_zero_f32

/-- The first running row gains the column sums of x·w + b over the block. -/
theorem sum0_at (x0 : FVec Ideal S10000x64 .f32) (x1 : FVec Ideal S64x64 .f32) (x2 : FVec Ideal S64 .f32)
    (acc : FVec Ideal S1x64 .f32) (u : Fin 1) (q : Fin 64) :
    k0_pay4 (F := Ideal) x0 x1 x2 acc (ix2 u q) = acc (ix2 u q) + ∑ p : Fin 10000, linB x0 x1 x2 p q := by
  unfold k0_pay4
  simp only [shapeCast_self]
  rw [addf_apply, cast_row_apply]
  refine congrArg (fun t : EReal => acc (ix2 u q) + t) ?_
  refine (Ideal.multiReduction_add_single _ 0x00000000#32 reduces_S10000x64_S64 (.inl rfl) rfl (ix1 q)).trans ?_
  refine Finset.sum_congr rfl fun (p : Fin 10000) _ => ?_
  exact (congrArg (k0_pay3 (F := Ideal) x0 x1 x2) (lift_col reduces_S10000x64_S64 q p)).trans (lin0_at x0 x1 x2 p q)

/-- The second running row gains the column sums of the squares of x·w + b over the block. -/
theorem sq0_at (x0 : FVec Ideal S10000x64 .f32) (x1 : FVec Ideal S64x64 .f32) (x2 : FVec Ideal S64 .f32)
    (acc : FVec Ideal S1x64 .f32) (u : Fin 1) (q : Fin 64) :
    k0_pay5 (F := Ideal) x0 x1 x2 acc (ix2 u q)
      = acc (ix2 u q) + ∑ p : Fin 10000, linB x0 x1 x2 p q * linB x0 x1 x2 p q := by
  unfold k0_pay5
  simp only [shapeCast_self]
  rw [addf_apply, cast_row_apply]
  refine congrArg (fun t : EReal => acc (ix2 u q) + t) ?_
  refine (Ideal.multiReduction_add_single _ 0x00000000#32 reduces_S10000x64_S64 (.inl rfl) rfl (ix1 q)).trans ?_
  refine Finset.sum_congr rfl fun (p : Fin 10000) _ => ?_
  refine (congrArg (mulf (k0_pay3 (F := Ideal) x0 x1 x2) (k0_pay3 (F := Ideal) x0 x1 x2))
    (lift_col reduces_S10000x64_S64 q p)).trans ?_
  rw [mulf_apply, lin0_at]

/-! ### The statistics body of kernel 2 -/

/-- The first running row starts at zero. -/
theorem zero2a_at (u : Fin 1) (q : Fin 64) : k2_pay1 (F := Ideal) (ix2 u q) = 0 := by
  show Ideal.ofBits .f32 0x00000000#32 = 0
  exact Ideal.ofBits_zero_f32

/-- The second running row starts at zero. -/
theorem zero2b_at (u : Fin 1) (q : Fin 64) : k2_pay2 (F := Ideal) (ix2 u q) = 0 := by
  show Ideal.ofBits .f32 0x00000000#32 = 0
  exact Ideal.ofBits_zero_f32

/-- The first running row gains the column sums of x·w + b over the block. -/
theorem sum2_at (x0 : FVec Ideal S10000x64 .f32) (x1 : FVec Ideal S64x64 .f32) (x2 : FVec Ideal S64 .f32)
    (acc : FVec Ideal S1x64 .f32) (u : Fin 1) (q : Fin 64) :
    k2_pay4 (F := Ideal) x0 x1 x2 acc (ix2 u q) = acc (ix2 u q) + ∑ p : Fin 10000, linB x0 x1 x2 p q := by
  unfold k2_pay4
  simp only [shapeCast_self]
  rw [addf_apply, cast_row_apply]
  refine congrArg (fun t : EReal => acc (ix2 u q) + t) ?_
  refine (Ideal.multiReduction_add_single _ 0x00000000#32 reduces_S10000x64_S64 (.inl rfl) rfl (ix1 q)).trans ?_
  refine Finset.sum_congr rfl fun (p : Fin 10000) _ => ?_
  exact (congrArg (k2_pay3 (F := Ideal) x0 x1 x2) (lift_col reduces_S10000x64_S64 q p)).trans (lin2_at x0 x1 x2 p q)

/-- The second running row gains the column sums of the squares of x·w + b over the block. -/
theorem sq2_at (x0 : FVec Ideal S10000x64 .f32) (x1 : FVec Ideal S64x64 .f32) (x2 : FVec Ideal S64 .f32)
    (acc : FVec Ideal S1x64 .f32) (u : Fin 1) (q : Fin 64) :
    k2_pay5 (F := Ideal) x0 x1 x2 acc (ix2 u q)
      = acc (ix2 u q) + ∑ p : Fin 10000, linB x0 x1 x2 p q * linB x0 x1 x2 p q := by
  unfold k2_pay5
  simp only [shapeCast_self]
  rw [addf_apply, cast_row_apply]
  refine congrArg (fun t : EReal => acc (ix2 u q) + t) ?_
  refine (Ideal.multiReduction_add_single _ 0x00000000#32 reduces_S10000x64_S64 (.inl rfl) rfl (ix1 q)).trans ?_
  refine Finset.sum_congr rfl fun (p : Fin 10000) _ => ?_
  refine (congrArg (mulf (k2_pay3 (F := Ideal) x0 x1 x2) (k2_pay3 (F := Ideal) x0 x1 x2))
    (lift_col reduces_S10000x64_S64 q p)).trans ?_
  rw [mulf_apply, lin2_at]

/-! ### The statistics body of kernel 4 -/

/-- The first running row starts at zero. -/
theorem zero4a_at (u : Fin 1) (q : Fin 64) : k4_pay1 (F := Ideal) (ix2 u q) = 0 := by
  show Ideal.ofBits .f32 0x00000000#32 = 0
  exact Ideal.ofBits_zero_f32

/-- The second running row starts at zero. -/
theorem zero4b_at (u : Fin 1) (q : Fin 64) : k4_pay2 (F := Ideal) (ix2 u q) = 0 := by
  show Ideal.ofBits .f32 0x00000000#32 = 0
  exact Ideal.ofBits_zero_f32

/-- The first running row gains the column sums of x·w + b over the block. -/
theorem sum4_at (x0 : FVec Ideal S10000x64 .f32) (x1 : FVec Ideal S64x64 .f32) (x2 : FVec Ideal S64 .f32)
    (acc : FVec Ideal S1x64 .f32) (u : Fin 1) (q : Fin 64) :
    k4_pay4 (F := Ideal) x0 x1 x2 acc (ix2 u q) = acc (ix2 u q) + ∑ p : Fin 10000, linB x0 x1 x2 p q := by
  unfold k4_pay4
  simp only [shapeCast_self]
  rw [addf_apply, cast_row_apply]
  refine congrArg (fun t : EReal => acc (ix2 u q) + t) ?_
  refine (Ideal.multiReduction_add_single _ 0x00000000#32 reduces_S10000x64_S64 (.inl rfl) rfl (ix1 q)).trans ?_
  refine Finset.sum_congr rfl fun (p : Fin 10000) _ => ?_
  exact (congrArg (k4_pay3 (F := Ideal) x0 x1 x2) (lift_col reduces_S10000x64_S64 q p)).trans (lin4_at x0 x1 x2 p q)

/-- The second running row gains the column sums of the squares of x·w + b over the block. -/
theorem sq4_at (x0 : FVec Ideal S10000x64 .f32) (x1 : FVec Ideal S64x64 .f32) (x2 : FVec Ideal S64 .f32)
    (acc : FVec Ideal S1x64 .f32) (u : Fin 1) (q : Fin 64) :
    k4_pay5 (F := Ideal) x0 x1 x2 acc (ix2 u q)
      = acc (ix2 u q) + ∑ p : Fin 10000, linB x0 x1 x2 p q * linB x0 x1 x2 p q := by
  unfold k4_pay5
  simp only [shapeCast_self]
  rw [addf_apply, cast_row_apply]
  refine congrArg (fun t : EReal => acc (ix2 u q) + t) ?_
  refine (Ideal.multiReduction_add_single _ 0x00000000#32 reduces_S10000x64_S64 (.inl rfl) rfl (ix1 q)).trans ?_
  refine Finset.sum_congr rfl fun (p : Fin 10000) _ => ?_
  refine (congrArg (mulf (k4_pay3 (F := Ideal) x0 x1 x2) (k4_pay3 (F := Ideal) x0 x1 x2))
    (lift_col reduces_S10000x64_S64 q p)).trans ?_
  rw [mulf_apply, lin4_at]

end Cert.KernelIdeal.KPay

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.BlockAcc.lean ====
/-
  A running sum over ten blocks of 10000 rows is the sum over all 100000 rows.

  The rows 0, …, 99999 are cut into the ten blocks t = 0, …, 9 of the rows 10000·t + p, p = 0, …, 9999.  A sequence that
  starts at the sum over block 0 (added to zero) and adds the sum over block n + 1 at step n + 1 is, at step 9, the
  sum over all rows: addition is commutative and associative, so nothing is asked of the summands.
-/
import Mathlib
import proofs.«172633_j57071525429473_1_alg».proof.Proof.LibBlockSum

open scoped BigOperators

namespace Cert.Spec

/-- Row p of block t. -/
def row (t : ℕ) (ht : t < 10) (p : Fin 10000) : Fin 100000 := ⟨10000 * t + p.val, by omega⟩

/-- The running sum over the ten blocks, at its last step, is the sum over all rows. -/
theorem acc_blocks (L : Fin 100000 → EReal) (acc : (n : ℕ) → n < 10 → EReal)
    (h0 : acc 0 (by norm_num) = 0 + ∑ p : Fin 10000, L (row 0 (by norm_num) p))
    (hs : ∀ (n : ℕ) (h : n + 1 < 10), acc (n + 1) h = acc n (by omega) + ∑ p : Fin 10000, L (row (n + 1) h p)) :
    acc 9 (by norm_num) = ∑ r : Fin 100000, L r := by
  have hsum : ∑ r : Fin 100000, L r = ∑ t : Fin 10, ∑ p : Fin 10000, L (row t.val t.isLt p) :=
    Cert.Lib.BlockSum.sum_eq_sum_blocks 10 10000 (by norm_num) L
  rw [hsum]
  exact Cert.Lib.BlockSum.acc_fin_last (n := 9) (fun t : Fin 10 => ∑ p : Fin 10000, L (row t.val t.isLt p))
    (fun t : Fin 10 => acc t.val t.isLt) (h0.trans (zero_add _)) (fun k => hs k.val (by omega))

end Cert.Spec
-- ==== Proof.KStats.lean ====
/-
  The three "statistics" regions, read as whole-array functions.

  A statistics region walks the 100000 rows of its input matrix in ten blocks of 10000 rows.  Its two [1, 64] output
  rows never move: the first point resets them to zero, every point adds to the first the column sums of x·w + b over
  the point's block and to the second the column sums of the squares, and the last point writes them back.  So after
  the region the first output holds, at column c, the sum over all 100000 rows of (X·W + b) (r, c), and the second the
  sum of its squares, of the arrays as the region finds them.
-/
import proofs.«172633_j57071525429473_1_alg».proof.Proof.Gen.KernelIdeal.Frame
import proofs.«172633_j57071525429473_1_alg».proof.Proof.KPay
import proofs.«172633_j57071525429473_1_alg».proof.Proof.KPayStats
import proofs.«172633_j57071525429473_1_alg».proof.Proof.Spec
import proofs.«172633_j57071525429473_1_alg».proof.Proof.BlockAcc
import Idealize.ShloMosaic.Lib.Pipeline.Value
import Idealize.ShloMosaic.Lib.Tactic

set_option maxRecDepth 16384

noncomputable section

open scoped BigOperators

namespace Cert.KernelIdeal.KStats

open Idealize.ShloMosaic Idealize.ShloMosaic.TcCoe Idealize.ShloMosaic.ValueIdx Idealize.SL.Sem
open Idealize.ShloMosaic.Pipeline (Dat)
open Idealize.ShloMosaic.Tactic
open Cert.KernelIdeal Cert.KernelIdeal.Gen Cert.KernelIdeal.KPay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The column sums of X·W + b over all rows, as a row. -/
def sumRow (X : S100000x64.Idx → EReal) (W : S64x64.Idx → EReal) (b : S64.Idx → EReal) : S1x64.Idx → EReal :=
  fun j => ∑ r : Fin 100000, Cert.Spec.lin X W b r (j 1)

/-- The column sums of the squares of X·W + b over all rows, as a row. -/
def sqRow (X : S100000x64.Idx → EReal) (W : S64x64.Idx → EReal) (b : S64.Idx → EReal) : S1x64.Idx → EReal :=
  fun j => ∑ r : Fin 100000, Cert.Spec.lin X W b r (j 1) * Cert.Spec.lin X W b r (j 1)

/-! ## The statistics region 0 -/

section R0

/-- The first point leaves in output 3's buffer the payload over the zero row it has just stored. -/
theorem out0_A_3_eq (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : cond0_0 i) (x0 : Vec Ideal S10000x64 .f32) (x1 : Vec Ideal S64x64 .f32) (x2 : Vec Ideal S64 .f32) :
    out0_A_3 (F := Ideal) c i arg1 harg1 arg2 harg2 arg3 harg3 arg4 harg4 arg5 harg5 hc0 x0 x1 x2 = k0_pay4 (F := Ideal) x0 x1 x2 (k0_pay1 (F := Ideal)) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread,
    View.ld_unit_zero (S := S10000x64) hz2, View.ld_unit_zero (S := S64x64) hz2, View.ld_unit_zero (S := S64) hz1]

/-- The first point leaves in output 4's buffer the payload over the zero row it has just stored. -/
theorem out0_A_4_eq (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : cond0_0 i) (x0 : Vec Ideal S10000x64 .f32) (x1 : Vec Ideal S64x64 .f32) (x2 : Vec Ideal S64 .f32) :
    out0_A_4 (F := Ideal) c i arg1 harg1 arg2 harg2 arg3 harg3 arg4 harg4 arg5 harg5 hc0 x0 x1 x2 = k0_pay5 (F := Ideal) x0 x1 x2 (k0_pay2 (F := Ideal)) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread,
    View.ld_unit_zero (S := S10000x64) hz2, View.ld_unit_zero (S := S64x64) hz2, View.ld_unit_zero (S := S64) hz1]

/-- A later point leaves in output 3's buffer the payload over what the buffer held. -/
theorem out0_B_3_eq (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : ¬cond0_0 i) (x0 : Vec Ideal S10000x64 .f32) (x1 : Vec Ideal S64x64 .f32) (x2 : Vec Ideal S64 .f32) (xo3 : Vec Ideal S1x64 .f32) (xo4 : Vec Ideal S1x64 .f32) :
    out0_B_3 (F := Ideal) c i arg1 harg1 arg2 harg2 arg3 harg3 arg4 harg4 arg5 harg5 hc0 x0 x1 x2 xo3 xo4 = k0_pay4 (F := Ideal) x0 x1 x2 xo3 := by
  unfold out0_B_3
  rw [View.read_writes_eq_canon _ _ _ (cover0_B_3 c i arg1 harg1 arg2 harg2 arg3 harg3 arg4 harg4 arg5 harg5 hc0 x0 x1 x2 xo3 xo4)]
  unfold kernelRun0_B
  dsimp only
  rw [View.canon_unit_zero hz2]
  simp only [View.readAt_eq_ld, harg1.read_unread, harg2.read_unread, harg3.read_unread, harg4.read_unread,
    harg5.read_unread, View.ld_unit_zero (S := S10000x64) hz2, View.ld_unit_zero (S := S64x64) hz2,
    View.ld_unit_zero (S := S64) hz1, View.ld_unit_zero (S := S1x64) hz2]

/-- A later point leaves in output 4's buffer the payload over what the buffer held. -/
theorem out0_B_4_eq (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : ¬cond0_0 i) (x0 : Vec Ideal S10000x64 .f32) (x1 : Vec Ideal S64x64 .f32) (x2 : Vec Ideal S64 .f32) (xo3 : Vec Ideal S1x64 .f32) (xo4 : Vec Ideal S1x64 .f32) :
    out0_B_4 (F := Ideal) c i arg1 harg1 arg2 harg2 arg3 harg3 arg4 harg4 arg5 harg5 hc0 x0 x1 x2 xo3 xo4 = k0_pay5 (F := Ideal) x0 x1 x2 xo4 := by
  unfold out0_B_4
  rw [View.read_writes_eq_canon _ _ _ (cover0_B_4 c i arg1 harg1 arg2 harg2 arg3 harg3 arg4 harg4 arg5 harg5 hc0 x0 x1 x2 xo3 xo4)]
  unfold kernelRun0_B
  dsimp only
  rw [View.canon_unit_zero hz2]
  simp only [View.readAt_eq_ld, harg1.read_unread, harg2.read_unread, harg3.read_unread, harg4.read_unread,
    harg5.read_unread, View.ld_unit_zero (S := S10000x64) hz2, View.ld_unit_zero (S := S64x64) hz2,
    View.ld_unit_zero (S := S64) hz1, View.ld_unit_zero (S := S1x64) hz2]

/-! ### The recursion over the points, as equations -/

/-- After the first point: the payloads over the zero rows. -/
theorem outs0_zero (c : Dev nD) (h : 0 < cfg0.N) :
    outsAt0 V c 0 h = (k0_pay4 (F := Ideal) (iblk0 V c 0 ⟨0, h⟩) (iblk0 V c 1 ⟨0, h⟩) (iblk0 V c 2 ⟨0, h⟩) (k0_pay1 (F := Ideal)),
      k0_pay5 (F := Ideal) (iblk0 V c 0 ⟨0, h⟩) (iblk0 V c 1 ⟨0, h⟩) (iblk0 V c 2 ⟨0, h⟩) (k0_pay2 (F := Ideal))) := by
  refine (outsAt0_A V c ⟨0, h⟩ rfl).trans ?_
  exact Prod.ext
    (out0_A_3_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩) (iblk0 V c 2 ⟨0, h⟩))
    (out0_A_4_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩) (iblk0 V c 2 ⟨0, h⟩))

/-- After a later point: the payloads over what the point before left. -/
theorem outs0_succ (c : Dev nD) (n : ℕ) (h : n + 1 < cfg0.N) :
    outsAt0 V c (n + 1) h = (k0_pay4 (F := Ideal) (iblk0 V c 0 ⟨n + 1, h⟩) (iblk0 V c 1 ⟨n + 1, h⟩) (iblk0 V c 2 ⟨n + 1, h⟩) (outsAt0 V c n (Nat.lt_of_succ_lt h)).1,
      k0_pay5 (F := Ideal) (iblk0 V c 0 ⟨n + 1, h⟩) (iblk0 V c 1 ⟨n + 1, h⟩) (iblk0 V c 2 ⟨n + 1, h⟩) (outsAt0 V c n (Nat.lt_of_succ_lt h)).2) := by
  have hN : cfg0.N = 10 := N_0
  have hB : ¬(⟨n + 1, h⟩ : Fin cfg0.N).val % 10 = 0 := by dsimp only; omega
  refine (outsAt0_B V c ⟨n + 1, h⟩ hB).trans ?_
  exact Prod.ext
    (out0_B_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩)
      (outsAt0 V c n (Nat.lt_of_succ_lt h)).1 (outsAt0 V c n (Nat.lt_of_succ_lt h)).2)
    (out0_B_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩)
      (outsAt0 V c n (Nat.lt_of_succ_lt h)).1 (outsAt0 V c n (Nat.lt_of_succ_lt h)).2)

/-! ### The windows' blocks -/

/-- The printed index maps of the region, decided over the ten grid points: the row blocks of the input matrix move
    with the point, every other window stays at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of the point's block of the input matrix is row 10000·t + p of the array. -/
theorem blk0_0 (c : Dev nD) (t : Fin cfg0.N) (p : Fin 10000) (k : Fin 64) (r : Fin 100000)
    (hr : r.val = 10000 * t.val + p.val) :
    (iblk0 V c 0 t : Vec Ideal S10000x64 .f32) (ix2 p k) = V c (Pipeline.arrRef spec0 0) (ix2 r k) := by
  obtain ⟨e0, e1, -⟩ := idx_facts0 t
  unfold iblk0
  rw [View.read_apply]
  show V c (Pipeline.arrRef spec0 0) (((cfg0.win 0).blk t).view.emb (ix2 p k)) = V c (Pipeline.arrRef spec0 0) (ix2 r k)
  refine congrArg _ ?_
  funext a; apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weight window's block is the whole weight array. -/
theorem blk0_1 (c : Dev nD) (t : Fin cfg0.N) (y : S64x64.Idx) :
    (iblk0 V c 1 t : Vec Ideal S64x64 .f32) y = V c (Pipeline.arrRef spec0 1) y := by
  obtain ⟨-, -, e2, e3, -⟩ := idx_facts0 t
  unfold iblk0
  rw [View.read_apply]
  show V c (Pipeline.arrRef spec0 1) (((cfg0.win 1).blk t).view.emb y) = V c (Pipeline.arrRef spec0 1) y
  refine congrArg _ ?_
  funext a; apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- The bias window's block is the whole vector. -/
theorem blk0_2 (c : Dev nD) (t : Fin cfg0.N) (y : S64.Idx) :
    (iblk0 V c 2 t : Vec Ideal S64 .f32) y = V c (Pipeline.arrRef spec0 2) y := by
  obtain ⟨-, -, -, -, e4, -⟩ := idx_facts0 t
  unfold iblk0
  rw [View.read_apply]
  show V c (Pipeline.arrRef spec0 2) (((cfg0.win 2).blk t).view.emb y) = V c (Pipeline.arrRef spec0 2) y
  refine congrArg _ ?_
  funext a; apply Fin.ext
  match a with
  | ⟨0, _⟩ => show win0_2.index t (0 : Fin 1) * 64 + 1 * (y 0).val = (y 0).val; rw [e4]; omega

/-- Entry (p, q) of x·w + b over the point's blocks is entry (10000·t + p, q) of X·W + b over the arrays. -/
theorem linB0_eq (c : Dev nD) (t : Fin cfg0.N) (ht : t.val < 10) (p : Fin 10000) (q : Fin 64) :
    linB (iblk0 V c 0 t) (iblk0 V c 1 t) (iblk0 V c 2 t) p q = Cert.Spec.lin (V c (Pipeline.arrRef spec0 0)) (V c (Pipeline.arrRef spec0 1)) (V c (Pipeline.arrRef spec0 2)) (Cert.Spec.row t.val ht p) q := by
  unfold linB Cert.Spec.lin
  rw [blk0_2 V c t]
  refine congrArg (fun z : EReal => z + (V c (Pipeline.arrRef spec0 2) (ix1 q) : EReal)) ?_
  refine Finset.sum_congr rfl fun k _ => ?_
  rw [blk0_0 V c t p k (Cert.Spec.row t.val ht p) rfl, blk0_1 V c t]

/-! ### The running rows at the last point -/

/-- The first row after the last point: the column sums over all rows. -/
theorem acc0_3 (c : Dev nD) (u : Fin 1) (q : Fin 64) (h9 : 9 < cfg0.N) :
    (outsAt0 V c 9 h9).1 (ix2 u q) = ∑ r : Fin 100000, Cert.Spec.lin (V c (Pipeline.arrRef spec0 0)) (V c (Pipeline.arrRef spec0 1)) (V c (Pipeline.arrRef spec0 2)) r q := by
  have hN : cfg0.N = 10 := N_0
  refine Cert.Spec.acc_blocks (fun r => Cert.Spec.lin (V c (Pipeline.arrRef spec0 0)) (V c (Pipeline.arrRef spec0 1)) (V c (Pipeline.arrRef spec0 2)) r q)
    (fun n hn => (outsAt0 V c n (by omega)).1 (ix2 u q)) ?_ ?_
  · show (outsAt0 V c 0 _).1 (ix2 u q) = _
    rw [outs0_zero V c]
    show k0_pay4 (F := Ideal) _ _ _ _ (ix2 u q) = _
    rw [sum0_at, zero0a_at]
    refine congrArg (fun z : EReal => 0 + z) ?_
    exact Finset.sum_congr rfl fun p _ => linB0_eq V c ⟨0, by omega⟩ (by norm_num) p q
  · intro n h
    show (outsAt0 V c (n + 1) _).1 (ix2 u q) = (outsAt0 V c n _).1 (ix2 u q) + _
    rw [outs0_succ V c n]
    show k0_pay4 (F := Ideal) _ _ _ _ (ix2 u q) = _
    rw [sum0_at]
    refine congrArg (fun z : EReal => (outsAt0 V c n _).1 (ix2 u q) + z) ?_
    exact Finset.sum_congr rfl fun p _ => linB0_eq V c ⟨n + 1, by omega⟩ h p q

/-- The second row after the last point: the column sums of the squares over all rows. -/
theorem acc0_4 (c : Dev nD) (u : Fin 1) (q : Fin 64) (h9 : 9 < cfg0.N) :
    (outsAt0 V c 9 h9).2 (ix2 u q)
      = ∑ r : Fin 100000, Cert.Spec.lin (V c (Pipeline.arrRef spec0 0)) (V c (Pipeline.arrRef spec0 1)) (V c (Pipeline.arrRef spec0 2)) r q * Cert.Spec.lin (V c (Pipeline.arrRef spec0 0)) (V c (Pipeline.arrRef spec0 1)) (V c (Pipeline.arrRef spec0 2)) r q := by
  have hN : cfg0.N = 10 := N_0
  refine Cert.Spec.acc_blocks (fun r => Cert.Spec.lin (V c (Pipeline.arrRef spec0 0)) (V c (Pipeline.arrRef spec0 1)) (V c (Pipeline.arrRef spec0 2)) r q * Cert.Spec.lin (V c (Pipeline.arrRef spec0 0)) (V c (Pipeline.arrRef spec0 1)) (V c (Pipeline.arrRef spec0 2)) r q)
    (fun n hn => (outsAt0 V c n (by omega)).2 (ix2 u q)) ?_ ?_
  · show (outsAt0 V c 0 _).2 (ix2 u q) = _
    rw [outs0_zero V c]
    show k0_pay5 (F := Ideal) _ _ _ _ (ix2 u q) = _
    rw [sq0_at, zero0b_at]
    refine congrArg (fun z : EReal => 0 + z) ?_
    refine Finset.sum_congr rfl fun p _ => ?_
    rw [linB0_eq V c ⟨0, by omega⟩ (by norm_num) p q]
  · intro n h
    show (outsAt0 V c (n + 1) _).2 (ix2 u q) = (outsAt0 V c n _).2 (ix2 u q) + _
    rw [outs0_succ V c n]
    show k0_pay5 (F := Ideal) _ _ _ _ (ix2 u q) = _
    rw [sq0_at]
    refine congrArg (fun z : EReal => (outsAt0 V c n _).2 (ix2 u q) + z) ?_
    refine Finset.sum_congr rfl fun p _ => ?_
    rw [linB0_eq V c ⟨n + 1, by omega⟩ h p q]

/-! ### Output 3: the one write-back, and the array -/

set_option maxHeartbeats 2000000 in
/-- What the last point writes back is the whole row of the arrays as the region finds them. -/
theorem flushed0_3 (c : Dev nD) (t : Fin cfg0.N) (hf : (cfg0.win 3).flush t = true) :
    (dat0 V c).flushed 3 t = ((cfg0.win 3).blk t).view.read (Elt Ideal) (sumRow (V c (Pipeline.arrRef spec0 0)) (V c (Pipeline.arrRef spec0 1)) (V c (Pipeline.arrRef spec0 2))) := by
  have hN : cfg0.N = 10 := N_0
  have h9 : t.val = 9 := by have := (flush0_3 t).mp hf; have := t.isLt; omega
  have hacc : ∀ (u : Fin 1) (z : Fin 64), (outsAt0 V c t.val t.isLt).1 (ix2 u z) = ∑ r : Fin 100000, Cert.Spec.lin (V c (Pipeline.arrRef spec0 0)) (V c (Pipeline.arrRef spec0 1)) (V c (Pipeline.arrRef spec0 2)) r z := by
    intro u z
    obtain ⟨n, hn⟩ := t
    obtain rfl : n = 9 := h9
    exact acc0_3 V c u z hn
  show (cfg0.win 3).cut (grid0.coords t) ((dat0 V c).after 3 t) = _
  rw [after0_3]
  generalize (outsAt0 V c t.val t.isLt).1 = Y at hacc ⊢
  have hG : ∀ j : S1x64.Idx, sumRow (V c (Pipeline.arrRef spec0 0)) (V c (Pipeline.arrRef spec0 1)) (V c (Pipeline.arrRef spec0 2)) j = ∑ r : Fin 100000, Cert.Spec.lin (V c (Pipeline.arrRef spec0 0)) (V c (Pipeline.arrRef spec0 1)) (V c (Pipeline.arrRef spec0 2)) r (j 1) := fun _ => rfl
  generalize sumRow (V c (Pipeline.arrRef spec0 0)) (V c (Pipeline.arrRef spec0 1)) (V c (Pipeline.arrRef spec0 2)) = Gf at hG ⊢
  obtain ⟨-, -, -, -, -, e5, e6, -⟩ := idx_facts0 t
  funext j
  obtain ⟨u, q, rfl⟩ : ∃ (u : Fin 1) (q : Fin 64), j = ix2 u q := ⟨j 0, j 1, eq_ix2 j⟩
  have hi1 : ((((cfg0.win 3).blk t).view.emb (ix2 u q)) 1).val = q.val := by
    show win0_3.index t (1 : Fin 2) * 64 + 1 * q.val = _; rw [e6]; omega
  have hq : ((((cfg0.win 3).blk t).view.emb (ix2 u q)) 1 : Fin 64) = q := Fin.ext hi1
  show Y (ix2 u q) = Gf (((cfg0.win 3).blk t).view.emb (ix2 u q))
  rw [hG, hq]
  exact hacc u q

/-- An index of the output row is in point t's block iff it is within the block's extents. -/
theorem mem_blk0_3 (t : Fin cfg0.N) (i : S1x64.Idx) :
    i ∈ ((cfg0.win 3).blk t).view.set ↔ ∀ a : Fin 2, win0_3.index t a * S1x64.size a ≤ (i a).val ∧ (i a).val < win0_3.index t a * S1x64.size a + S1x64.size a := by
  show i ∈ ((View.whole main_v0_0).slice (win0_3.rect t)).set ↔ _
  rw [View.set_slice_whole, Rect.mem_set_unit]
  exact Iff.rfl

/-- The output array after the region. -/
theorem final0_3 (c : Dev nD) : (dat0 V c).arrAt 3 cfg0.N = sumRow (V c (Pipeline.arrRef spec0 0)) (V c (Pipeline.arrRef spec0 1)) (V c (Pipeline.arrRef spec0 2)) :=
  (dat0 V c).arrAt_eq_of_cover 3 _ (fun t hf => flushed0_3 V c t hf) fun i => by
    have hN : cfg0.N = 10 := N_0
    have hi0 : (i 0).val < 1 := (i 0).isLt
    have hi1 : (i 1).val < 64 := (i 1).isLt
    refine ⟨⟨9, by rw [hN]; omega⟩, (flush0_3 _).mpr rfl, ?_⟩
    rw [mem_blk0_3]
    obtain ⟨-, -, -, -, -, e5, e6, -⟩ := idx_facts0 ⟨9, by rw [hN]; omega⟩
    intro a
    match a with
    | ⟨0, _⟩ => show win0_3.index _ (0 : Fin 2) * 1 ≤ (i 0).val ∧ (i 0).val < win0_3.index _ (0 : Fin 2) * 1 + 1; rw [e5]; omega
    | ⟨1, _⟩ => show win0_3.index _ (1 : Fin 2) * 64 ≤ (i 1).val ∧ (i 1).val < win0_3.index _ (1 : Fin 2) * 64 + 64; rw [e6]; omega

/-! ### Output 4: the one write-back, and the array -/

set_option maxHeartbeats 2000000 in
/-- What the last point writes back is the whole row of the arrays as the region finds them. -/
theorem flushed0_4 (c : Dev nD) (t : Fin cfg0.N) (hf : (cfg0.win 4).flush t = true) :
    (dat0 V c).flushed 4 t = ((cfg0.win 4).blk t).view.read (Elt Ideal) (sqRow (V c (Pipeline.arrRef spec0 0)) (V c (Pipeline.arrRef spec0 1)) (V c (Pipeline.arrRef spec0 2))) := by
  have hN : cfg0.N = 10 := N_0
  have h9 : t.val = 9 := by have := (flush0_4 t).mp hf; have := t.isLt; omega
  have hacc : ∀ (u : Fin 1) (z : Fin 64), (outsAt0 V c t.val t.isLt).2 (ix2 u z) = ∑ r : Fin 100000, Cert.Spec.lin (V c (Pipeline.arrRef spec0 0)) (V c (Pipeline.arrRef spec0 1)) (V c (Pipeline.arrRef spec0 2)) r z * Cert.Spec.lin (V c (Pipeline.arrRef spec0 0)) (V c (Pipeline.arrRef spec0 1)) (V c (Pipeline.arrRef spec0 2)) r z := by
    intro u z
    obtain ⟨n, hn⟩ := t
    obtain rfl : n = 9 := h9
    exact acc0_4 V c u z hn
  show (cfg0.win 4).cut (grid0.coords t) ((dat0 V c).after 4 t) = _
  rw [after0_4]
  generalize (outsAt0 V c t.val t.isLt).2 = Y at hacc ⊢
  have hG : ∀ j : S1x64.Idx, sqRow (V c (Pipeline.arrRef spec0 0)) (V c (Pipeline.arrRef spec0 1)) (V c (Pipeline.arrRef spec0 2)) j = ∑ r : Fin 100000, Cert.Spec.lin (V c (Pipeline.arrRef spec0 0)) (V c (Pipeline.arrRef spec0 1)) (V c (Pipeline.arrRef spec0 2)) r (j 1) * Cert.Spec.lin (V c (Pipeline.arrRef spec0 0)) (V c (Pipeline.arrRef spec0 1)) (V c (Pipeline.arrRef spec0 2)) r (j 1) := fun _ => rfl
  generalize sqRow (V c (Pipeline.arrRef spec0 0)) (V c (Pipeline.arrRef spec0 1)) (V c (Pipeline.arrRef spec0 2)) = Gf at hG ⊢
  obtain ⟨-, -, -, -, -, -, -, e5, e6⟩ := idx_facts0 t
  funext j
  obtain ⟨u, q, rfl⟩ : ∃ (u : Fin 1) (q : Fin 64), j = ix2 u q := ⟨j 0, j 1, eq_ix2 j⟩
  have hi1 : ((((cfg0.win 4).blk t).view.emb (ix2 u q)) 1).val = q.val := by
    show win0_4.index t (1 : Fin 2) * 64 + 1 * q.val = _; rw [e6]; omega
  have hq : ((((cfg0.win 4).blk t).view.emb (ix2 u q)) 1 : Fin 64) = q := Fin.ext hi1
  show Y (ix2 u q) = Gf (((cfg0.win 4).blk t).view.emb (ix2 u q))
  rw [hG, hq]
  exact hacc u q

/-- An index of the output row is in point t's block iff it is within the block's extents. -/
theorem mem_blk0_4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v0_1).slice (win0_4.rect t)).set ↔ _
  rw [View.set_slice_whole, Rect.mem_set_unit]
  exact Iff.rfl

/-- The output array after the region. -/
theorem final0_4 (c : Dev nD) : (dat0 V c).arrAt 4 cfg0.N = sqRow (V c (Pipeline.arrRef spec0 0)) (V c (Pipeline.arrRef spec0 1)) (V c (Pipeline.arrRef spec0 2)) :=
  (dat0 V c).arrAt_eq_of_cover 4 _ (fun t hf => flushed0_4 V c t hf) fun i => by
    have hN : cfg0.N = 10 := N_0
    have hi0 : (i 0).val < 1 := (i 0).isLt
    have hi1 : (i 1).val < 64 := (i 1).isLt
    refine ⟨⟨9, by rw [hN]; omega⟩, (flush0_4 _).mpr rfl, ?_⟩
    rw [mem_blk0_4]
    obtain ⟨-, -, -, -, -, -, -, e5, e6⟩ := idx_facts0 ⟨9, by rw [hN]; omega⟩
    intro a
    match a with
    | ⟨0, _⟩ => show win0_4.index _ (0 : Fin 2) * 1 ≤ (i 0).val ∧ (i 0).val < win0_4.index _ (0 : Fin 2) * 1 + 1; rw [e5]; omega
    | ⟨1, _⟩ => show win0_4.index _ (1 : Fin 2) * 64 ≤ (i 1).val ∧ (i 1).val < win0_4.index _ (1 : Fin 2) * 64 + 64; rw [e6]; omega

end R0

/-! ## The statistics region 2 -/

section R2

/-- The first point leaves in output 3's buffer the payload over the zero row it has just stored. -/
theorem out2_A_3_eq (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : cond2_0 i) (x0 : Vec Ideal S10000x64 .f32) (x1 : Vec Ideal S64x64 .f32) (x2 : Vec Ideal S64 .f32) :
    out2_A_3 (F := Ideal) c i arg1 harg1 arg2 harg2 arg3 harg3 arg4 harg4 arg5 harg5 hc0 x0 x1 x2 = k2_pay4 (F := Ideal) x0 x1 x2 (k2_pay1 (F := Ideal)) := by
  unfold out2_A_3
  rw [View.read_writes_eq_canon _ _ _ (cover2_A_3 c i arg1 harg1 arg2 harg2 arg3 harg3 arg4 harg4 arg5 harg5 hc0 x0 x1 x2)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread,
    View.ld_unit_zero (S := S10000x64) hz2, View.ld_unit_zero (S := S64x64) hz2, View.ld_unit_zero (S := S64) hz1]

/-- The first point leaves in output 4's buffer the payload over the zero row it has just stored. -/
theorem out2_A_4_eq (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : cond2_0 i) (x0 : Vec Ideal S10000x64 .f32) (x1 : Vec Ideal S64x64 .f32) (x2 : Vec Ideal S64 .f32) :
    out2_A_4 (F := Ideal) c i arg1 harg1 arg2 harg2 arg3 harg3 arg4 harg4 arg5 harg5 hc0 x0 x1 x2 = k2_pay5 (F := Ideal) x0 x1 x2 (k2_pay2 (F := Ideal)) := by
  unfold out2_A_4
  rw [View.read_writes_eq_canon _ _ _ (cover2_A_4 c i arg1 harg1 arg2 harg2 arg3 harg3 arg4 harg4 arg5 harg5 hc0 x0 x1 x2)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread,
    View.ld_unit_zero (S := S10000x64) hz2, View.ld_unit_zero (S := S64x64) hz2, View.ld_unit_zero (S := S64) hz1]

/-- A later point leaves in output 3's buffer the payload over what the buffer held. -/
theorem out2_B_3_eq (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (x0 : Vec Ideal S10000x64 .f32) (x1 : Vec Ideal S64x64 .f32) (x2 : Vec Ideal S64 .f32) (xo3 : Vec Ideal S1x64 .f32) (xo4 : Vec Ideal S1x64 .f32) :
    out2_B_3 (F := Ideal) c i arg1 harg1 arg2 harg2 arg3 harg3 arg4 harg4 arg5 harg5 hc0 x0 x1 x2 xo3 xo4 = k2_pay4 (F := Ideal) x0 x1 x2 xo3 := by
  unfold out2_B_3
  rw [View.read_writes_eq_canon _ _ _ (cover2_B_3 c i arg1 harg1 arg2 harg2 arg3 harg3 arg4 harg4 arg5 harg5 hc0 x0 x1 x2 xo3 xo4)]
  unfold kernelRun2_B
  dsimp only
  rw [View.canon_unit_zero hz2]
  simp only [View.readAt_eq_ld, harg1.read_unread, harg2.read_unread, harg3.read_unread, harg4.read_unread,
    harg5.read_unread, View.ld_unit_zero (S := S10000x64) hz2, View.ld_unit_zero (S := S64x64) hz2,
    View.ld_unit_zero (S := S64) hz1, View.ld_unit_zero (S := S1x64) hz2]

/-- A later point leaves in output 4's buffer the payload over what the buffer held. -/
theorem out2_B_4_eq (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (x0 : Vec Ideal S10000x64 .f32) (x1 : Vec Ideal S64x64 .f32) (x2 : Vec Ideal S64 .f32) (xo3 : Vec Ideal S1x64 .f32) (xo4 : Vec Ideal S1x64 .f32) :
    out2_B_4 (F := Ideal) c i arg1 harg1 arg2 harg2 arg3 harg3 arg4 harg4 arg5 harg5 hc0 x0 x1 x2 xo3 xo4 = k2_pay5 (F := Ideal) x0 x1 x2 xo4 := by
  unfold out2_B_4
  rw [View.read_writes_eq_canon _ _ _ (cover2_B_4 c i arg1 harg1 arg2 harg2 arg3 harg3 arg4 harg4 arg5 harg5 hc0 x0 x1 x2 xo3 xo4)]
  unfold kernelRun2_B
  dsimp only
  rw [View.canon_unit_zero hz2]
  simp only [View.readAt_eq_ld, harg1.read_unread, harg2.read_unread, harg3.read_unread, harg4.read_unread,
    harg5.read_unread, View.ld_unit_zero (S := S10000x64) hz2, View.ld_unit_zero (S := S64x64) hz2,
    View.ld_unit_zero (S := S64) hz1, View.ld_unit_zero (S := S1x64) hz2]

/-! ### The recursion over the points, as equations -/

/-- After the first point: the payloads over the zero rows. -/
theorem outs2_zero (c : Dev nD) (h : 0 < cfg2.N) :
    outsAt2 V c 0 h = (k2_pay4 (F := Ideal) (iblk2 V c 0 ⟨0, h⟩) (iblk2 V c 1 ⟨0, h⟩) (iblk2 V c 2 ⟨0, h⟩) (k2_pay1 (F := Ideal)),
      k2_pay5 (F := Ideal) (iblk2 V c 0 ⟨0, h⟩) (iblk2 V c 1 ⟨0, h⟩) (iblk2 V c 2 ⟨0, h⟩) (k2_pay2 (F := Ideal))) := by
  refine (outsAt2_A V c ⟨0, h⟩ rfl).trans ?_
  exact Prod.ext
    (out2_A_3_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩) (iblk2 V c 2 ⟨0, h⟩))
    (out2_A_4_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩) (iblk2 V c 2 ⟨0, h⟩))

/-- After a later point: the payloads over what the point before left. -/
theorem outs2_succ (c : Dev nD) (n : ℕ) (h : n + 1 < cfg2.N) :
    outsAt2 V c (n + 1) h = (k2_pay4 (F := Ideal) (iblk2 V c 0 ⟨n + 1, h⟩) (iblk2 V c 1 ⟨n + 1, h⟩) (iblk2 V c 2 ⟨n + 1, h⟩) (outsAt2 V c n (Nat.lt_of_succ_lt h)).1,
      k2_pay5 (F := Ideal) (iblk2 V c 0 ⟨n + 1, h⟩) (iblk2 V c 1 ⟨n + 1, h⟩) (iblk2 V c 2 ⟨n + 1, h⟩) (outsAt2 V c n (Nat.lt_of_succ_lt h)).2) := by
  have hN : cfg2.N = 10 := N_2
  have hB : ¬(⟨n + 1, h⟩ : Fin cfg2.N).val % 10 = 0 := by dsimp only; omega
  refine (outsAt2_B V c ⟨n + 1, h⟩ hB).trans ?_
  exact Prod.ext
    (out2_B_3_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩)
      (outsAt2 V c n (Nat.lt_of_succ_lt h)).1 (outsAt2 V c n (Nat.lt_of_succ_lt h)).2)
    (out2_B_4_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩)
      (outsAt2 V c n (Nat.lt_of_succ_lt h)).1 (outsAt2 V c n (Nat.lt_of_succ_lt h)).2)

/-! ### The windows' blocks -/

/-- The printed index maps of the region, decided over the ten grid points: the row blocks of the input matrix move
    with the point, every other window stays at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row p of the point's block of the input matrix is row 10000·t + p of the array. -/
theorem blk2_0 (c : Dev nD) (t : Fin cfg2.N) (p : Fin 10000) (k : Fin 64) (r : Fin 100000)
    (hr : r.val = 10000 * t.val + p.val) :
    (iblk2 V c 0 t : Vec Ideal S10000x64 .f32) (ix2 p k) = V c (Pipeline.arrRef spec2 0) (ix2 r k) := by
  obtain ⟨e0, e1, -⟩ := idx_facts2 t
  unfold iblk2
  rw [View.read_apply]
  show V c (Pipeline.arrRef spec2 0) (((cfg2.win 0).blk t).view.emb (ix2 p k)) = V c (Pipeline.arrRef spec2 0) (ix2 r k)
  refine congrArg _ ?_
  funext a; apply Fin.ext
  match a with
  | ⟨0, _⟩ => show win2_0.index t (0 : Fin 2) * 10000 + 1 * p.val = r.val; rw [e0, hr]; omega
  | ⟨1, _⟩ => show win2_0.index t (1 : Fin 2) * 64 + 1 * k.val = k.val; rw [e1]; omega

/-- The weight window's block is the whole weight array. -/
theorem blk2_1 (c : Dev nD) (t : Fin cfg2.N) (y : S64x64.Idx) :
    (iblk2 V c 1 t : Vec Ideal S64x64 .f32) y = V c (Pipeline.arrRef spec2 1) y := by
  obtain ⟨-, -, e2, e3, -⟩ := idx_facts2 t
  unfold iblk2
  rw [View.read_apply]
  show V c (Pipeline.arrRef spec2 1) (((cfg2.win 1).blk t).view.emb y) = V c (Pipeline.arrRef spec2 1) y
  refine congrArg _ ?_
  funext a; apply Fin.ext
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- The bias window's block is the whole vector. -/
theorem blk2_2 (c : Dev nD) (t : Fin cfg2.N) (y : S64.Idx) :
    (iblk2 V c 2 t : Vec Ideal S64 .f32) y = V c (Pipeline.arrRef spec2 2) y := by
  obtain ⟨-, -, -, -, e4, -⟩ := idx_facts2 t
  unfold iblk2
  rw [View.read_apply]
  show V c (Pipeline.arrRef spec2 2) (((cfg2.win 2).blk t).view.emb y) = V c (Pipeline.arrRef spec2 2) y
  refine congrArg _ ?_
  funext a; apply Fin.ext
  match a with
  | ⟨0, _⟩ => show win2_2.index t (0 : Fin 1) * 64 + 1 * (y 0).val = (y 0).val; rw [e4]; omega

/-- Entry (p, q) of x·w + b over the point's blocks is entry (10000·t + p, q) of X·W + b over the arrays. -/
theorem linB2_eq (c : Dev nD) (t : Fin cfg2.N) (ht : t.val < 10) (p : Fin 10000) (q : Fin 64) :
    linB (iblk2 V c 0 t) (iblk2 V c 1 t) (iblk2 V c 2 t) p q = Cert.Spec.lin (V c (Pipeline.arrRef spec2 0)) (V c (Pipeline.arrRef spec2 1)) (V c (Pipeline.arrRef spec2 2)) (Cert.Spec.row t.val ht p) q := by
  unfold linB Cert.Spec.lin
  rw [blk2_2 V c t]
  refine congrArg (fun z : EReal => z + (V c (Pipeline.arrRef spec2 2) (ix1 q) : EReal)) ?_
  refine Finset.sum_congr rfl fun k _ => ?_
  rw [blk2_0 V c t p k (Cert.Spec.row t.val ht p) rfl, blk2_1 V c t]

/-! ### The running rows at the last point -/

/-- The first row after the last point: the column sums over all rows. -/
theorem acc2_3 (c : Dev nD) (u : Fin 1) (q : Fin 64) (h9 : 9 < cfg2.N) :
    (outsAt2 V c 9 h9).1 (ix2 u q) = ∑ r : Fin 100000, Cert.Spec.lin (V c (Pipeline.arrRef spec2 0)) (V c (Pipeline.arrRef spec2 1)) (V c (Pipeline.arrRef spec2 2)) r q := by
  have hN : cfg2.N = 10 := N_2
  refine Cert.Spec.acc_blocks (fun r => Cert.Spec.lin (V c (Pipeline.arrRef spec2 0)) (V c (Pipeline.arrRef spec2 1)) (V c (Pipeline.arrRef spec2 2)) r q)
    (fun n hn => (outsAt2 V c n (by omega)).1 (ix2 u q)) ?_ ?_
  · show (outsAt2 V c 0 _).1 (ix2 u q) = _
    rw [outs2_zero V c]
    show k2_pay4 (F := Ideal) _ _ _ _ (ix2 u q) = _
    rw [sum2_at, zero2a_at]
    refine congrArg (fun z : EReal => 0 + z) ?_
    exact Finset.sum_congr rfl fun p _ => linB2_eq V c ⟨0, by omega⟩ (by norm_num) p q
  · intro n h
    show (outsAt2 V c (n + 1) _).1 (ix2 u q) = (outsAt2 V c n _).1 (ix2 u q) + _
    rw [outs2_succ V c n]
    show k2_pay4 (F := Ideal) _ _ _ _ (ix2 u q) = _
    rw [sum2_at]
    refine congrArg (fun z : EReal => (outsAt2 V c n _).1 (ix2 u q) + z) ?_
    exact Finset.sum_congr rfl fun p _ => linB2_eq V c ⟨n + 1, by omega⟩ h p q

/-- The second row after the last point: the column sums of the squares over all rows. -/
theorem acc2_4 (c : Dev nD) (u : Fin 1) (q : Fin 64) (h9 : 9 < cfg2.N) :
    (outsAt2 V c 9 h9).2 (ix2 u q)
      = ∑ r : Fin 100000, Cert.Spec.lin (V c (Pipeline.arrRef spec2 0)) (V c (Pipeline.arrRef spec2 1)) (V c (Pipeline.arrRef spec2 2)) r q * Cert.Spec.lin (V c (Pipeline.arrRef spec2 0)) (V c (Pipeline.arrRef spec2 1)) (V c (Pipeline.arrRef spec2 2)) r q := by
  have hN : cfg2.N = 10 := N_2
  refine Cert.Spec.acc_blocks (fun r => Cert.Spec.lin (V c (Pipeline.arrRef spec2 0)) (V c (Pipeline.arrRef spec2 1)) (V c (Pipeline.arrRef spec2 2)) r q * Cert.Spec.lin (V c (Pipeline.arrRef spec2 0)) (V c (Pipeline.arrRef spec2 1)) (V c (Pipeline.arrRef spec2 2)) r q)
    (fun n hn => (outsAt2 V c n (by omega)).2 (ix2 u q)) ?_ ?_
  · show (outsAt2 V c 0 _).2 (ix2 u q) = _
    rw [outs2_zero V c]
    show k2_pay5 (F := Ideal) _ _ _ _ (ix2 u q) = _
    rw [sq2_at, zero2b_at]
    refine congrArg (fun z : EReal => 0 + z) ?_
    refine Finset.sum_congr rfl fun p _ => ?_
    rw [linB2_eq V c ⟨0, by omega⟩ (by norm_num) p q]
  · intro n h
    show (outsAt2 V c (n + 1) _).2 (ix2 u q) = (outsAt2 V c n _).2 (ix2 u q) + _
    rw [outs2_succ V c n]
    show k2_pay5 (F := Ideal) _ _ _ _ (ix2 u q) = _
    rw [sq2_at]
    refine congrArg (fun z : EReal => (outsAt2 V c n _).2 (ix2 u q) + z) ?_
    refine Finset.sum_congr rfl fun p _ => ?_
    rw [linB2_eq V c ⟨n + 1, by omega⟩ h p q]

/-! ### Output 3: the one write-back, and the array -/

set_option maxHeartbeats 2000000 in
/-- What the last point writes back is the whole row of the arrays as the region finds them. -/
theorem flushed2_3 (c : Dev nD) (t : Fin cfg2.N) (hf : (cfg2.win 3).flush t = true) :
    (dat2 V c).flushed 3 t = ((cfg2.win 3).blk t).view.read (Elt Ideal) (sumRow (V c (Pipeline.arrRef spec2 0)) (V c (Pipeline.arrRef spec2 1)) (V c (Pipeline.arrRef spec2 2))) := by
  have hN : cfg2.N = 10 := N_2
  have h9 : t.val = 9 := by have := (flush2_3 t).mp hf; have := t.isLt; omega
  have hacc : ∀ (u : Fin 1) (z : Fin 64), (outsAt2 V c t.val t.isLt).1 (ix2 u z) = ∑ r : Fin 100000, Cert.Spec.lin (V c (Pipeline.arrRef spec2 0)) (V c (Pipeline.arrRef spec2 1)) (V c (Pipeline.arrRef spec2 2)) r z := by
    intro u z
    obtain ⟨n, hn⟩ := t
    obtain rfl : n = 9 := h9
    exact acc2_3 V c u z hn
  show (cfg2.win 3).cut (grid2.coords t) ((dat2 V c).after 3 t) = _
  rw [after2_3]
  generalize (outsAt2 V c t.val t.isLt).1 = Y at hacc ⊢
  have hG : ∀ j : S1x64.Idx, sumRow (V c (Pipeline.arrRef spec2 0)) (V c (Pipeline.arrRef spec2 1)) (V c (Pipeline.arrRef spec2 2)) j = ∑ r : Fin 100000, Cert.Spec.lin (V c (Pipeline.arrRef spec2 0)) (V c (Pipeline.arrRef spec2 1)) (V c (Pipeline.arrRef spec2 2)) r (j 1) := fun _ => rfl
  generalize sumRow (V c (Pipeline.arrRef spec2 0)) (V c (Pipeline.arrRef spec2 1)) (V c (Pipeline.arrRef spec2 2)) = Gf at hG ⊢
  obtain ⟨-, -, -, -, -, e5, e6, -⟩ := idx_facts2 t
  funext j
  obtain ⟨u, q, rfl⟩ : ∃ (u : Fin 1) (q : Fin 64), j = ix2 u q := ⟨j 0, j 1, eq_ix2 j⟩
  have hi1 : ((((cfg2.win 3).blk t).view.emb (ix2 u q)) 1).val = q.val := by
    show win2_3.index t (1 : Fin 2) * 64 + 1 * q.val = _; rw [e6]; omega
  have hq : ((((cfg2.win 3).blk t).view.emb (ix2 u q)) 1 : Fin 64) = q := Fin.ext hi1
  show Y (ix2 u q) = Gf (((cfg2.win 3).blk t).view.emb (ix2 u q))
  rw [hG, hq]
  exact hacc u q

/-- An index of the output row is in point t's block iff it is within the block's extents. -/
theorem mem_blk2_3 (t : Fin cfg2.N) (i : S1x64.Idx) :
    i ∈ ((cfg2.win 3).blk t).view.set ↔ ∀ a : Fin 2, win2_3.index t a * S1x64.size a ≤ (i a).val ∧ (i a).val < win2_3.index t a * S1x64.size a + S1x64.size a := by
  show i ∈ ((View.whole main_v37_0).slice (win2_3.rect t)).set ↔ _
  rw [View.set_slice_whole, Rect.mem_set_unit]
  exact Iff.rfl

/-- The output array after the region. -/
theorem final2_3 (c : Dev nD) : (dat2 V c).arrAt 3 cfg2.N = sumRow (V c (Pipeline.arrRef spec2 0)) (V c (Pipeline.arrRef spec2 1)) (V c (Pipeline.arrRef spec2 2)) :=
  (dat2 V c).arrAt_eq_of_cover 3 _ (fun t hf => flushed2_3 V c t hf) fun i => by
    have hN : cfg2.N = 10 := N_2
    have hi0 : (i 0).val < 1 := (i 0).isLt
    have hi1 : (i 1).val < 64 := (i 1).isLt
    refine ⟨⟨9, by rw [hN]; omega⟩, (flush2_3 _).mpr rfl, ?_⟩
    rw [mem_blk2_3]
    obtain ⟨-, -, -, -, -, e5, e6, -⟩ := idx_facts2 ⟨9, by rw [hN]; omega⟩
    intro a
    match a with
    | ⟨0, _⟩ => show win2_3.index _ (0 : Fin 2) * 1 ≤ (i 0).val ∧ (i 0).val < win2_3.index _ (0 : Fin 2) * 1 + 1; rw [e5]; omega
    | ⟨1, _⟩ => show win2_3.index _ (1 : Fin 2) * 64 ≤ (i 1).val ∧ (i 1).val < win2_3.index _ (1 : Fin 2) * 64 + 64; rw [e6]; omega

/-! ### Output 4: the one write-back, and the array -/

set_option maxHeartbeats 2000000 in
/-- What the last point writes back is the whole row of the arrays as the region finds them. -/
theorem flushed2_4 (c : Dev nD) (t : Fin cfg2.N) (hf : (cfg2.win 4).flush t = true) :
    (dat2 V c).flushed 4 t = ((cfg2.win 4).blk t).view.read (Elt Ideal) (sqRow (V c (Pipeline.arrRef spec2 0)) (V c (Pipeline.arrRef spec2 1)) (V c (Pipeline.arrRef spec2 2))) := by
  have hN : cfg2.N = 10 := N_2
  have h9 : t.val = 9 := by have := (flush2_4 t).mp hf; have := t.isLt; omega
  have hacc : ∀ (u : Fin 1) (z : Fin 64), (outsAt2 V c t.val t.isLt).2 (ix2 u z) = ∑ r : Fin 100000, Cert.Spec.lin (V c (Pipeline.arrRef spec2 0)) (V c (Pipeline.arrRef spec2 1)) (V c (Pipeline.arrRef spec2 2)) r z * Cert.Spec.lin (V c (Pipeline.arrRef spec2 0)) (V c (Pipeline.arrRef spec2 1)) (V c (Pipeline.arrRef spec2 2)) r z := by
    intro u z
    obtain ⟨n, hn⟩ := t
    obtain rfl : n = 9 := h9
    exact acc2_4 V c u z hn
  show (cfg2.win 4).cut (grid2.coords t) ((dat2 V c).after 4 t) = _
  rw [after2_4]
  generalize (outsAt2 V c t.val t.isLt).2 = Y at hacc ⊢
  have hG : ∀ j : S1x64.Idx, sqRow (V c (Pipeline.arrRef spec2 0)) (V c (Pipeline.arrRef spec2 1)) (V c (Pipeline.arrRef spec2 2)) j = ∑ r : Fin 100000, Cert.Spec.lin (V c (Pipeline.arrRef spec2 0)) (V c (Pipeline.arrRef spec2 1)) (V c (Pipeline.arrRef spec2 2)) r (j 1) * Cert.Spec.lin (V c (Pipeline.arrRef spec2 0)) (V c (Pipeline.arrRef spec2 1)) (V c (Pipeline.arrRef spec2 2)) r (j 1) := fun _ => rfl
  generalize sqRow (V c (Pipeline.arrRef spec2 0)) (V c (Pipeline.arrRef spec2 1)) (V c (Pipeline.arrRef spec2 2)) = Gf at hG ⊢
  obtain ⟨-, -, -, -, -, -, -, e5, e6⟩ := idx_facts2 t
  funext j
  obtain ⟨u, q, rfl⟩ : ∃ (u : Fin 1) (q : Fin 64), j = ix2 u q := ⟨j 0, j 1, eq_ix2 j⟩
  have hi1 : ((((cfg2.win 4).blk t).view.emb (ix2 u q)) 1).val = q.val := by
    show win2_4.index t (1 : Fin 2) * 64 + 1 * q.val = _; rw [e6]; omega
  have hq : ((((cfg2.win 4).blk t).view.emb (ix2 u q)) 1 : Fin 64) = q := Fin.ext hi1
  show Y (ix2 u q) = Gf (((cfg2.win 4).blk t).view.emb (ix2 u q))
  rw [hG, hq]
  exact hacc u q

/-- An index of the output row is in point t's block iff it is within the block's extents. -/
theorem mem_blk2_4 (t : Fin cfg2.N) (i : S1x64.Idx) :
    i ∈ ((cfg2.win 4).blk t).view.set ↔ ∀ a : Fin 2, win2_4.index t a * S1x64.size a ≤ (i a).val ∧ (i a).val < win2_4.index t a * S1x64.size a + S1x64.size a := by
  show i ∈ ((View.whole main_v37_1).slice (win2_4.rect t)).set ↔ _
  rw [View.set_slice_whole, Rect.mem_set_unit]
  exact Iff.rfl

/-- The output array after the region. -/
theorem final2_4 (c : Dev nD) : (dat2 V c).arrAt 4 cfg2.N = sqRow (V c (Pipeline.arrRef spec2 0)) (V c (Pipeline.arrRef spec2 1)) (V c (Pipeline.arrRef spec2 2)) :=
  (dat2 V c).arrAt_eq_of_cover 4 _ (fun t hf => flushed2_4 V c t hf) fun i => by
    have hN : cfg2.N = 10 := N_2
    have hi0 : (i 0).val < 1 := (i 0).isLt
    have hi1 : (i 1).val < 64 := (i 1).isLt
    refine ⟨⟨9, by rw [hN]; omega⟩, (flush2_4 _).mpr rfl, ?_⟩
    rw [mem_blk2_4]
    obtain ⟨-, -, -, -, -, -, -, e5, e6⟩ := idx_facts2 ⟨9, by rw [hN]; omega⟩
    intro a
    match a with
    | ⟨0, _⟩ => show win2_4.index _ (0 : Fin 2) * 1 ≤ (i 0).val ∧ (i 0).val < win2_4.index _ (0 : Fin 2) * 1 + 1; rw [e5]; omega
    | ⟨1, _⟩ => show win2_4.index _ (1 : Fin 2) * 64 ≤ (i 1).val ∧ (i 1).val < win2_4.index _ (1 : Fin 2) * 64 + 64; rw [e6]; omega

end R2

/-! ## The statistics region 4 -/

section R4

/-- The first point leaves in output 3's buffer the payload over the zero row it has just stored. -/
theorem out4_A_3_eq (c : Dev nD) (i : grid4.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : cond4_0 i) (x0 : Vec Ideal S10000x64 .f32) (x1 : Vec Ideal S64x64 .f32) (x2 : Vec Ideal S64 .f32) :
    out4_A_3 (F := Ideal) c i arg1 harg1 arg2 harg2 arg3 harg3 arg4 harg4 arg5 harg5 hc0 x0 x1 x2 = k4_pay4 (F := Ideal) x0 x1 x2 (k4_pay1 (F := Ideal)) := by
  unfold out4_A_3
  rw [View.read_writes_eq_canon _ _ _ (cover4_A_3 c i arg1 harg1 arg2 harg2 arg3 harg3 arg4 harg4 arg5 harg5 hc0 x0 x1 x2)]
  unfold kernelRun4_A
  dsimp only
  sl_unfold_words
  rw [View.canon_cons_unit_zero (S := S1x64) hz2, View.readCov_unit_zero (S := S1x64) _ hz2]
  simp only [View.readAt_eq_ld, harg1.read_unread, harg2.read_unread, harg3.read_unread,
    View.ld_unit_zero (S := S10000x64) hz2, View.ld_unit_zero (S := S64x64) hz2, View.ld_unit_zero (S := S64) hz1]

/-- The first point leaves in output 4's buffer the payload over the zero row it has just stored. -/
theorem out4_A_4_eq (c : Dev nD) (i : grid4.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : cond4_0 i) (x0 : Vec Ideal S10000x64 .f32) (x1 : Vec Ideal S64x64 .f32) (x2 : Vec Ideal S64 .f32) :
    out4_A_4 (F := Ideal) c i arg1 harg1 arg2 harg2 arg3 harg3 arg4 harg4 arg5 harg5 hc0 x0 x1 x2 = k4_pay5 (F := Ideal) x0 x1 x2 (k4_pay2 (F := Ideal)) := by
  unfold out4_A_4
  rw [View.read_writes_eq_canon _ _ _ (cover4_A_4 c i arg1 harg1 arg2 harg2 arg3 harg3 arg4 harg4 arg5 harg5 hc0 x0 x1 x2)]
  unfold kernelRun4_A
  dsimp only
  sl_unfold_words
  rw [View.canon_cons_unit_zero (S := S1x64) hz2, View.readCov_unit_zero (S := S1x64) _ hz2]
  simp only [View.readAt_eq_ld, harg1.read_unread, harg2.read_unread, harg3.read_unread,
    View.ld_unit_zero (S := S10000x64) hz2, View.ld_unit_zero (S := S64x64) hz2, View.ld_unit_zero (S := S64) hz1]

/-- A later point leaves in output 3's buffer the payload over what the buffer held. -/
theorem out4_B_3_eq (c : Dev nD) (i : grid4.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (x0 : Vec Ideal S10000x64 .f32) (x1 : Vec Ideal S64x64 .f32) (x2 : Vec Ideal S64 .f32) (xo3 : Vec Ideal S1x64 .f32) (xo4 : Vec Ideal S1x64 .f32) :
    out4_B_3 (F := Ideal) c i arg1 harg1 arg2 harg2 arg3 harg3 arg4 harg4 arg5 harg5 hc0 x0 x1 x2 xo3 xo4 = k4_pay4 (F := Ideal) x0 x1 x2 xo3 := by
  unfold out4_B_3
  rw [View.read_writes_eq_canon _ _ _ (cover4_B_3 c i arg1 harg1 arg2 harg2 arg3 harg3 arg4 harg4 arg5 harg5 hc0 x0 x1 x2 xo3 xo4)]
  unfold kernelRun4_B
  dsimp only
  rw [View.canon_unit_zero hz2]
  simp only [View.readAt_eq_ld, harg1.read_unread, harg2.read_unread, harg3.read_unread, harg4.read_unread,
    harg5.read_unread, View.ld_unit_zero (S := S10000x64) hz2, View.ld_unit_zero (S := S64x64) hz2,
    View.ld_unit_zero (S := S64) hz1, View.ld_unit_zero (S := S1x64) hz2]

/-- A later point leaves in output 4's buffer the payload over what the buffer held. -/
theorem out4_B_4_eq (c : Dev nD) (i : grid4.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (x0 : Vec Ideal S10000x64 .f32) (x1 : Vec Ideal S64x64 .f32) (x2 : Vec Ideal S64 .f32) (xo3 : Vec Ideal S1x64 .f32) (xo4 : Vec Ideal S1x64 .f32) :
    out4_B_4 (F := Ideal) c i arg1 harg1 arg2 harg2 arg3 harg3 arg4 harg4 arg5 harg5 hc0 x0 x1 x2 xo3 xo4 = k4_pay5 (F := Ideal) x0 x1 x2 xo4 := by
  unfold out4_B_4
  rw [View.read_writes_eq_canon _ _ _ (cover4_B_4 c i arg1 harg1 arg2 harg2 arg3 harg3 arg4 harg4 arg5 harg5 hc0 x0 x1 x2 xo3 xo4)]
  unfold kernelRun4_B
  dsimp only
  rw [View.canon_unit_zero hz2]
  simp only [View.readAt_eq_ld, harg1.read_unread, harg2.read_unread, harg3.read_unread, harg4.read_unread,
    harg5.read_unread, View.ld_unit_zero (S := S10000x64) hz2, View.ld_unit_zero (S := S64x64) hz2,
    View.ld_unit_zero (S := S64) hz1, View.ld_unit_zero (S := S1x64) hz2]

/-! ### The recursion over the points, as equations -/

/-- After the first point: the payloads over the zero rows. -/
theorem outs4_zero (c : Dev nD) (h : 0 < cfg4.N) :
    outsAt4 V c 0 h = (k4_pay4 (F := Ideal) (iblk4 V c 0 ⟨0, h⟩) (iblk4 V c 1 ⟨0, h⟩) (iblk4 V c 2 ⟨0, h⟩) (k4_pay1 (F := Ideal)),
      k4_pay5 (F := Ideal) (iblk4 V c 0 ⟨0, h⟩) (iblk4 V c 1 ⟨0, h⟩) (iblk4 V c 2 ⟨0, h⟩) (k4_pay2 (F := Ideal))) := by
  refine (outsAt4_A V c ⟨0, h⟩ rfl).trans ?_
  exact Prod.ext
    (out4_A_3_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩) (iblk4 V c 2 ⟨0, h⟩))
    (out4_A_4_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩) (iblk4 V c 2 ⟨0, h⟩))

/-- After a later point: the payloads over what the point before left. -/
theorem outs4_succ (c : Dev nD) (n : ℕ) (h : n + 1 < cfg4.N) :
    outsAt4 V c (n + 1) h = (k4_pay4 (F := Ideal) (iblk4 V c 0 ⟨n + 1, h⟩) (iblk4 V c 1 ⟨n + 1, h⟩) (iblk4 V c 2 ⟨n + 1, h⟩) (outsAt4 V c n (Nat.lt_of_succ_lt h)).1,
      k4_pay5 (F := Ideal) (iblk4 V c 0 ⟨n + 1, h⟩) (iblk4 V c 1 ⟨n + 1, h⟩) (iblk4 V c 2 ⟨n + 1, h⟩) (outsAt4 V c n (Nat.lt_of_succ_lt h)).2) := by
  have hN : cfg4.N = 10 := N_4
  have hB : ¬(⟨n + 1, h⟩ : Fin cfg4.N).val % 10 = 0 := by dsimp only; omega
  refine (outsAt4_B V c ⟨n + 1, h⟩ hB).trans ?_
  exact Prod.ext
    (out4_B_3_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩)
      (outsAt4 V c n (Nat.lt_of_succ_lt h)).1 (outsAt4 V c n (Nat.lt_of_succ_lt h)).2)
    (out4_B_4_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩)
      (outsAt4 V c n (Nat.lt_of_succ_lt h)).1 (outsAt4 V c n (Nat.lt_of_succ_lt h)).2)

/-! ### The windows' blocks -/

/-- The printed index maps of the region, decided over the ten grid points: the row blocks of the input matrix move
    with the point, every other window stays at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row p of the point's block of the input matrix is row 10000·t + p of the array. -/
theorem blk4_0 (c : Dev nD) (t : Fin cfg4.N) (p : Fin 10000) (k : Fin 64) (r : Fin 100000)
    (hr : r.val = 10000 * t.val + p.val) :
    (iblk4 V c 0 t : Vec Ideal S10000x64 .f32) (ix2 p k) = V c (Pipeline.arrRef spec4 0) (ix2 r k) := by
  obtain ⟨e0, e1, -⟩ := idx_facts4 t
  unfold iblk4
  rw [View.read_apply]
  show V c (Pipeline.arrRef spec4 0) (((cfg4.win 0).blk t).view.emb (ix2 p k)) = V c (Pipeline.arrRef spec4 0) (ix2 r k)
  refine congrArg _ ?_
  funext a; apply Fin.ext
  match a with
  | ⟨0, _⟩ => show win4_0.index t (0 : Fin 2) * 10000 + 1 * p.val = r.val; rw [e0, hr]; omega
  | ⟨1, _⟩ => show win4_0.index t (1 : Fin 2) * 64 + 1 * k.val = k.val; rw [e1]; omega

/-- The weight window's block is the whole weight array. -/
theorem blk4_1 (c : Dev nD) (t : Fin cfg4.N) (y : S64x64.Idx) :
    (iblk4 V c 1 t : Vec Ideal S64x64 .f32) y = V c (Pipeline.arrRef spec4 1) y := by
  obtain ⟨-, -, e2, e3, -⟩ := idx_facts4 t
  unfold iblk4
  rw [View.read_apply]
  show V c (Pipeline.arrRef spec4 1) (((cfg4.win 1).blk t).view.emb y) = V c (Pipeline.arrRef spec4 1) y
  refine congrArg _ ?_
  funext a; apply Fin.ext
  match a with
  | ⟨0, _⟩ => show win4_1.index t (0 : Fin 2) * 64 + 1 * (y 0).val = (y 0).val; rw [e2]; omega
  | ⟨1, _⟩ => show win4_1.index t (1 : Fin 2) * 64 + 1 * (y 1).val = (y 1).val; rw [e3]; omega

/-- The bias window's block is the whole vector. -/
theorem blk4_2 (c : Dev nD) (t : Fin cfg4.N) (y : S64.Idx) :
    (iblk4 V c 2 t : Vec Ideal S64 .f32) y = V c (Pipeline.arrRef spec4 2) y := by
  obtain ⟨-, -, -, -, e4, -⟩ := idx_facts4 t
  unfold iblk4
  rw [View.read_apply]
  show V c (Pipeline.arrRef spec4 2) (((cfg4.win 2).blk t).view.emb y) = V c (Pipeline.arrRef spec4 2) y
  refine congrArg _ ?_
  funext a; apply Fin.ext
  match a with
  | ⟨0, _⟩ => show win4_2.index t (0 : Fin 1) * 64 + 1 * (y 0).val = (y 0).val; rw [e4]; omega

/-- Entry (p, q) of x·w + b over the point's blocks is entry (10000·t + p, q) of X·W + b over the arrays. -/
theorem linB4_eq (c : Dev nD) (t : Fin cfg4.N) (ht : t.val < 10) (p : Fin 10000) (q : Fin 64) :
    linB (iblk4 V c 0 t) (iblk4 V c 1 t) (iblk4 V c 2 t) p q = Cert.Spec.lin (V c (Pipeline.arrRef spec4 0)) (V c (Pipeline.arrRef spec4 1)) (V c (Pipeline.arrRef spec4 2)) (Cert.Spec.row t.val ht p) q := by
  unfold linB Cert.Spec.lin
  rw [blk4_2 V c t]
  refine congrArg (fun z : EReal => z + (V c (Pipeline.arrRef spec4 2) (ix1 q) : EReal)) ?_
  refine Finset.sum_congr rfl fun k _ => ?_
  rw [blk4_0 V c t p k (Cert.Spec.row t.val ht p) rfl, blk4_1 V c t]

/-! ### The running rows at the last point -/

/-- The first row after the last point: the column sums over all rows. -/
theorem acc4_3 (c : Dev nD) (u : Fin 1) (q : Fin 64) (h9 : 9 < cfg4.N) :
    (outsAt4 V c 9 h9).1 (ix2 u q) = ∑ r : Fin 100000, Cert.Spec.lin (V c (Pipeline.arrRef spec4 0)) (V c (Pipeline.arrRef spec4 1)) (V c (Pipeline.arrRef spec4 2)) r q := by
  have hN : cfg4.N = 10 := N_4
  refine Cert.Spec.acc_blocks (fun r => Cert.Spec.lin (V c (Pipeline.arrRef spec4 0)) (V c (Pipeline.arrRef spec4 1)) (V c (Pipeline.arrRef spec4 2)) r q)
    (fun n hn => (outsAt4 V c n (by omega)).1 (ix2 u q)) ?_ ?_
  · show (outsAt4 V c 0 _).1 (ix2 u q) = _
    rw [outs4_zero V c]
    show k4_pay4 (F := Ideal) _ _ _ _ (ix2 u q) = _
    rw [sum4_at, zero4a_at]
    refine congrArg (fun z : EReal => 0 + z) ?_
    exact Finset.sum_congr rfl fun p _ => linB4_eq V c ⟨0, by omega⟩ (by norm_num) p q
  · intro n h
    show (outsAt4 V c (n + 1) _).1 (ix2 u q) = (outsAt4 V c n _).1 (ix2 u q) + _
    rw [outs4_succ V c n]
    show k4_pay4 (F := Ideal) _ _ _ _ (ix2 u q) = _
    rw [sum4_at]
    refine congrArg (fun z : EReal => (outsAt4 V c n _).1 (ix2 u q) + z) ?_
    exact Finset.sum_congr rfl fun p _ => linB4_eq V c ⟨n + 1, by omega⟩ h p q

/-- The second row after the last point: the column sums of the squares over all rows. -/
theorem acc4_4 (c : Dev nD) (u : Fin 1) (q : Fin 64) (h9 : 9 < cfg4.N) :
    (outsAt4 V c 9 h9).2 (ix2 u q)
      = ∑ r : Fin 100000, Cert.Spec.lin (V c (Pipeline.arrRef spec4 0)) (V c (Pipeline.arrRef spec4 1)) (V c (Pipeline.arrRef spec4 2)) r q * Cert.Spec.lin (V c (Pipeline.arrRef spec4 0)) (V c (Pipeline.arrRef spec4 1)) (V c (Pipeline.arrRef spec4 2)) r q := by
  have hN : cfg4.N = 10 := N_4
  refine Cert.Spec.acc_blocks (fun r => Cert.Spec.lin (V c (Pipeline.arrRef spec4 0)) (V c (Pipeline.arrRef spec4 1)) (V c (Pipeline.arrRef spec4 2)) r q * Cert.Spec.lin (V c (Pipeline.arrRef spec4 0)) (V c (Pipeline.arrRef spec4 1)) (V c (Pipeline.arrRef spec4 2)) r q)
    (fun n hn => (outsAt4 V c n (by omega)).2 (ix2 u q)) ?_ ?_
  · show (outsAt4 V c 0 _).2 (ix2 u q) = _
    rw [outs4_zero V c]
    show k4_pay5 (F := Ideal) _ _ _ _ (ix2 u q) = _
    rw [sq4_at, zero4b_at]
    refine congrArg (fun z : EReal => 0 + z) ?_
    refine Finset.sum_congr rfl fun p _ => ?_
    rw [linB4_eq V c ⟨0, by omega⟩ (by norm_num) p q]
  · intro n h
    show (outsAt4 V c (n + 1) _).2 (ix2 u q) = (outsAt4 V c n _).2 (ix2 u q) + _
    rw [outs4_succ V c n]
    show k4_pay5 (F := Ideal) _ _ _ _ (ix2 u q) = _
    rw [sq4_at]
    refine congrArg (fun z : EReal => (outsAt4 V c n _).2 (ix2 u q) + z) ?_
    refine Finset.sum_congr rfl fun p _ => ?_
    rw [linB4_eq V c ⟨n + 1, by omega⟩ h p q]

/-! ### Output 3: the one write-back, and the array -/

set_option maxHeartbeats 2000000 in
/-- What the last point writes back is the whole row of the arrays as the region finds them. -/
theorem flushed4_3 (c : Dev nD) (t : Fin cfg4.N) (hf : (cfg4.win 3).flush t = true) :
    (dat4 V c).flushed 3 t = ((cfg4.win 3).blk t).view.read (Elt Ideal) (sumRow (V c (Pipeline.arrRef spec4 0)) (V c (Pipeline.arrRef spec4 1)) (V c (Pipeline.arrRef spec4 2))) := by
  have hN : cfg4.N = 10 := N_4
  have h9 : t.val = 9 := by have := (flush4_3 t).mp hf; have := t.isLt; omega
  have hacc : ∀ (u : Fin 1) (z : Fin 64), (outsAt4 V c t.val t.isLt).1 (ix2 u z) = ∑ r : Fin 100000, Cert.Spec.lin (V c (Pipeline.arrRef spec4 0)) (V c (Pipeline.arrRef spec4 1)) (V c (Pipeline.arrRef spec4 2)) r z := by
    intro u z
    obtain ⟨n, hn⟩ := t
    obtain rfl : n = 9 := h9
    exact acc4_3 V c u z hn
  show (cfg4.win 3).cut (grid4.coords t) ((dat4 V c).after 3 t) = _
  rw [after4_3]
  generalize (outsAt4 V c t.val t.isLt).1 = Y at hacc ⊢
  have hG : ∀ j : S1x64.Idx, sumRow (V c (Pipeline.arrRef spec4 0)) (V c (Pipeline.arrRef spec4 1)) (V c (Pipeline.arrRef spec4 2)) j = ∑ r : Fin 100000, Cert.Spec.lin (V c (Pipeline.arrRef spec4 0)) (V c (Pipeline.arrRef spec4 1)) (V c (Pipeline.arrRef spec4 2)) r (j 1) := fun _ => rfl
  generalize sumRow (V c (Pipeline.arrRef spec4 0)) (V c (Pipeline.arrRef spec4 1)) (V c (Pipeline.arrRef spec4 2)) = Gf at hG ⊢
  obtain ⟨-, -, -, -, -, e5, e6, -⟩ := idx_facts4 t
  funext j
  obtain ⟨u, q, rfl⟩ : ∃ (u : Fin 1) (q : Fin 64), j = ix2 u q := ⟨j 0, j 1, eq_ix2 j⟩
  have hi1 : ((((cfg4.win 3).blk t).view.emb (ix2 u q)) 1).val = q.val := by
    show win4_3.index t (1 : Fin 2) * 64 + 1 * q.val = _; rw [e6]; omega
  have hq : ((((cfg4.win 3).blk t).view.emb (ix2 u q)) 1 : Fin 64) = q := Fin.ext hi1
  show Y (ix2 u q) = Gf (((cfg4.win 3).blk t).view.emb (ix2 u q))
  rw [hG, hq]
  exact hacc u q

/-- An index of the output row is in point t's block iff it is within the block's extents. -/
theorem mem_blk4_3 (t : Fin cfg4.N) (i : S1x64.Idx) :
    i ∈ ((cfg4.win 3).blk t).view.set ↔ ∀ a : Fin 2, win4_3.index t a * S1x64.size a ≤ (i a).val ∧ (i a).val < win4_3.index t a * S1x64.size a + S1x64.size a := by
  show i ∈ ((View.whole main_v74_0).slice (win4_3.rect t)).set ↔ _
  rw [View.set_slice_whole, Rect.mem_set_unit]
  exact Iff.rfl

/-- The output array after the region. -/
theorem final4_3 (c : Dev nD) : (dat4 V c).arrAt 3 cfg4.N = sumRow (V c (Pipeline.arrRef spec4 0)) (V c (Pipeline.arrRef spec4 1)) (V c (Pipeline.arrRef spec4 2)) :=
  (dat4 V c).arrAt_eq_of_cover 3 _ (fun t hf => flushed4_3 V c t hf) fun i => by
    have hN : cfg4.N = 10 := N_4
    have hi0 : (i 0).val < 1 := (i 0).isLt
    have hi1 : (i 1).val < 64 := (i 1).isLt
    refine ⟨⟨9, by rw [hN]; omega⟩, (flush4_3 _).mpr rfl, ?_⟩
    rw [mem_blk4_3]
    obtain ⟨-, -, -, -, -, e5, e6, -⟩ := idx_facts4 ⟨9, by rw [hN]; omega⟩
    intro a
    match a with
    | ⟨0, _⟩ => show win4_3.index _ (0 : Fin 2) * 1 ≤ (i 0).val ∧ (i 0).val < win4_3.index _ (0 : Fin 2) * 1 + 1; rw [e5]; omega
    | ⟨1, _⟩ => show win4_3.index _ (1 : Fin 2) * 64 ≤ (i 1).val ∧ (i 1).val < win4_3.index _ (1 : Fin 2) * 64 + 64; rw [e6]; omega

/-! ### Output 4: the one write-back, and the array -/

set_option maxHeartbeats 2000000 in
/-- What the last point writes back is the whole row of the arrays as the region finds them. -/
theorem flushed4_4 (c : Dev nD) (t : Fin cfg4.N) (hf : (cfg4.win 4).flush t = true) :
    (dat4 V c).flushed 4 t = ((cfg4.win 4).blk t).view.read (Elt Ideal) (sqRow (V c (Pipeline.arrRef spec4 0)) (V c (Pipeline.arrRef spec4 1)) (V c (Pipeline.arrRef spec4 2))) := by
  have hN : cfg4.N = 10 := N_4
  have h9 : t.val = 9 := by have := (flush4_4 t).mp hf; have := t.isLt; omega
  have hacc : ∀ (u : Fin 1) (z : Fin 64), (outsAt4 V c t.val t.isLt).2 (ix2 u z) = ∑ r : Fin 100000, Cert.Spec.lin (V c (Pipeline.arrRef spec4 0)) (V c (Pipeline.arrRef spec4 1)) (V c (Pipeline.arrRef spec4 2)) r z * Cert.Spec.lin (V c (Pipeline.arrRef spec4 0)) (V c (Pipeline.arrRef spec4 1)) (V c (Pipeline.arrRef spec4 2)) r z := by
    intro u z
    obtain ⟨n, hn⟩ := t
    obtain rfl : n = 9 := h9
    exact acc4_4 V c u z hn
  show (cfg4.win 4).cut (grid4.coords t) ((dat4 V c).after 4 t) = _
  rw [after4_4]
  generalize (outsAt4 V c t.val t.isLt).2 = Y at hacc ⊢
  have hG : ∀ j : S1x64.Idx, sqRow (V c (Pipeline.arrRef spec4 0)) (V c (Pipeline.arrRef spec4 1)) (V c (Pipeline.arrRef spec4 2)) j = ∑ r : Fin 100000, Cert.Spec.lin (V c (Pipeline.arrRef spec4 0)) (V c (Pipeline.arrRef spec4 1)) (V c (Pipeline.arrRef spec4 2)) r (j 1) * Cert.Spec.lin (V c (Pipeline.arrRef spec4 0)) (V c (Pipeline.arrRef spec4 1)) (V c (Pipeline.arrRef spec4 2)) r (j 1) := fun _ => rfl
  generalize sqRow (V c (Pipeline.arrRef spec4 0)) (V c (Pipeline.arrRef spec4 1)) (V c (Pipeline.arrRef spec4 2)) = Gf at hG ⊢
  obtain ⟨-, -, -, -, -, -, -, e5, e6⟩ := idx_facts4 t
  funext j
  obtain ⟨u, q, rfl⟩ : ∃ (u : Fin 1) (q : Fin 64), j = ix2 u q := ⟨j 0, j 1, eq_ix2 j⟩
  have hi1 : ((((cfg4.win 4).blk t).view.emb (ix2 u q)) 1).val = q.val := by
    show win4_4.index t (1 : Fin 2) * 64 + 1 * q.val = _; rw [e6]; omega
  have hq : ((((cfg4.win 4).blk t).view.emb (ix2 u q)) 1 : Fin 64) = q := Fin.ext hi1
  show Y (ix2 u q) = Gf (((cfg4.win 4).blk t).view.emb (ix2 u q))
  rw [hG, hq]
  exact hacc u q

/-- An index of the output row is in point t's block iff it is within the block's extents. -/
theorem mem_blk4_4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole main_v74_1).slice (win4_4.rect t)).set ↔ _
  rw [View.set_slice_whole, Rect.mem_set_unit]
  exact Iff.rfl

/-- The output array after the region. -/
theorem final4_4 (c : Dev nD) : (dat4 V c).arrAt 4 cfg4.N = sqRow (V c (Pipeline.arrRef spec4 0)) (V c (Pipeline.arrRef spec4 1)) (V c (Pipeline.arrRef spec4 2)) :=
  (dat4 V c).arrAt_eq_of_cover 4 _ (fun t hf => flushed4_4 V c t hf) fun i => by
    have hN : cfg4.N = 10 := N_4
    have hi0 : (i 0).val < 1 := (i 0).isLt
    have hi1 : (i 1).val < 64 := (i 1).isLt
    refine ⟨⟨9, by rw [hN]; omega⟩, (flush4_4 _).mpr rfl, ?_⟩
    rw [mem_blk4_4]
    obtain ⟨-, -, -, -, -, -, -, e5, e6⟩ := idx_facts4 ⟨9, by rw [hN]; omega⟩
    intro a
    match a with
    | ⟨0, _⟩ => show win4_4.index _ (0 : Fin 2) * 1 ≤ (i 0).val ∧ (i 0).val < win4_4.index _ (0 : Fin 2) * 1 + 1; rw [e5]; omega
    | ⟨1, _⟩ => show win4_4.index _ (1 : Fin 2) * 64 ≤ (i 1).val ∧ (i 1).val < win4_4.index _ (1 : Fin 2) * 64 + 64; rw [e6]; omega

end R4

end Cert.KernelIdeal.KStats

end
-- ==== Proof.KVal.lean ====
/-
  The idealized kernel program's three results as the specification's functions.

  Result 0 is the first layer (moments form) of the embedding; result 1 the second layer of the aggregation of result 0,
  with the first slab of the stacked weights and the first rows of the stacked vectors; result 2 the third layer of the
  aggregation of result 1, with the second slab and the second rows.
-/
import proofs.«172633_j57071525429473_1_alg».proof.Proof.KHost
import proofs.«172633_j57071525429473_1_alg».proof.Proof.Spec

noncomputable section

namespace Cert.KernelIdeal.KVal

open Idealize.ShloMosaic Idealize.ShloMosaic.TcCoe Idealize.SL.Sem
open Cert.KernelIdeal Cert.KernelIdeal.KHost

variable (m : (ℓ : Loc nD τ sig) → Buf (Elt Ideal) ℓ) (c : Dev nD)

/-- Result 0: the first layer of the embedding. -/
def K0 : FVec Ideal S100000x64 .f32 :=
  Cert.Spec.layerK (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))
/-- Result 0 aggregated along the edges. -/
def A1 : FVec Ideal S100000x64 .f32 :=
  agg (m ((c.tc : Thread nD τ).loc main_arg0)) (m ((c.tc : Thread nD τ).loc main_arg1)) (m ((c.tc : Thread nD τ).loc main_arg2)) (K0 m c)
/-- Result 1: the second layer. -/
def K1 : FVec Ideal S100000x64 .f32 :=
  Cert.Spec.layerK (A1 m c) (wA (m ((c.tc : Thread nD τ).loc main_arg8))) (vA (m ((c.tc : Thread nD τ).loc main_arg9)))
    (vA (m ((c.tc : Thread nD τ).loc main_arg10))) (vA (m ((c.tc : Thread nD τ).loc main_arg11)))
/-- Result 1 aggregated along the edges. -/
def A2 : FVec Ideal S100000x64 .f32 :=
  agg (m ((c.tc : Thread nD τ).loc main_arg0)) (m ((c.tc : Thread nD τ).loc main_arg1)) (m ((c.tc : Thread nD τ).loc main_arg2)) (K1 m c)
/-- Result 2: the third layer. -/
def K2 : FVec Ideal S100000x64 .f32 :=
  Cert.Spec.layerK (A2 m c) (wB (m ((c.tc : Thread nD τ).loc main_arg8))) (vB (m ((c.tc : Thread nD τ).loc main_arg9)))
    (vB (m ((c.tc : Thread nD τ).loc main_arg10))) (vB (m ((c.tc : Thread nD τ).loc main_arg11)))

end Cert.KernelIdeal.KVal

end
-- ==== Proof.KWalk.lean ====
/-
  The fold of the kernel program's segments, read buffer by buffer.

  Each region leaves its arrays at what its write-backs fold to and every other buffer as it found it; each stretch of host
  operations writes its own results and keeps every other buffer.  Walking the three result buffers back through the
  eleven segments: the first layer's output is written by region 1 from the embedding, the weight, the bias and the
  scale and shift the host computed from region 0's two statistic rows; the later layers likewise from the aggregation
  of the previous output.  No segment after the one that wrote it touches a result buffer, and no segment touches an
  argument.
-/
import proofs.«172633_j57071525429473_1_alg».proof.Proof.Gen.KernelIdeal.Frame
import proofs.«172633_j57071525429473_1_alg».proof.Proof.KHost
import proofs.«172633_j57071525429473_1_alg».proof.Proof.KApply
import proofs.«172633_j57071525429473_1_alg».proof.Proof.KStats
import proofs.«172633_j57071525429473_1_alg».proof.Proof.KVal
import Idealize.ShloMosaic.Lib.Pipeline.Value

set_option maxRecDepth 16384

noncomputable section

namespace Cert.KernelIdeal.KWalk

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KHost Cert.KernelIdeal.KApply Cert.KernelIdeal.KStats Cert.KernelIdeal.KVal

variable (m : (ℓ : Loc nD τ sig) → Buf (Elt Ideal) ℓ) (ρ : Dev nD → PrngReg)

/-! ## The arguments, at the segment boundaries where they are read -/
theorem arg6_at1 (c : Dev nD) : W1 m ρ c (Proc.devRef .tc main_arg6) = m ((c : Thread nD τ).loc main_arg6) :=
  calc W1 m ρ c (Proc.devRef .tc main_arg6)
    _ = W0 m ρ c (Proc.devRef .tc main_arg6) := W1_of_ne m ρ c main_arg6 (by decide)
    _ = m ((c : Thread nD τ).loc main_arg6) := rfl
theorem arg7_at1 (c : Dev nD) : W1 m ρ c (Proc.devRef .tc main_arg7) = m ((c : Thread nD τ).loc main_arg7) :=
  calc W1 m ρ c (Proc.devRef .tc main_arg7)
    _ = W0 m ρ c (Proc.devRef .tc main_arg7) := W1_of_ne m ρ c main_arg7 (by decide)
    _ = m ((c : Thread nD τ).loc main_arg7) := rfl
theorem arg3_at2 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 0).trans (((dat0 (V0 m ρ) c).arrAt_in 0 rfl _).trans (A_eq0 (V0 m ρ) c 0))
    _ = m ((c : Thread nD τ).loc main_arg3) := rfl
theorem arg4_at2 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 1).trans (((dat0 (V0 m ρ) c).arrAt_in 1 rfl _).trans (A_eq0 (V0 m ρ) c 1))
    _ = m ((c : Thread nD τ).loc main_arg4) := rfl
theorem arg5_at2 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem arg0_at7 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem arg1_at3 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem arg1_at7 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem arg2_at7 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl
theorem arg8_at7 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl
theorem arg9_at3 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl
theorem arg9_at7 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl
theorem arg10_at3 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl
theorem arg10_at7 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl
theorem arg11_at3 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = m ((c : Thread nD τ).loc main_arg11) := rfl
theorem arg11_at7 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = m ((c : Thread nD τ).loc main_arg11) := rfl

/-! ## The apply region over the statistics is the layer -/

/-- With the scale and the shift the host computes from the column sums and the column sums of squares, the affine
    rectified matrix is the layer in its moments form. -/
theorem G_layer (X : S100000x64.Idx → EReal) (W : S64x64.Idx → EReal) (b γ β : S64.Idx → EReal) :
    G X W b (scaleT (sumRow X W b) (sqRow X W b) γ) (shiftT (sumRow X W b) (sqRow X W b) γ β) = Cert.Spec.layerK X W b γ β := by
  funext i
  obtain ⟨r, q, rfl⟩ : ∃ (r : Fin 100000) (q : Fin 64), i = ix2 r q := ⟨i 0, i 1, eq_ix2 i⟩
  show max (Cert.Spec.lin X W b r q * scaleT (sumRow X W b) (sqRow X W b) γ (ix1 q) + shiftT (sumRow X W b) (sqRow X W b) γ β (ix1 q)) 0
    = Cert.Spec.bnK (Cert.Spec.lin X W b) γ β r q
  rw [shiftT_apply, scaleT_apply]
  rfl

/-! ## Layer 0: statistics region 0, host stretch 1, apply region 1 -/
theorem x0_in (c : Dev nD) : W0 m ρ c (Proc.devRef .tc main_arg3) = m ((c : Thread nD τ).loc main_arg3) := rfl
theorem w0_in (c : Dev nD) : W0 m ρ c (Proc.devRef .tc main_arg4) = m ((c : Thread nD τ).loc main_arg4) := rfl
theorem b0_in (c : Dev nD) : W0 m ρ c (Proc.devRef .tc main_arg5) = m ((c : Thread nD τ).loc main_arg5) := rfl
theorem g0_in (c : Dev nD) : W0 m ρ c (Proc.devRef .tc main_arg6) = m ((c : Thread nD τ).loc main_arg6) := rfl
theorem be0_in (c : Dev nD) : W0 m ρ c (Proc.devRef .tc main_arg7) = m ((c : Thread nD τ).loc main_arg7) := rfl
theorem sum0 (c : Dev nD) : W1 m ρ c (Proc.devRef .tc main_v0_0) = sumRow (m ((c : Thread nD τ).loc main_arg3)) (m ((c : Thread nD τ).loc main_arg4)) (m ((c : Thread nD τ).loc main_arg5)) :=
  ((W1_arr m ρ c 3).trans (final0_3 (V0 m ρ) c)).trans (by
    show sumRow (W0 m ρ c (Proc.devRef .tc main_arg3)) (W0 m ρ c (Proc.devRef .tc main_arg4)) (W0 m ρ c (Proc.devRef .tc main_arg5)) = _
    rw [x0_in m ρ c, w0_in m ρ c, b0_in m ρ c])
theorem sq0 (c : Dev nD) : W1 m ρ c (Proc.devRef .tc main_v0_1) = sqRow (m ((c : Thread nD τ).loc main_arg3)) (m ((c : Thread nD τ).loc main_arg4)) (m ((c : Thread nD τ).loc main_arg5)) :=
  ((W1_arr m ρ c 4).trans (final0_4 (V0 m ρ) c)).trans (by
    show sqRow (W0 m ρ c (Proc.devRef .tc main_arg3)) (W0 m ρ c (Proc.devRef .tc main_arg4)) (W0 m ρ c (Proc.devRef .tc main_arg5)) = _
    rw [x0_in m ρ c, w0_in m ρ c, b0_in m ρ c])
theorem g0_at (c : Dev nD) : W1 m ρ c (Proc.devRef .tc main_arg6) = (m ((c : Thread nD τ).loc main_arg6)) :=
  (W1_of_ne m ρ c main_arg6 (by decide)).trans (g0_in m ρ c)
theorem be0_at (c : Dev nD) : W1 m ρ c (Proc.devRef .tc main_arg7) = (m ((c : Thread nD τ).loc main_arg7)) :=
  (W1_of_ne m ρ c main_arg7 (by decide)).trans (be0_in m ρ c)
theorem scale0 (c : Dev nD) : W2 m ρ c (Proc.devRef .tc main_v12) = scaleT (sumRow (m ((c : Thread nD τ).loc main_arg3)) (m ((c : Thread nD τ).loc main_arg4)) (m ((c : Thread nD τ).loc main_arg5))) (sqRow (m ((c : Thread nD τ).loc main_arg3)) (m ((c : Thread nD τ).loc main_arg4)) (m ((c : Thread nD τ).loc main_arg5))) (m ((c : Thread nD τ).loc main_arg6)) :=
  (h1_scale (W1 m ρ c)).trans (by rw [sum0 m ρ c, sq0 m ρ c, g0_at m ρ c])
theorem shift0 (c : Dev nD) : W2 m ρ c (Proc.devRef .tc main_v14) = shiftT (sumRow (m ((c : Thread nD τ).loc main_arg3)) (m ((c : Thread nD τ).loc main_arg4)) (m ((c : Thread nD τ).loc main_arg5))) (sqRow (m ((c : Thread nD τ).loc main_arg3)) (m ((c : Thread nD τ).loc main_arg4)) (m ((c : Thread nD τ).loc main_arg5))) (m ((c : Thread nD τ).loc main_arg6)) (m ((c : Thread nD τ).loc main_arg7)) :=
  (h1_shift (W1 m ρ c)).trans (by rw [sum0 m ρ c, sq0 m ρ c, g0_at m ρ c, be0_at m ρ c])
theorem x0_kept (c : Dev nD) : W2 m ρ c (Proc.devRef .tc main_arg3) = (m ((c : Thread nD τ).loc main_arg3)) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W1_arr m ρ c 0).trans (((dat0 (V0 m ρ) c).arrAt_in 0 rfl _).trans (A_eq0 (V0 m ρ) c 0))).trans (x0_in m ρ c))
theorem w0_kept (c : Dev nD) : W2 m ρ c (Proc.devRef .tc main_arg4) = (m ((c : Thread nD τ).loc main_arg4)) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W1_arr m ρ c 1).trans (((dat0 (V0 m ρ) c).arrAt_in 1 rfl _).trans (A_eq0 (V0 m ρ) c 1))).trans (w0_in m ρ c))
theorem b0_kept (c : Dev nD) : W2 m ρ c (Proc.devRef .tc main_arg5) = (m ((c : Thread nD τ).loc main_arg5)) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W1_arr m ρ c 2).trans (((dat0 (V0 m ρ) c).arrAt_in 2 rfl _).trans (A_eq0 (V0 m ρ) c 2))).trans (b0_in m ρ c))
theorem out0 (c : Dev nD) : W3 m ρ c (Proc.devRef .tc main_v15) = K0 m c :=
  ((W3_arr m ρ c 5).trans (final1 (V2 m ρ) c)).trans (by
    show G (W2 m ρ c (Proc.devRef .tc main_arg3)) (W2 m ρ c (Proc.devRef .tc main_arg4)) (W2 m ρ c (Proc.devRef .tc main_arg5)) (W2 m ρ c (Proc.devRef .tc main_v12)) (W2 m ρ c (Proc.devRef .tc main_v14)) = _
    rw [x0_kept m ρ c, w0_kept m ρ c, b0_kept m ρ c, scale0 m ρ c, shift0 m ρ c]
    exact G_layer _ _ _ _ _)

/-! ## Layer 1: statistics region 2, host stretch 3, apply region 3 -/
theorem prev1 (c : Dev nD) : W3 m ρ c (Proc.devRef .tc main_v15) = K0 m c :=
  out0 m ρ c
theorem x1_in (c : Dev nD) : W4 m ρ c (Proc.devRef .tc main_v28) = A1 m c :=
  (h2_agg (W3 m ρ c)).trans (by rw [arg0_at3 m ρ c, arg1_at3 m ρ c, arg2_at3 m ρ c, prev1 m ρ c]; rfl)
theorem w1_in (c : Dev nD) : W4 m ρ c (Proc.devRef .tc main_v30) = wA (m ((c : Thread nD τ).loc main_arg8)) :=
  (h2_w (W3 m ρ c)).trans (by rw [arg8_at3 m ρ c])
theorem b1_in (c : Dev nD) : W4 m ρ c (Proc.devRef .tc main_v32) = vA (m ((c : Thread nD τ).loc main_arg9)) :=
  (h2_b (W3 m ρ c)).trans (by rw [arg9_at3 m ρ c])
theorem g1_in (c : Dev nD) : W4 m ρ c (Proc.devRef .tc main_v34) = vA (m ((c : Thread nD τ).loc main_arg10)) :=
  (h2_g (W3 m ρ c)).trans (by rw [arg10_at3 m ρ c])
theorem be1_in (c : Dev nD) : W4 m ρ c (Proc.devRef .tc main_v36) = vA (m ((c : Thread nD τ).loc main_arg11)) :=
  (h2_be (W3 m ρ c)).trans (by rw [arg11_at3 m ρ c])
theorem sum1 (c : Dev nD) : W5 m ρ c (Proc.devRef .tc main_v37_0) = sumRow (A1 m c) (wA (m ((c : Thread nD τ).loc main_arg8))) (vA (m ((c : Thread nD τ).loc main_arg9))) :=
  ((W5_arr m ρ c 3).trans (final2_3 (V4 m ρ) c)).trans (by
    show sumRow (W4 m ρ c (Proc.devRef .tc main_v28)) (W4 m ρ c (Proc.devRef .tc main_v30)) (W4 m ρ c (Proc.devRef .tc main_v32)) = _
    rw [x1_in m ρ c, w1_in m ρ c, b1_in m ρ c])
theorem sq1 (c : Dev nD) : W5 m ρ c (Proc.devRef .tc main_v37_1) = sqRow (A1 m c) (wA (m ((c : Thread nD τ).loc main_arg8))) (vA (m ((c : Thread nD τ).loc main_arg9))) :=
  ((W5_arr m ρ c 4).trans (final2_4 (V4 m ρ) c)).trans (by
    show sqRow (W4 m ρ c (Proc.devRef .tc main_v28)) (W4 m ρ c (Proc.devRef .tc main_v30)) (W4 m ρ c (Proc.devRef .tc main_v32)) = _
    rw [x1_in m ρ c, w1_in m ρ c, b1_in m ρ c])
theorem g1_at (c : Dev nD) : W5 m ρ c (Proc.devRef .tc main_v34) = (vA (m ((c : Thread nD τ).loc main_arg10))) :=
  (W5_of_ne m ρ c main_v34 (by decide)).trans (g1_in m ρ c)
theorem be1_at (c : Dev nD) : W5 m ρ c (Proc.devRef .tc main_v36) = (vA (m ((c : Thread nD τ).loc main_arg11))) :=
  (W5_of_ne m ρ c main_v36 (by decide)).trans (be1_in m ρ c)
theorem scale1 (c : Dev nD) : W6 m ρ c (Proc.devRef .tc main_v49) = scaleT (sumRow (A1 m c) (wA (m ((c : Thread nD τ).loc main_arg8))) (vA (m ((c : Thread nD τ).loc main_arg9)))) (sqRow (A1 m c) (wA (m ((c : Thread nD τ).loc main_arg8))) (vA (m ((c : Thread nD τ).loc main_arg9)))) (vA (m ((c : Thread nD τ).loc main_arg10))) :=
  (h3_scale (W5 m ρ c)).trans (by rw [sum1 m ρ c, sq1 m ρ c, g1_at m ρ c])
theorem shift1 (c : Dev nD) : W6 m ρ c (Proc.devRef .tc main_v51) = shiftT (sumRow (A1 m c) (wA (m ((c : Thread nD τ).loc main_arg8))) (vA (m ((c : Thread nD τ).loc main_arg9)))) (sqRow (A1 m c) (wA (m ((c : Thread nD τ).loc main_arg8))) (vA (m ((c : Thread nD τ).loc main_arg9)))) (vA (m ((c : Thread nD τ).loc main_arg10))) (vA (m ((c : Thread nD τ).loc main_arg11))) :=
  (h3_shift (W5 m ρ c)).trans (by rw [sum1 m ρ c, sq1 m ρ c, g1_at m ρ c, be1_at m ρ c])
theorem x1_kept (c : Dev nD) : W6 m ρ c (Proc.devRef .tc main_v28) = (A1 m c) :=
  (StableHlo.after_of_forall_not_mem (b := Proc.devRef .tc main_v28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W5_arr m ρ c 0).trans (((dat2 (V4 m ρ) c).arrAt_in 0 rfl _).trans (A_eq2 (V4 m ρ) c 0))).trans (x1_in m ρ c))
theorem w1_kept (c : Dev nD) : W6 m ρ c (Proc.devRef .tc main_v30) = (wA (m ((c : Thread nD τ).loc main_arg8))) :=
  (StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W5_arr m ρ c 1).trans (((dat2 (V4 m ρ) c).arrAt_in 1 rfl _).trans (A_eq2 (V4 m ρ) c 1))).trans (w1_in m ρ c))
theorem b1_kept (c : Dev nD) : W6 m ρ c (Proc.devRef .tc main_v32) = (vA (m ((c : Thread nD τ).loc main_arg9))) :=
  (StableHlo.after_of_forall_not_mem (b := Proc.devRef .tc main_v32) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W5_arr m ρ c 2).trans (((dat2 (V4 m ρ) c).arrAt_in 2 rfl _).trans (A_eq2 (V4 m ρ) c 2))).trans (b1_in m ρ c))
theorem out1 (c : Dev nD) : W7 m ρ c (Proc.devRef .tc main_v52) = K1 m c :=
  ((W7_arr m ρ c 5).trans (final3 (V6 m ρ) c)).trans (by
    show G (W6 m ρ c (Proc.devRef .tc main_v28)) (W6 m ρ c (Proc.devRef .tc main_v30)) (W6 m ρ c (Proc.devRef .tc main_v32)) (W6 m ρ c (Proc.devRef .tc main_v49)) (W6 m ρ c (Proc.devRef .tc main_v51)) = _
    rw [x1_kept m ρ c, w1_kept m ρ c, b1_kept m ρ c, scale1 m ρ c, shift1 m ρ c]
    exact G_layer _ _ _ _ _)

/-! ## Layer 2: statistics region 4, host stretch 5, apply region 5 -/
theorem prev2 (c : Dev nD) : W7 m ρ c (Proc.devRef .tc main_v52) = K1 m c :=
  out1 m ρ c
theorem x2_in (c : Dev nD) : W8 m ρ c (Proc.devRef .tc main_v65) = A2 m c :=
  (h4_agg (W7 m ρ c)).trans (by rw [arg0_at7 m ρ c, arg1_at7 m ρ c, arg2_at7 m ρ c, prev2 m ρ c]; rfl)
theorem w2_in (c : Dev nD) : W8 m ρ c (Proc.devRef .tc main_v67) = wB (m ((c : Thread nD τ).loc main_arg8)) :=
  (h4_w (W7 m ρ c)).trans (by rw [arg8_at7 m ρ c])
theorem b2_in (c : Dev nD) : W8 m ρ c (Proc.devRef .tc main_v69) = vB (m ((c : Thread nD τ).loc main_arg9)) :=
  (h4_b (W7 m ρ c)).trans (by rw [arg9_at7 m ρ c])
theorem g2_in (c : Dev nD) : W8 m ρ c (Proc.devRef .tc main_v71) = vB (m ((c : Thread nD τ).loc main_arg10)) :=
  (h4_g (W7 m ρ c)).trans (by rw [arg10_at7 m ρ c])
theorem be2_in (c : Dev nD) : W8 m ρ c (Proc.devRef .tc main_v73) = vB (m ((c : Thread nD τ).loc main_arg11)) :=
  (h4_be (W7 m ρ c)).trans (by rw [arg11_at7 m ρ c])
theorem sum2 (c : Dev nD) : W9 m ρ c (Proc.devRef .tc main_v74_0) = sumRow (A2 m c) (wB (m ((c : Thread nD τ).loc main_arg8))) (vB (m ((c : Thread nD τ).loc main_arg9))) :=
  ((W9_arr m ρ c 3).trans (final4_3 (V8 m ρ) c)).trans (by
    show sumRow (W8 m ρ c (Proc.devRef .tc main_v65)) (W8 m ρ c (Proc.devRef .tc main_v67)) (W8 m ρ c (Proc.devRef .tc main_v69)) = _
    rw [x2_in m ρ c, w2_in m ρ c, b2_in m ρ c])
theorem sq2 (c : Dev nD) : W9 m ρ c (Proc.devRef .tc main_v74_1) = sqRow (A2 m c) (wB (m ((c : Thread nD τ).loc main_arg8))) (vB (m ((c : Thread nD τ).loc main_arg9))) :=
  ((W9_arr m ρ c 4).trans (final4_4 (V8 m ρ) c)).trans (by
    show sqRow (W8 m ρ c (Proc.devRef .tc main_v65)) (W8 m ρ c (Proc.devRef .tc main_v67)) (W8 m ρ c (Proc.devRef .tc main_v69)) = _
    rw [x2_in m ρ c, w2_in m ρ c, b2_in m ρ c])
theorem g2_at (c : Dev nD) : W9 m ρ c (Proc.devRef .tc main_v71) = (vB (m ((c : Thread nD τ).loc main_arg10))) :=
  (W9_of_ne m ρ c main_v71 (by decide)).trans (g2_in m ρ c)
theorem be2_at (c : Dev nD) : W9 m ρ c (Proc.devRef .tc main_v73) = (vB (m ((c : Thread nD τ).loc main_arg11))) :=
  (W9_of_ne m ρ c main_v73 (by decide)).trans (be2_in m ρ c)
theorem scale2 (c : Dev nD) : W10 m ρ c (Proc.devRef .tc main_v86) = scaleT (sumRow (A2 m c) (wB (m ((c : Thread nD τ).loc main_arg8))) (vB (m ((c : Thread nD τ).loc main_arg9)))) (sqRow (A2 m c) (wB (m ((c : Thread nD τ).loc main_arg8))) (vB (m ((c : Thread nD τ).loc main_arg9)))) (vB (m ((c : Thread nD τ).loc main_arg10))) :=
  (h5_scale (W9 m ρ c)).trans (by rw [sum2 m ρ c, sq2 m ρ c, g2_at m ρ c])
theorem shift2 (c : Dev nD) : W10 m ρ c (Proc.devRef .tc main_v88) = shiftT (sumRow (A2 m c) (wB (m ((c : Thread nD τ).loc main_arg8))) (vB (m ((c : Thread nD τ).loc main_arg9)))) (sqRow (A2 m c) (wB (m ((c : Thread nD τ).loc main_arg8))) (vB (m ((c : Thread nD τ).loc main_arg9)))) (vB (m ((c : Thread nD τ).loc main_arg10))) (vB (m ((c : Thread nD τ).loc main_arg11))) :=
  (h5_shift (W9 m ρ c)).trans (by rw [sum2 m ρ c, sq2 m ρ c, g2_at m ρ c, be2_at m ρ c])
theorem x2_kept (c : Dev nD) : W10 m ρ c (Proc.devRef .tc main_v65) = (A2 m c) :=
  (StableHlo.after_of_forall_not_mem (b := Proc.devRef .tc main_v65) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W9_arr m ρ c 0).trans (((dat4 (V8 m ρ) c).arrAt_in 0 rfl _).trans (A_eq4 (V8 m ρ) c 0))).trans (x2_in m ρ c))
theorem w2_kept (c : Dev nD) : W10 m ρ c (Proc.devRef .tc main_v67) = (wB (m ((c : Thread nD τ).loc main_arg8))) :=
  (StableHlo.after_of_forall_not_mem (b := Proc.devRef .tc main_v67) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W9_arr m ρ c 1).trans (((dat4 (V8 m ρ) c).arrAt_in 1 rfl _).trans (A_eq4 (V8 m ρ) c 1))).trans (w2_in m ρ c))
theorem b2_kept (c : Dev nD) : W10 m ρ c (Proc.devRef .tc main_v69) = (vB (m ((c : Thread nD τ).loc main_arg9))) :=
  (StableHlo.after_of_forall_not_mem (b := Proc.devRef .tc main_v69) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W9_arr m ρ c 2).trans (((dat4 (V8 m ρ) c).arrAt_in 2 rfl _).trans (A_eq4 (V8 m ρ) c 2))).trans (b2_in m ρ c))
theorem out2 (c : Dev nD) : W11 m ρ c (Proc.devRef .tc main_v89) = K2 m c :=
  ((W11_arr m ρ c 5).trans (final5 (V10 m ρ) c)).trans (by
    show G (W10 m ρ c (Proc.devRef .tc main_v65)) (W10 m ρ c (Proc.devRef .tc main_v67)) (W10 m ρ c (Proc.devRef .tc main_v69)) (W10 m ρ c (Proc.devRef .tc main_v86)) (W10 m ρ c (Proc.devRef .tc main_v88)) = _
    rw [x2_kept m ρ c, w2_kept m ρ c, b2_kept m ρ c, scale2 m ρ c, shift2 m ρ c]
    exact G_layer _ _ _ _ _)

/-! ## The three results at the end of the fold -/

theorem res0 (c : Dev nD) : W11 m ρ c (Proc.devRef .tc main_v15) = K0 m c :=
  calc W11 m ρ c (Proc.devRef .tc main_v15)
    _ = W10 m ρ c (Proc.devRef .tc main_v15) := W11_of_ne m ρ c main_v15 (by decide)
    _ = W9 m ρ c (Proc.devRef .tc main_v15) := StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v15) := W9_of_ne m ρ c main_v15 (by decide)
    _ = W7 m ρ c (Proc.devRef .tc main_v15) := StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v15) := W7_of_ne m ρ c main_v15 (by decide)
    _ = W5 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v15) := W5_of_ne m ρ c main_v15 (by decide)
    _ = W3 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = K0 m c := out0 m ρ c

theorem res1 (c : Dev nD) : W11 m ρ c (Proc.devRef .tc main_v52) = K1 m c :=
  calc W11 m ρ c (Proc.devRef .tc main_v52)
    _ = W10 m ρ c (Proc.devRef .tc main_v52) := W11_of_ne m ρ c main_v52 (by decide)
    _ = W9 m ρ c (Proc.devRef .tc main_v52) := StableHlo.after_of_forall_not_mem (b := Proc.devRef .tc main_v52) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v52) := W9_of_ne m ρ c main_v52 (by decide)
    _ = W7 m ρ c (Proc.devRef .tc main_v52) := StableHlo.after_of_forall_not_mem (b := Proc.devRef .tc main_v52) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = K1 m c := out1 m ρ c

theorem res2 (c : Dev nD) : W11 m ρ c (Proc.devRef .tc main_v89) = K2 m c := out2 m ρ c

end Cert.KernelIdeal.KWalk

end
-- ==== Proof.KValRun.lean ====
/-
  The idealized kernel program's run, with its three results read as the specification's layers.
-/
import proofs.«172633_j57071525429473_1_alg».proof.Proof.KRun
import proofs.«172633_j57071525429473_1_alg».proof.Proof.KWalk
import proofs.«172633_j57071525429473_1_alg».proof.Proof.KVal

noncomputable section

namespace Cert.KernelIdeal.KVal

open Idealize.ShloMosaic Idealize.ShloMosaic.TcCoe Idealize.SL.Sem
open Cert.KernelIdeal Cert.KernelIdeal.KHost

/-- Every weakly fair execution of the idealized kernel program terminates with the three results at the
    specification's three layers of the arguments, and the arguments unchanged. -/
theorem run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v15) = K0 m c
      ∧ r.2.mem ((c.tc : Thread nD τ).loc main_v52) = K1 m c
      ∧ r.2.mem ((c.tc : Thread nD τ).loc main_v89) = K2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run Cert.KernelIdeal.defs _ _).mono (fun r h c =>
    ⟨(h c).1.trans (Cert.KernelIdeal.KWalk.res0 m ρ c), (h c).2.1.trans (Cert.KernelIdeal.KWalk.res1 m ρ c),
      (h c).2.2.1.trans (Cert.KernelIdeal.KWalk.res2 m ρ c), (h c).2.2.2⟩)
    (Cert.KernelIdeal.KRun.run_W (F := Ideal) m ρ)

end Cert.KernelIdeal.KVal

end
-- ==== Proof.RefOps.lean ====
/-
  The reference program as a list of its host operations: the functions it calls written out at their call
  sites over the calls' own buffers, the whole cut into seven consecutive pieces (three layers, the second and third
  each in two parts, and the two aggregations between them), and its run read
  back as the fold of the operations' results over the launch contents.
-/
import proofs.«172633_j57071525429473_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first layer: the product with the weight, the bias, the column means, the variance function inlined (with its selection function inlined), the normalisation, the rectification inlined. -/
abbrev opsA : List (HloOp τ sig (Elt F)) :=
  [ StableHlo.binary main_arg3 main_arg4 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.nullary main_cst (constant S_ .f32 0x00000000#32),
    StableHlo.binary main_v3 main_cst main_v4 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_0 (constant S_ .f32 0x47C35000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v3 : StableHlo.TRef sig ⟨S100000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S100000x64 ![0, 1] bcast_S1x64_S100000x64_0_1 : (⟨S1x64, .f32⟩ : BufTy).Contents (Elt F) → (⟨S100000x64, .f32⟩ : BufTy).Contents (Elt F)),
    StableHlo.binary main_v3 main_v9 main_v10 (subf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3727C5AC#32),
    StableHlo.unary main_cst_1 main_v11 (broadcastInDim S64 ![] bcast_S_S64 : (⟨S_, .f32⟩ : BufTy).Contents (Elt F) → (⟨S64, .f32⟩ : BufTy).Contents (Elt F)),
    StableHlo.binary main_v7 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.rsqrt : (⟨S64, .f32⟩ : BufTy).Contents (Elt F) → (⟨S64, .f32⟩ : BufTy).Contents (Elt F)),
    StableHlo.unary main_v13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v10 main_v15 main_v16 (mulf : (⟨S100000x64, .f32⟩ : BufTy).Contents (Elt F) → (⟨S100000x64, .f32⟩ : BufTy).Contents (Elt F) → (⟨S100000x64, .f32⟩ : BufTy).Contents (Elt F)),
    StableHlo.unary main_arg6 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v18 main_v19 (mulf : (⟨S100000x64, .f32⟩ : BufTy).Contents (Elt F) → (⟨S100000x64, .f32⟩ : BufTy).Contents (Elt F) → (⟨S100000x64, .f32⟩ : BufTy).Contents (Elt F)),
    StableHlo.unary main_arg7 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v21 main_v22 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v22 : StableHlo.TRef sig ⟨S100000x64, .f32⟩) main_call1.v0 main_call1.v1 maximumf ]

/-- The first aggregation along the edges. -/
abbrev opsB : List (HloOp τ sig (Elt F)) :=
  [ StableHlo.unary main_arg2 main_v24 (broadcastInDim S1600000x1 ![0] bcast_S1600000_S1600000x1_0 : (⟨S1600000, .f32⟩ : BufTy).Contents (Elt F) → (⟨S1600000x1, .f32⟩ : BufTy).Contents (Elt F)),
    StableHlo.nullary main_c_2 (constantI S_ 32 0#32),
    StableHlo.unary main_c_2 main_v25 (broadcastInDim S1600000 ![] bcast_S_S1600000 : (⟨S_, .i32⟩ : BufTy).Contents (Elt F) → (⟨S1600000, .i32⟩ : BufTy).Contents (Elt F)),
    StableHlo.binary main_arg1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v27 (broadcastInDim S1600000 ![] bcast_S_S1600000 : (⟨S_, .i32⟩ : BufTy).Contents (Elt F) → (⟨S1600000, .i32⟩ : BufTy).Contents (Elt F)),
    StableHlo.binary main_arg1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_arg1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v23 main_v30 main_v31 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v24 main_v32 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v32 main_v31 main_v33 (mulf : (⟨S1600000x64, .f32⟩ : BufTy).Contents (Elt F) → (⟨S1600000x64, .f32⟩ : BufTy).Contents (Elt F) → (⟨S1600000x64, .f32⟩ : BufTy).Contents (Elt F)),
    StableHlo.nullary main_cst_4 (constant S_ .f32 0x00000000#32),
    StableHlo.unary main_cst_4 main_v34 (broadcastInDim S100000x64 ![] bcast_S_S100000x64 : (⟨S_, .f32⟩ : BufTy).Contents (Elt F) → (⟨S100000x64, .f32⟩ : BufTy).Contents (Elt F)),
    StableHlo.unary main_arg0 main_v35 (broadcastInDim S1600000x1 ![0] bcast_S1600000_S1600000x1_0 : (⟨S1600000, .i32⟩ : BufTy).Contents (Elt F) → (⟨S1600000x1, .i32⟩ : BufTy).Contents (Elt F)),
    StableHlo.ternary main_v34 main_v35 main_v33 main_v36 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The second layer, up to the divisor of its column means. -/
abbrev opsC1 : List (HloOp τ sig (Elt F)) :=
  [ StableHlo.unary main_arg8 main_v37 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v37 main_v38 rfl shapeCasts_S1x64x64_S64x64,
    StableHlo.binary main_v36 main_v38 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v40 ((extractStridedSlice S1x64 ![0, 0] · slices_S2x64_S1x64_0_0) : (⟨S2x64, .f32⟩ : BufTy).Contents (Elt F) → (⟨S1x64, .f32⟩ : BufTy).Contents (Elt F)),
    StableHlo.reshape main_v40 main_v41 rfl shapeCasts_S1x64_S64,
    StableHlo.unary main_v41 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg10 main_v45 ((extractStridedSlice S1x64 ![0, 0] · slices_S2x64_S1x64_0_0) : (⟨S2x64, .f32⟩ : BufTy).Contents (Elt F) → (⟨S1x64, .f32⟩ : BufTy).Contents (Elt F)),
    StableHlo.reshape main_v45 main_v46 rfl shapeCasts_S1x64_S64,
    StableHlo.unary main_arg11 main_v47 ((extractStridedSlice S1x64 ![0, 0] · slices_S2x64_S1x64_0_0) : (⟨S2x64, .f32⟩ : BufTy).Contents (Elt F) → (⟨S1x64, .f32⟩ : BufTy).Contents (Elt F)),
    StableHlo.reshape main_v47 main_v48 rfl shapeCasts_S1x64_S64,
    StableHlo.nullary main_cst_5 (constant S_ .f32 0x00000000#32),
    StableHlo.binary main_v44 main_cst_5 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_6 (constant S_ .f32 0x47C35000#32),
    StableHlo.unary main_cst_6 main_v50 (broadcastInDim S64 ![] bcast_S_S64 : (⟨S_, .f32⟩ : BufTy).Contents (Elt F) → (⟨S64, .f32⟩ : BufTy).Contents (Elt F)) ]

/-- The second layer, from its column means on. -/
abbrev opsC2 : List (HloOp τ sig (Elt F)) :=
  [ StableHlo.binary main_v49 main_v50 main_v51 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call2.cst (constant S_ .f32 0x00000000#32),
    StableHlo.TRef.binary (.of main_v44 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v44 : StableHlo.TRef sig ⟨S100000x64, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v51 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v54 main_v55 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v56 (broadcastInDim S64 ![] bcast_S_S64 : (⟨S_, .f32⟩ : BufTy).Contents (Elt F) → (⟨S64, .f32⟩ : BufTy).Contents (Elt F)),
    StableHlo.binary main_v52 main_v56 main_v57 (addf : (⟨S64, .f32⟩ : BufTy).Contents (Elt F) → (⟨S64, .f32⟩ : BufTy).Contents (Elt F) → (⟨S64, .f32⟩ : BufTy).Contents (Elt F)),
    StableHlo.unary main_v57 main_v58 (Host.rsqrt : (⟨S64, .f32⟩ : BufTy).Contents (Elt F) → (⟨S64, .f32⟩ : BufTy).Contents (Elt F)),
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v60 main_v61 (mulf : (⟨S100000x64, .f32⟩ : BufTy).Contents (Elt F) → (⟨S100000x64, .f32⟩ : BufTy).Contents (Elt F) → (⟨S100000x64, .f32⟩ : BufTy).Contents (Elt F)),
    StableHlo.unary main_v46 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_v48 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v67 : StableHlo.TRef sig ⟨S100000x64, .f32⟩) main_call3.v0 main_call3.v1 maximumf ]

/-- The second aggregation along the edges. -/
abbrev opsD : List (HloOp τ sig (Elt F)) :=
  [ StableHlo.unary main_arg2 main_v69 (broadcastInDim S1600000x1 ![0] bcast_S1600000_S1600000x1_0 : (⟨S1600000, .f32⟩ : BufTy).Contents (Elt F) → (⟨S1600000x1, .f32⟩ : BufTy).Contents (Elt F)),
    StableHlo.nullary main_c_9 (constantI S_ 32 0#32),
    StableHlo.unary main_c_9 main_v70 (broadcastInDim S1600000 ![] bcast_S_S1600000 : (⟨S_, .i32⟩ : BufTy).Contents (Elt F) → (⟨S1600000, .i32⟩ : BufTy).Contents (Elt F)),
    StableHlo.binary main_arg1 main_v70 main_v71 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v72 (broadcastInDim S1600000 ![] bcast_S_S1600000 : (⟨S_, .i32⟩ : BufTy).Contents (Elt F) → (⟨S1600000, .i32⟩ : BufTy).Contents (Elt F)),
    StableHlo.binary main_arg1 main_v72 main_v73 (addi : (⟨S1600000, .i32⟩ : BufTy).Contents (Elt F) → (⟨S1600000, .i32⟩ : BufTy).Contents (Elt F) → (⟨S1600000, .i32⟩ : BufTy).Contents (Elt F)),
    StableHlo.ternary main_v71 main_v73 main_arg1 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v74 main_v75 (broadcastInDim S1600000x1 ![0] bcast_S1600000_S1600000x1_0 : (⟨S1600000, .i32⟩ : BufTy).Contents (Elt F) → (⟨S1600000x1, .i32⟩ : BufTy).Contents (Elt F)),
    StableHlo.binary main_v68 main_v75 main_v76 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v69 main_v77 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v77 main_v76 main_v78 (mulf : (⟨S1600000x64, .f32⟩ : BufTy).Contents (Elt F) → (⟨S1600000x64, .f32⟩ : BufTy).Contents (Elt F) → (⟨S1600000x64, .f32⟩ : BufTy).Contents (Elt F)),
    StableHlo.nullary main_cst_11 (constant S_ .f32 0x00000000#32),
    StableHlo.unary main_cst_11 main_v79 (broadcastInDim S100000x64 ![] bcast_S_S100000x64 : (⟨S_, .f32⟩ : BufTy).Contents (Elt F) → (⟨S100000x64, .f32⟩ : BufTy).Contents (Elt F)),
    StableHlo.unary main_arg0 main_v80 (broadcastInDim S1600000x1 ![0] bcast_S1600000_S1600000x1_0 : (⟨S1600000, .i32⟩ : BufTy).Contents (Elt F) → (⟨S1600000x1, .i32⟩ : BufTy).Contents (Elt F)),
    StableHlo.ternary main_v79 main_v80 main_v78 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The third layer, up to the variance's offset. -/
abbrev opsE1 : List (HloOp τ sig (Elt F)) :=
  [ StableHlo.unary main_arg8 main_v82 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v82 main_v83 rfl shapeCasts_S1x64x64_S64x64,
    StableHlo.binary main_v81 main_v83 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v85 ((extractStridedSlice S1x64 ![1, 0] · slices_S2x64_S1x64_1_0) : (⟨S2x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v88 main_v89 (addf : (⟨S100000x64, .f32⟩ : BufTy).Contents (Elt F) → (⟨S100000x64, .f32⟩ : BufTy).Contents (Elt F) → (⟨S100000x64, .f32⟩ : BufTy).Contents (Elt F)),
    StableHlo.unary main_arg10 main_v90 ((extractStridedSlice S1x64 ![1, 0] · slices_S2x64_S1x64_1_0) : (⟨S2x64, .f32⟩ : BufTy).Contents (Elt F) → (⟨S1x64, .f32⟩ : BufTy).Contents (Elt F)),
    StableHlo.reshape main_v90 main_v91 rfl shapeCasts_S1x64_S64,
    StableHlo.unary main_arg11 main_v92 ((extractStridedSlice S1x64 ![1, 0] · slices_S2x64_S1x64_1_0) : (⟨S2x64, .f32⟩ : BufTy).Contents (Elt F) → (⟨S1x64, .f32⟩ : BufTy).Contents (Elt F)),
    StableHlo.reshape main_v92 main_v93 rfl shapeCasts_S1x64_S64,
    StableHlo.nullary main_cst_12 (constant S_ .f32 0x00000000#32),
    StableHlo.binary main_v89 main_cst_12 main_v94 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_13 (constant S_ .f32 0x47C35000#32),
    StableHlo.unary main_cst_13 main_v95 (broadcastInDim S64 ![] bcast_S_S64 : (⟨S_, .f32⟩ : BufTy).Contents (Elt F) → (⟨S64, .f32⟩ : BufTy).Contents (Elt F)),
    StableHlo.binary main_v94 main_v95 main_v96 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call4.cst (constant S_ .f32 0x00000000#32),
    StableHlo.TRef.binary (.of main_v89 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v89 : StableHlo.TRef sig ⟨S100000x64, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v96 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v99 main_v100 (subf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3727C5AC#32),
    StableHlo.unary main_cst_15 main_v101 (broadcastInDim S64 ![] bcast_S_S64 : (⟨S_, .f32⟩ : BufTy).Contents (Elt F) → (⟨S64, .f32⟩ : BufTy).Contents (Elt F)) ]

/-- The third layer, from the offset variance on. -/
abbrev opsE2 : List (HloOp τ sig (Elt F)) :=
  [ StableHlo.binary main_v97 main_v101 main_v102 (addf : (⟨S64, .f32⟩ : BufTy).Contents (Elt F) → (⟨S64, .f32⟩ : BufTy).Contents (Elt F) → (⟨S64, .f32⟩ : BufTy).Contents (Elt F)),
    StableHlo.unary main_v102 main_v103 (Host.rsqrt : (⟨S64, .f32⟩ : BufTy).Contents (Elt F) → (⟨S64, .f32⟩ : BufTy).Contents (Elt F)),
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v105 main_v106 (mulf : (⟨S100000x64, .f32⟩ : BufTy).Contents (Elt F) → (⟨S100000x64, .f32⟩ : BufTy).Contents (Elt F) → (⟨S100000x64, .f32⟩ : BufTy).Contents (Elt F)),
    StableHlo.unary main_v91 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_v93 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v112 : StableHlo.TRef sig ⟨S100000x64, .f32⟩) main_call5.v0 main_call5.v1 maximumf ]

theorem opsA_sub : (opsA : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsA_fresh : (opsA : List (HloOp τ sig (Elt F))).Forall fun op => op.fresh = ∅ := by
  simp only [List.Forall]; repeat' constructor

theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsB_fresh : (opsB : List (HloOp τ sig (Elt F))).Forall fun op => op.fresh = ∅ := by
  simp only [List.Forall]; repeat' constructor

theorem opsC1_sub : (opsC1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub ..⟩
theorem opsC1_fresh : (opsC1 : List (HloOp τ sig (Elt F))).Forall fun op => op.fresh = ∅ := by
  simp only [List.Forall]; repeat' constructor

theorem opsC2_sub : (opsC2 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsC2_fresh : (opsC2 : List (HloOp τ sig (Elt F))).Forall fun op => op.fresh = ∅ := by
  simp only [List.Forall]; repeat' constructor

theorem opsD_sub : (opsD : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsD_fresh : (opsD : List (HloOp τ sig (Elt F))).Forall fun op => op.fresh = ∅ := by
  simp only [List.Forall]; repeat' constructor

theorem opsE1_sub : (opsE1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩
theorem opsE1_fresh : (opsE1 : List (HloOp τ sig (Elt F))).Forall fun op => op.fresh = ∅ := by
  simp only [List.Forall]; repeat' constructor

theorem opsE2_sub : (opsE2 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsE2_fresh : (opsE2 : List (HloOp τ sig (Elt F))).Forall fun op => op.fresh = ∅ := by
  simp only [List.Forall]; repeat' constructor

/-- The fold over a concatenation is the folds in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem forall_app {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

/-- The program's three consecutive parts. -/
abbrev ops0 : List (HloOp τ sig (Elt F)) := opsA ++ (opsB ++ opsC1)
abbrev ops1 : List (HloOp τ sig (Elt F)) := opsC2 ++ (opsD ++ opsE1)
abbrev ops2 : List (HloOp τ sig (Elt F)) := opsE2
/-- The whole program. -/
abbrev ops : List (HloOp τ sig (Elt F)) := ops0 ++ (ops1 ++ ops2)

set_option maxRecDepth 8192 in
set_option maxHeartbeats 4000000 in
theorem main_part0_eq (c : Dev nD) : main_part0 (F := F) c = seq ops0 := by
  simp only [main_part0, fn_var.body, fn_where.body, fn_relu.body, bind_assoc, pure_bind]
  rfl

set_option maxRecDepth 8192 in
set_option maxHeartbeats 4000000 in
theorem main_part1_eq (c : Dev nD) : main_part1 (F := F) c = seq ops1 := by
  simp only [main_part1, fn_var.body, fn_where.body, fn_relu.body, bind_assoc, pure_bind]
  rfl

set_option maxRecDepth 8192 in
set_option maxHeartbeats 4000000 in
theorem main_part2_eq (c : Dev nD) : main_part2 (F := F) c = seq ops2 := by
  simp only [main_part2, fn_var.body, fn_where.body, fn_relu.body, bind_assoc, pure_bind]
  rfl

theorem main_eq (c : Dev nD) : main (F := F) c = seq ops := by
  show (main_part0 c >>= fun _ => main_part1 c >>= fun _ => main_part2 c) = seq (ops0 ++ (ops1 ++ ops2))
  rw [main_part0_eq c, main_part1_eq c, main_part2_eq c, seq_append ops0 (ops1 ++ ops2), seq_append ops1 ops2]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app opsA_sub (forall_app opsB_sub opsC1_sub)) (forall_app (forall_app opsC2_sub (forall_app opsD_sub opsE1_sub)) opsE2_sub)

theorem ops_fresh : (ops : List (HloOp τ sig (Elt F))).Forall fun op => op.fresh = ∅ :=
  forall_app (forall_app opsA_fresh (forall_app opsB_fresh opsC1_fresh)) (forall_app (forall_app opsC2_fresh (forall_app opsD_fresh opsE1_fresh)) opsE2_fresh)

/-- On every device, from any memory with zero counters: every weakly fair execution of the program terminates with
    each buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefValue

end
-- ==== Proof.RefDefs.lean ====
/-
  The reference program's results as whole-array terms of its arguments.

  One layer is a fixed chain of whole-array operations of a matrix, a weight, a bias and the two normalisation vectors
  (`layerT`); the second and third layers take their weight, bias and vectors as one slice of a stacked argument, cast
  to the slice's own shape (`w0`, `w1`, `v0`, `v1`); between layers the rows are aggregated along the edges (`aggT`).
-/
import proofs.«172633_j57071525429473_1_alg».proof.Proof.Gen.ReferenceIdeal
import proofs.«172633_j57071525429473_1_alg».proof.Proof.Spec

noncomputable section

namespace Cert.ReferenceIdeal.RefValue

open Cert.ReferenceIdeal Cert.ReferenceIdeal.Gen Idealize.ShloMosaic Idealize.SL.Sem

/-- The first [64, 64] slice of a [2, 64, 64] stack, as a matrix. -/
def w0 (a : FVec Ideal S2x64x64 .f32) : FVec Ideal S64x64 .f32 :=
  fun i => shapeCast S64x64 (extractStridedSlice S1x64x64 ![0, 0, 0] a slices_S2x64x64_S1x64x64_0_0_0) shapeCasts_S1x64x64_S64x64 i
/-- The second [64, 64] slice of a [2, 64, 64] stack, as a matrix. -/
def w1 (a : FVec Ideal S2x64x64 .f32) : FVec Ideal S64x64 .f32 :=
  fun i => shapeCast S64x64 (extractStridedSlice S1x64x64 ![1, 0, 0] a slices_S2x64x64_S1x64x64_1_0_0) shapeCasts_S1x64x64_S64x64 i
/-- The first row of a [2, 64] stack, as a vector. -/
def v0 (a : FVec Ideal S2x64 .f32) : FVec Ideal S64 .f32 :=
  fun i => shapeCast S64 (extractStridedSlice S1x64 ![0, 0] a slices_S2x64_S1x64_0_0) shapeCasts_S1x64_S64 i
/-- The second row of a [2, 64] stack, as a vector. -/
def v1 (a : FVec Ideal S2x64 .f32) : FVec Ideal S64 .f32 :=
  fun i => shapeCast S64 (extractStridedSlice S1x64 ![1, 0] a slices_S2x64_S1x64_1_0) shapeCasts_S1x64_S64 i

/-- A vector laid along every row. -/
abbrev rowsOf (x : FVec Ideal S64 .f32) : FVec Ideal S100000x64 .f32 :=
  broadcastInDim S100000x64 ![0, 1] bcast_S1x64_S100000x64_0_1 (broadcastInDim S1x64 ![1] bcast_S64_S1x64_1 x)

/-- X·W + b. -/
def linT (X : FVec Ideal S100000x64 .f32) (W : FVec Ideal S64x64 .f32) (b : FVec Ideal S64 .f32) : FVec Ideal S100000x64 .f32 :=
  addf (Host.dotGeneral dot_S100000x64_S64x64_S100000x64_1_0_0_1_n_n none X W) (rowsOf b)

/-- The column means. -/
def meanT (L : FVec Ideal S100000x64 .f32) : FVec Ideal S64 .f32 :=
  Host.divf (Host.reduceAdd L (constant S_ .f32 0x00000000#32) reducesTo_S100000x64_S64_d0 h_S_)
    (broadcastInDim S64 ![] bcast_S_S64 (constant S_ .f32 0x47C35000#32))

/-- The deviations from the column means, as the variance function computes them. -/
def devT (L : FVec Ideal S100000x64 .f32) : FVec Ideal S100000x64 .f32 :=
  subf L (broadcastInDim S100000x64 ![0, 1] bcast_S1x64_S100000x64_0_1
    (Host.divf (broadcastInDim S1x64 ![1] bcast_S64_S1x64_1 (Host.reduceAdd L (constant S_ .f32 0x00000000#32) reducesTo_S100000x64_S64_d0 h_S_))
      (broadcastInDim S1x64 ![] bcast_S_S1x64 (constant S_ .f32 0x47C35000#32))))

/-- The divisor of the variance: the number of rows less the correction, which is zero. -/
def cntT : FVec Ideal S_ .f32 :=
  subf (constant S_ .f32 0x47C35000#32) (sitofp .f32 (constantI S_ 32 0#32))

/-- The column variances, as the variance function computes them: the selection between the mean squared deviation
    and the not-a-number constant, on whether the divisor is positive. -/
def varT (L : FVec Ideal S100000x64 .f32) : FVec Ideal S64 .f32 :=
  select (broadcastInDim S64 ![] bcast_S_S64 (cmpf (F := Ideal) .ogt cntT (constant S_ .f32 0x00000000#32)))
    (Host.divf (Host.reduceAdd (mulf (devT L) (devT L)) (constant S_ .f32 0x00000000#32) reducesTo_S100000x64_S64_d0 h_S_)
      (broadcastInDim S64 ![] bcast_S_S64 cntT))
    (broadcastInDim S64 ![] bcast_S_S64 (constant S_ .f32 0x7FC00000#32))

/-- One layer as the reference computes it. -/
def layerT (X : FVec Ideal S100000x64 .f32) (W : FVec Ideal S64x64 .f32) (b γ β : FVec Ideal S64 .f32) : FVec Ideal S100000x64 .f32 :=
  maximumf
    (addf (mulf (mulf (subf (linT X W b) (rowsOf (meanT (linT X W b))))
        (rowsOf (Host.rsqrt (addf (varT (linT X W b)) (broadcastInDim S64 ![] bcast_S_S64 (constant S_ .f32 0x3727C5AC#32))))))
        (rowsOf γ)) (rowsOf β))
    (broadcastInDim S100000x64 ![] bcast_S_S100000x64 (constant S_ .f32 0x00000000#32))

/-- The aggregation along the edges, over the reference's own shape records. -/
abbrev aggT (rows cols : IVec S1600000 32) (vals : FVec Ideal S1600000 .f32) (H : FVec Ideal S100000x64 .f32) : FVec Ideal S100000x64 .f32 :=
  Cert.Spec.aggChain gather_S100000x64_S1600000x1_S1600000x64_1_0_n_n_0_1_164 scatter_S100000x64_S1600000x1_S1600000x64_1_0_0_1
    bcast_S1600000_S1600000x1_0 bcast_S_S1600000 bcast_S1600000x1_S1600000x64_0_1 bcast_S_S100000x64 rows cols vals H

end Cert.ReferenceIdeal.RefValue

end
-- ==== Proof.RefSegs.lean ====
/-
  The seven pieces of the reference's operation list, folded from any contents: each leaves its result at the
  layer's (or the aggregation's) whole-array term of the contents it reads, and leaves alone every buffer it does
  not write.
-/
import proofs.«172633_j57071525429473_1_alg».proof.Proof.RefOps
import proofs.«172633_j57071525429473_1_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## What each piece writes -/

/-- The references piece A writes. -/
abbrev wA : List (Ref sig .tc) := [main_v0, main_v1, main_v2, main_v3, main_cst, main_v4, main_cst_0, main_v5, main_v6, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v8, main_v9, main_v10, main_cst_1, main_v11, main_v12, main_v13, main_v14, main_v15, main_v16, main_v17, main_v18, main_v19, main_v20, main_v21, main_v22, main_call1.cst.ref, main_call1.v0.ref, main_call1.v1.ref]
theorem opsA_writes : (opsA : List (HloOp τ sig (Elt Ideal))).Forall fun op => op.writes ⊆ ((wA).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segA_keep (W : Valuation τ sig (Elt Ideal)) (r : Ref sig .tc) (h : r ∉ wA) : after opsA W (Proc.devRef .tc r) = W (Proc.devRef .tc r) :=
  after_of_writes_sub opsA W opsA_writes h

/-- The references piece B writes. -/
abbrev wB : List (Ref sig .tc) := [main_v24, main_c_2, main_v25, main_v26, main_c_3, main_v27, main_v28, main_v29, main_v30, main_v31, main_v32, main_v33, main_cst_4, main_v34, main_v35, main_v36]
theorem opsB_writes : (opsB : List (HloOp τ sig (Elt Ideal))).Forall fun op => op.writes ⊆ ((wB).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segB_keep (W : Valuation τ sig (Elt Ideal)) (r : Ref sig .tc) (h : r ∉ wB) : after opsB W (Proc.devRef .tc r) = W (Proc.devRef .tc r) :=
  after_of_writes_sub opsB W opsB_writes h

/-- The references piece C1 writes. -/
abbrev wC1 : List (Ref sig .tc) := [main_v37, main_v38, main_v39, main_v40, main_v41, main_v42, main_v43, main_v44, main_v45, main_v46, main_v47, main_v48, main_cst_5, main_v49, main_cst_6, main_v50]
theorem opsC1_writes : (opsC1 : List (HloOp τ sig (Elt Ideal))).Forall fun op => op.writes ⊆ ((wC1).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segC1_keep (W : Valuation τ sig (Elt Ideal)) (r : Ref sig .tc) (h : r ∉ wC1) : after opsC1 W (Proc.devRef .tc r) = W (Proc.devRef .tc r) :=
  after_of_writes_sub opsC1 W opsC1_writes h

/-- The references piece C2 writes. -/
abbrev wC2 : List (Ref sig .tc) := [main_v51, main_c_7, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v53, main_v54, main_v55, main_cst_8, main_v56, main_v57, main_v58, main_v59, main_v60, main_v61, main_v62, main_v63, main_v64, main_v65, main_v66, main_v67, main_call3.cst.ref, main_call3.v0.ref, main_call3.v1.ref]
theorem opsC2_writes : (opsC2 : List (HloOp τ sig (Elt Ideal))).Forall fun op => op.writes ⊆ ((wC2).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segC2_keep (W : Valuation τ sig (Elt Ideal)) (r : Ref sig .tc) (h : r ∉ wC2) : after opsC2 W (Proc.devRef .tc r) = W (Proc.devRef .tc r) :=
  after_of_writes_sub opsC2 W opsC2_writes h

/-- The references piece D writes. -/
abbrev wD : List (Ref sig .tc) := [main_v69, main_c_9, main_v70, main_v71, main_c_10, main_v72, main_v73, main_v74, main_v75, main_v76, main_v77, main_v78, main_cst_11, main_v79, main_v80, main_v81]
theorem opsD_writes : (opsD : List (HloOp τ sig (Elt Ideal))).Forall fun op => op.writes ⊆ ((wD).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segD_keep (W : Valuation τ sig (Elt Ideal)) (r : Ref sig .tc) (h : r ∉ wD) : after opsD W (Proc.devRef .tc r) = W (Proc.devRef .tc r) :=
  after_of_writes_sub opsD W opsD_writes h

/-- The references piece E1 writes. -/
abbrev wE1 : List (Ref sig .tc) := [main_v82, main_v83, main_v84, main_v85, main_v86, main_v87, main_v88, main_v89, main_v90, main_v91, main_v92, main_v93, main_cst_12, main_v94, main_cst_13, main_v95, main_v96, main_c_14, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v98, main_v99, main_v100, main_cst_15, main_v101]
theorem opsE1_writes : (opsE1 : List (HloOp τ sig (Elt Ideal))).Forall fun op => op.writes ⊆ ((wE1).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segE1_keep (W : Valuation τ sig (Elt Ideal)) (r : Ref sig .tc) (h : r ∉ wE1) : after opsE1 W (Proc.devRef .tc r) = W (Proc.devRef .tc r) :=
  after_of_writes_sub opsE1 W opsE1_writes h

/-- The references piece E2 writes. -/
abbrev wE2 : List (Ref sig .tc) := [main_v102, main_v103, main_v104, main_v105, main_v106, main_v107, main_v108, main_v109, main_v110, main_v111, main_v112, main_call5.cst.ref, main_call5.v0.ref, main_call5.v1.ref]
theorem opsE2_writes : (opsE2 : List (HloOp τ sig (Elt Ideal))).Forall fun op => op.writes ⊆ ((wE2).map (Proc.devRef (τ := τ) .tc)).toFinset := by
  simp only [List.Forall, nullary_writes, unary_writes, binary_writes, ternary_writes, reshape_writes, Finset.singleton_subset_iff, List.mem_toFinset]
  repeat' constructor
  all_goals exact List.mem_map_of_mem (by decide)
theorem segE2_keep (W : Valuation τ sig (Elt Ideal)) (r : Ref sig .tc) (h : r ∉ wE2) : after opsE2 W (Proc.devRef .tc r) = W (Proc.devRef .tc r) :=
  after_of_writes_sub opsE2 W opsE2_writes h

/-! ## What each piece computes -/

attribute [local irreducible] Host.reduceAdd Host.gather Host.scatterAdd Host.divf Host.rsqrt in
set_option maxRecDepth 8192 in
set_option maxHeartbeats 4000000 in
theorem segA_out (W : Valuation τ sig (Elt Ideal)) :
    after opsA W (Proc.devRef .tc main_v23) = layerT (W (Proc.devRef .tc main_arg3)) (W (Proc.devRef .tc main_arg4)) (W (Proc.devRef .tc main_arg5)) (W (Proc.devRef .tc main_arg6)) (W (Proc.devRef .tc main_arg7)) := by
  after_results_simp
  rfl

attribute [local irreducible] Host.reduceAdd Host.gather Host.scatterAdd Host.divf Host.rsqrt in
set_option maxRecDepth 8192 in
set_option maxHeartbeats 4000000 in
theorem segB_out (W : Valuation τ sig (Elt Ideal)) :
    after opsB W (Proc.devRef .tc main_v36) = aggT (W (Proc.devRef .tc main_arg0)) (W (Proc.devRef .tc main_arg1)) (W (Proc.devRef .tc main_arg2)) (W (Proc.devRef .tc main_v23)) := by
  after_results_simp
  rfl

attribute [local irreducible] Host.reduceAdd Host.gather Host.scatterAdd Host.divf Host.rsqrt in
set_option maxRecDepth 8192 in
set_option maxHeartbeats 4000000 in
theorem segC_out (W : Valuation τ sig (Elt Ideal)) :
    after opsC2 (after opsC1 W) (Proc.devRef .tc main_v68) = layerT (W (Proc.devRef .tc main_v36)) (w0 (W (Proc.devRef .tc main_arg8))) (v0 (W (Proc.devRef .tc main_arg9))) (v0 (W (Proc.devRef .tc main_arg10))) (v0 (W (Proc.devRef .tc main_arg11))) := by
  after_results_simp
  rfl

attribute [local irreducible] Host.reduceAdd Host.gather Host.scatterAdd Host.divf Host.rsqrt in
set_option maxRecDepth 8192 in
set_option maxHeartbeats 4000000 in
theorem segD_out (W : Valuation τ sig (Elt Ideal)) :
    after opsD W (Proc.devRef .tc main_v81) = aggT (W (Proc.devRef .tc main_arg0)) (W (Proc.devRef .tc main_arg1)) (W (Proc.devRef .tc main_arg2)) (W (Proc.devRef .tc main_v68)) := by
  after_results_simp
  rfl

attribute [local irreducible] Host.reduceAdd Host.gather Host.scatterAdd Host.divf Host.rsqrt in
set_option maxRecDepth 8192 in
set_option maxHeartbeats 4000000 in
theorem segE_out (W : Valuation τ sig (Elt Ideal)) :
    after opsE2 (after opsE1 W) (Proc.devRef .tc main_v113) = layerT (W (Proc.devRef .tc main_v81)) (w1 (W (Proc.devRef .tc main_arg8))) (v1 (W (Proc.devRef .tc main_arg9))) (v1 (W (Proc.devRef .tc main_arg10))) (v1 (W (Proc.devRef .tc main_arg11))) := by
  after_results_simp
  rfl

end Cert.ReferenceIdeal.RefValue

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.BnAlgebra.lean ====
/-
  The real-number algebra of one layer: on real entries the two arrangements of the rectified batch normalisation
  agree, and the result is again real.

  With n = 100000 > 0, m = (∑ l)/n and q = (∑ l²)/n one has q − m² = (∑ (l − m)²)/n ≥ 0, so var + ε > 0 on both sides
  and the reciprocal square root is the same positive real; the affine parts agree by distributivity.
-/
import proofs.«172633_j57071525429473_1_alg».proof.Proof.Spec
import proofs.«172633_j57071525429473_1_alg».proof.Proof.LibAggregate
import Mathlib

noncomputable section

open scoped BigOperators

namespace Cert.Spec

open Idealize.ShloMosaic Idealize.ShloMosaic.ValueIdx

/-- The row count is the real number 100000. -/
theorem nF_eq : nF = ((100000 : ℝ) : EReal) := by
  simp [nF, Ideal.ofBits, Ideal.ieee, -EReal.coe_mul]
  norm_num

/-- The offset ε is a positive real. -/
theorem epsF_pos : ∃ e : ℝ, 0 < e ∧ epsF = (e : EReal) := by
  refine ⟨(10995116 : ℝ) * (2 : ℝ) ^ (-40 : Int), by positivity, ?_⟩
  simp [epsF, Ideal.ofBits, Ideal.ieee, -EReal.coe_mul]

/-- Dividing a sum of reals by the row count is the real quotient. -/
theorem div_sum_nF (f : Fin 100000 → ℝ) :
    Ideal.div (∑ r : Fin 100000, (f r : EReal)) nF = (((∑ r : Fin 100000, f r) / 100000 : ℝ) : EReal) := by
  rw [nF_eq, Ideal.div_coe (by norm_num), ← Cert.Aggregate.coe_finset_sum, ← EReal.coe_mul]
  congr 1
  ring

/-- The maximum of two reals, inside the extended reals. -/
theorem coe_max' (a b : ℝ) : max (a : EReal) (b : EReal) = ((max a b : ℝ) : EReal) :=
  (EReal.coe_strictMono.monotone.map_max).symm

/-- The variance identity over the reals: the mean of the squares less the squared mean is the mean of the squared
    deviations. -/
theorem var_identity (f : Fin 100000 → ℝ) (m : ℝ) (hm : m = (∑ r : Fin 100000, f r) / 100000) :
    (∑ r : Fin 100000, f r * f r) / 100000 - m * m = (∑ r : Fin 100000, (f r - m) * (f r - m)) / 100000 := by
  have h1 : ∀ r : Fin 100000, (f r - m) * (f r - m) = f r * f r - 2 * m * f r + m * m := fun r => by ring
  have hS : (∑ r : Fin 100000, f r) = 100000 * m := by rw [hm]; ring
  rw [Finset.sum_congr rfl (fun r _ => h1 r), Finset.sum_add_distrib, Finset.sum_sub_distrib, ← Finset.mul_sum,
    Finset.sum_const, Finset.card_univ, Fintype.card_fin, nsmul_eq_mul, hS]
  push_cast
  ring

/-- Both arrangements, on real entries, are the coercion of one and the same real number. -/
theorem bn_both (l : Fin 100000 → Fin 64 → ℝ) (γ β : SD.Idx → EReal) (hγ : Real' γ) (hβ : Real' β)
    (r : Fin 100000) (c : Fin 64) :
    ∃ v : ℝ, bnK (fun r c => (l r c : EReal)) γ β r c = (v : EReal)
      ∧ bnR (fun r c => (l r c : EReal)) γ β r c = (v : EReal) := by
  obtain ⟨e, he, hE⟩ := epsF_pos
  obtain ⟨g, hg⟩ := hγ (ix1 c)
  obtain ⟨bb, hb⟩ := hβ (ix1 c)
  obtain ⟨m, hm⟩ : ∃ m : ℝ, m = (∑ r' : Fin 100000, l r' c) / 100000 := ⟨_, rfl⟩
  obtain ⟨v, hv⟩ : ∃ v : ℝ, v = (∑ r' : Fin 100000, (l r' c - m) * (l r' c - m)) / 100000 := ⟨_, rfl⟩
  have hmean : mean (fun r c => (l r c : EReal)) c = (m : EReal) := by
    rw [hm]; exact div_sum_nF (fun r' => l r' c)
  have hQ : Ideal.div (∑ r' : Fin 100000, ((l r' c : ℝ) : EReal) * ((l r' c : ℝ) : EReal)) nF
      = (((∑ r' : Fin 100000, l r' c * l r' c) / 100000 : ℝ) : EReal) := by
    simp only [← EReal.coe_mul]
    exact div_sum_nF (fun r' => l r' c * l r' c)
  have hV : Ideal.div (∑ r' : Fin 100000, (((l r' c : ℝ) : EReal) - (m : EReal)) * (((l r' c : ℝ) : EReal) - (m : EReal))) nF
      = (v : EReal) := by
    simp only [← EReal.coe_sub, ← EReal.coe_mul]
    rw [hv]; exact div_sum_nF (fun r' => (l r' c - m) * (l r' c - m))
  have hvq : (∑ r' : Fin 100000, l r' c * l r' c) / 100000 - m * m = v := by
    rw [hv]; exact var_identity (fun r' => l r' c) m hm
  have hv0 : 0 ≤ v := by
    rw [hv]; exact div_nonneg (Finset.sum_nonneg fun r' _ => mul_self_nonneg _) (by norm_num)
  have hpos : 0 < v + e := by linarith
  have hrs : Ideal.rsqrt ((v + e : ℝ) : EReal) = (((Real.sqrt (v + e))⁻¹ : ℝ) : EReal) := by
    rw [Ideal.rsqrt_coe, if_neg (not_lt.mpr hpos.le), if_neg hpos.ne']
  refine ⟨max ((l r c - m) * (Real.sqrt (v + e))⁻¹ * g + bb) 0, ?_, ?_⟩
  · simp only [bnK, hmean, hQ, hg, hb, hE]
    simp only [← EReal.coe_mul, ← EReal.coe_sub, ← EReal.coe_add]
    rw [hvq, hrs]
    simp only [← EReal.coe_mul, ← EReal.coe_sub, ← EReal.coe_add]
    rw [← EReal.coe_zero, coe_max']
    refine congrArg (fun t : ℝ => ((max t 0 : ℝ) : EReal)) ?_
    ring
  · simp only [bnR, hmean, hV, hg, hb, hE]
    simp only [← EReal.coe_mul, ← EReal.coe_sub, ← EReal.coe_add]
    rw [hrs]
    simp only [← EReal.coe_mul, ← EReal.coe_sub, ← EReal.coe_add]
    rw [← EReal.coe_zero, coe_max']

/-- On real entries the moments form and the deviations form agree. -/
theorem bnK_eq_bnR (L : Fin 100000 → Fin 64 → EReal) (γ β : SD.Idx → EReal)
    (hL : ∀ r c, ∃ v : ℝ, L r c = (v : EReal)) (hγ : Real' γ) (hβ : Real' β) (r : Fin 100000) (c : Fin 64) :
    bnK L γ β r c = bnR L γ β r c := by
  choose l hl using hL
  obtain rfl : L = fun r c => (l r c : EReal) := funext fun r => funext fun c => hl r c
  obtain ⟨v, hK, hR⟩ := bn_both l γ β hγ hβ r c
  rw [hK, hR]

/-- On real entries the moments form is real. -/
theorem bnK_real (L : Fin 100000 → Fin 64 → EReal) (γ β : SD.Idx → EReal)
    (hL : ∀ r c, ∃ v : ℝ, L r c = (v : EReal)) (hγ : Real' γ) (hβ : Real' β) (r : Fin 100000) (c : Fin 64) :
    ∃ v : ℝ, bnK L γ β r c = (v : EReal) := by
  choose l hl using hL
  obtain rfl : L = fun r c => (l r c : EReal) := funext fun r => funext fun c => hl r c
  obtain ⟨v, hK, _⟩ := bn_both l γ β hγ hβ r c
  exact ⟨v, hK⟩

/-- An entry of X·W + b on real entries is real. -/
theorem lin_real {X : SND.Idx → EReal} {W : SDD.Idx → EReal} {b : SD.Idx → EReal} (hX : Real' X) (hW : Real' W)
    (hb : Real' b) (r : Fin 100000) (c : Fin 64) : ∃ v : ℝ, lin X W b r c = (v : EReal) := by
  choose x hx using hX
  choose w hw using hW
  choose b' hb' using hb
  refine ⟨(∑ k : Fin 64, x (ix2 r k) * w (ix2 k c)) + b' (ix1 c), ?_⟩
  simp only [lin, hx, hw, hb', ← EReal.coe_mul]
  rw [← Cert.Aggregate.coe_finset_sum, ← EReal.coe_add]

/-- One layer on real entries: the two forms agree. -/
theorem layerK_eq_layerR {X : SND.Idx → EReal} {W : SDD.Idx → EReal} {b γ β : SD.Idx → EReal} (hX : Real' X)
    (hW : Real' W) (hb : Real' b) (hγ : Real' γ) (hβ : Real' β) : layerK X W b γ β = layerR X W b γ β := by
  funext i
  exact bnK_eq_bnR (lin X W b) γ β (fun r c => lin_real hX hW hb r c) hγ hβ (i 0) (i 1)

/-- One layer on real entries is real. -/
theorem layerK_real {X : SND.Idx → EReal} {W : SDD.Idx → EReal} {b γ β : SD.Idx → EReal} (hX : Real' X)
    (hW : Real' W) (hb : Real' b) (hγ : Real' γ) (hβ : Real' β) : Real' (layerK X W b γ β) := by
  intro i
  exact bnK_real (lin X W b) γ β (fun r c => lin_real hX hW hb r c) hγ hβ (i 0) (i 1)

end Cert.Spec

end
-- ==== Proof.RefLayer.lean ====
/-
  One layer of the reference, read entry by entry, is the specification's layer in its deviations form.

  At entry (r, c): the product with the weight is the sum over the contracted coordinate; a vector laid along the rows reads
  the vector at c; the reduction over the rows is the sum over the rows added to zero; the divisor of the variance is the
  number of rows less zero, and it is positive, so the selection takes the mean squared deviation; the rectification is
  the maximum with zero.
-/
import proofs.«172633_j57071525429473_1_alg».proof.Proof.RefDefs
import proofs.«172633_j57071525429473_1_alg».proof.Proof.LibPlainProduct
import proofs.«172633_j57071525429473_1_alg».proof.Proof.BnAlgebra
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Idealize.SL.Sem
open scoped BigOperators

/-- One row repeated down the rows, at (r, c), is the row at c. -/
theorem bcRows_apply (y : FVec Ideal S1x64 .f32) (r : Fin 100000) (c : Fin 64) :
    broadcastInDim S100000x64 ![0, 1] bcast_S1x64_S100000x64_0_1 y (ix2 r c) = y (ix2 (0 : Fin 1) c) :=
  broadcastInDim_apply _ bcast_S1x64_S100000x64_0_1 y (ix2 r c) (ix2 (0 : Fin 1) c) (by
    intro a
    match a with
    | ⟨0, _⟩ => rfl
    | ⟨1, _⟩ => rfl)

/-- A vector as one row, at (0, c), is the vector at c. -/
theorem bcRow_apply (x : FVec Ideal S64 .f32) (c : Fin 64) :
    broadcastInDim S1x64 ![1] bcast_S64_S1x64_1 x (ix2 (0 : Fin 1) c) = x (ix1 c) :=
  broadcastInDim_apply _ bcast_S64_S1x64_1 x (ix2 (0 : Fin 1) c) (ix1 c) (by
    intro a
    match a with
    | ⟨0, _⟩ => rfl)

/-- A vector laid along every row, at (r, c), is the vector at c. -/
theorem rowsOf_apply (x : FVec Ideal S64 .f32) (r : Fin 100000) (c : Fin 64) : rowsOf x (ix2 r c) = x (ix1 c) :=
  (bcRows_apply _ r c).trans (bcRow_apply x c)

/-- The index over column c with row k inserted is (k, c). -/
theorem lift_eq (h : S100000x64.Reduces [0] S64) (c : Fin 64) (k : Fin 100000) : h.lift (ix1 c) k = ix2 k c := by
  funext a
  apply Fin.ext
  match a with
  | ⟨0, _⟩ => rfl
  | ⟨1, _⟩ => rfl

/-- The reduction over the rows from zero, at c, is the sum of column c. -/
theorem reduce_apply (L : FVec Ideal S100000x64 .f32) (c : Fin 64) :
    Host.reduceAdd L (constant S_ .f32 0x00000000#32) reducesTo_S100000x64_S64_d0 h_S_ (ix1 c) = ∑ r : Fin 100000, L (ix2 r c) := by
  have h : S100000x64.Reduces [0] S64 := by decide
  rw [hostReduceAdd_apply, Ideal.hostReduceAdd_single reducesTo_S100000x64_S64_d0 h, constant_apply, Ideal.ofBits_zero_f32, zero_add]
  exact Finset.sum_congr rfl fun k _ => congrArg L (lift_eq h c k)

/-- The host's reciprocal square root at an index. -/
theorem hostRsqrt_apply {s : Shape} (x : FVec Ideal s .f32) (i : s.Idx) : Host.rsqrt x i = Ideal.rsqrt (x i) := rfl

/-- Entry (r, c) of X·W + b. -/
theorem linT_apply (X : FVec Ideal S100000x64 .f32) (W : FVec Ideal S64x64 .f32) (b : FVec Ideal S64 .f32) (r : Fin 100000) (c : Fin 64) :
    linT X W b (ix2 r c) = Cert.Spec.lin X W b r c := by
  unfold linT Cert.Spec.lin
  rw [addf_apply, rowsOf_apply, Cert.PlainProduct.dotGeneral_plain_apply' dot_S100000x64_S64x64_S100000x64_1_0_0_1_n_n rfl none X W r c]

/-- The column mean at c. -/
theorem meanT_apply (L : FVec Ideal S100000x64 .f32) (c : Fin 64) :
    meanT L (ix1 c) = Cert.Spec.mean (fun r c => L (ix2 r c)) c := by
  unfold meanT Cert.Spec.mean
  rw [hostDivf_apply, reduce_apply, broadcastInDim_scalar_apply, constant_apply]
  rfl

/-- The deviation at (r, c). -/
theorem devT_apply (L : FVec Ideal S100000x64 .f32) (r : Fin 100000) (c : Fin 64) :
    devT L (ix2 r c) = L (ix2 r c) - Cert.Spec.mean (fun r c => L (ix2 r c)) c := by
  unfold devT Cert.Spec.mean
  rw [subf_apply, bcRows_apply, hostDivf_apply, bcRow_apply, reduce_apply, broadcastInDim_scalar_apply, constant_apply]
  rfl

/-- The variance's divisor is the number of rows. -/
theorem cntT_apply : cntT ix0 = Cert.Spec.nF := by
  unfold cntT
  rw [subf_apply, constant_apply, sitofp_apply]
  show Cert.Spec.nF - (((0#32 : BitVec 32).toInt : ℝ) : EReal) = Cert.Spec.nF
  have h0 : ((0#32 : BitVec 32).toInt : ℝ) = 0 := by simp
  rw [h0, EReal.coe_zero, sub_zero]

/-- The number of rows is positive. -/
theorem nF_pos : (0 : EReal) < Cert.Spec.nF := by
  rw [Cert.Spec.nF_eq]
  exact_mod_cast (by norm_num : (0 : ℝ) < 100000)

/-- The column variance at c: the mean squared deviation. -/
theorem varT_apply (L : FVec Ideal S100000x64 .f32) (c : Fin 64) :
    varT L (ix1 c) = Ideal.div (∑ r : Fin 100000, devT L (ix2 r c) * devT L (ix2 r c)) Cert.Spec.nF := by
  unfold varT
  have hpos : cmpf (F := Ideal) .ogt cntT (constant S_ .f32 0x00000000#32) ix0 = 1#1 := by
    rw [cmpf_apply, cntT_apply, constant_apply, Ideal.ofBits_zero_f32]
    show BitVec.ofBool (decide ((0 : EReal) < Cert.Spec.nF)) = 1#1
    rw [decide_eq_true nF_pos]
    rfl
  rw [select_apply, broadcastInDim_scalar_apply, hpos, select_one, hostDivf_apply, reduce_apply, broadcastInDim_scalar_apply, cntT_apply]
  rfl

/-- One layer of the reference is the specification's layer, deviations form. -/
theorem layerT_eq (X : FVec Ideal S100000x64 .f32) (W : FVec Ideal S64x64 .f32) (b γ β : FVec Ideal S64 .f32) :
    layerT X W b γ β = Cert.Spec.layerR X W b γ β := by
  funext i
  obtain ⟨r, c, rfl⟩ : ∃ (r : Fin 100000) (c : Fin 64), i = ix2 r c := ⟨i 0, i 1, eq_ix2 i⟩
  show layerT X W b γ β (ix2 r c) = Cert.Spec.bnR (Cert.Spec.lin X W b) γ β r c
  have hL : (fun r c => linT X W b (ix2 r c)) = Cert.Spec.lin X W b := funext fun r => funext fun c => linT_apply X W b r c
  unfold layerT Cert.Spec.bnR
  rw [maximumf_apply, addf_apply, mulf_apply, mulf_apply, subf_apply, rowsOf_apply, rowsOf_apply, rowsOf_apply, rowsOf_apply,
    hostRsqrt_apply, addf_apply, meanT_apply, varT_apply, broadcastInDim_scalar_apply, broadcastInDim_scalar_apply, constant_apply,
    constant_apply, Ideal.ofBits_zero_f32]
  simp only [devT_apply, hL, linT_apply]
  rfl

end Cert.ReferenceIdeal.RefValue

end
-- ==== Proof.RefRun.lean ====
/-
  The reference program's run: every weakly fair execution terminates with the three results at the specification's
  layers of the arguments' launch contents (each layer fed by the aggregation of the one before), and the arguments
  unchanged.

  The fold over the whole operation list is the folds over its seven pieces in turn; a piece's result is the layer's
  (or the aggregation's) term of the contents it reads, and the buffers it reads were left alone by every piece
  in between.
-/
import proofs.«172633_j57071525429473_1_alg».proof.Proof.RefSegs
import proofs.«172633_j57071525429473_1_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo

/-- No piece writes the reference. -/
def Kept (r : Ref sig .tc) : Prop := r ∉ wA ∧ r ∉ wB ∧ r ∉ wC1 ∧ r ∉ wC2 ∧ r ∉ wD ∧ r ∉ wE1 ∧ r ∉ wE2

instance (r : Ref sig .tc) : Decidable (Kept r) := by unfold Kept; infer_instance

section Stages

variable (V : Valuation τ sig (Elt Ideal))

/-- The contents after the first layer, the first aggregation, the second layer, the second aggregation, the third layer. -/
abbrev VA : Valuation τ sig (Elt Ideal) := after opsA V
abbrev VB : Valuation τ sig (Elt Ideal) := after opsB (VA V)
abbrev VC : Valuation τ sig (Elt Ideal) := after opsC2 (after opsC1 (VB V))
abbrev VD : Valuation τ sig (Elt Ideal) := after opsD (VC V)
abbrev VE : Valuation τ sig (Elt Ideal) := after opsE2 (after opsE1 (VD V))

theorem after_ops : after ops V = VE V := by
  show after ((opsA ++ (opsB ++ opsC1)) ++ ((opsC2 ++ (opsD ++ opsE1)) ++ opsE2)) V = _
  rw [after_app, after_app, after_app, after_app, after_app, after_app]

theorem keepA (r : Ref sig .tc) (h : Kept r) : VA V (Proc.devRef .tc r) = V (Proc.devRef .tc r) := segA_keep V r h.1
theorem keepB (r : Ref sig .tc) (h : Kept r) : VB V (Proc.devRef .tc r) = V (Proc.devRef .tc r) := (segB_keep _ r h.2.1).trans (keepA V r h)
theorem keepC (r : Ref sig .tc) (h : Kept r) : VC V (Proc.devRef .tc r) = V (Proc.devRef .tc r) :=
  (segC2_keep _ r h.2.2.2.1).trans ((segC1_keep _ r h.2.2.1).trans (keepB V r h))
theorem keepD (r : Ref sig .tc) (h : Kept r) : VD V (Proc.devRef .tc r) = V (Proc.devRef .tc r) := (segD_keep _ r h.2.2.2.2.1).trans (keepC V r h)
theorem keepE (r : Ref sig .tc) (h : Kept r) : VE V (Proc.devRef .tc r) = V (Proc.devRef .tc r) :=
  (segE2_keep _ r h.2.2.2.2.2.2).trans ((segE1_keep _ r h.2.2.2.2.2.1).trans (keepD V r h))

/-- The three results and the two aggregates, of the launch contents. -/
abbrev T0 : FVec Ideal S100000x64 .f32 :=
  layerT (V (Proc.devRef .tc main_arg3)) (V (Proc.devRef .tc main_arg4)) (V (Proc.devRef .tc main_arg5)) (V (Proc.devRef .tc main_arg6)) (V (Proc.devRef .tc main_arg7))
abbrev G1 : FVec Ideal S100000x64 .f32 := aggT (V (Proc.devRef .tc main_arg0)) (V (Proc.devRef .tc main_arg1)) (V (Proc.devRef .tc main_arg2)) (T0 V)
abbrev T1 : FVec Ideal S100000x64 .f32 :=
  layerT (G1 V) (w0 (V (Proc.devRef .tc main_arg8))) (v0 (V (Proc.devRef .tc main_arg9))) (v0 (V (Proc.devRef .tc main_arg10))) (v0 (V (Proc.devRef .tc main_arg11)))
abbrev G2 : FVec Ideal S100000x64 .f32 := aggT (V (Proc.devRef .tc main_arg0)) (V (Proc.devRef .tc main_arg1)) (V (Proc.devRef .tc main_arg2)) (T1 V)
abbrev T2 : FVec Ideal S100000x64 .f32 :=
  layerT (G2 V) (w1 (V (Proc.devRef .tc main_arg8))) (v1 (V (Proc.devRef .tc main_arg9))) (v1 (V (Proc.devRef .tc main_arg10))) (v1 (V (Proc.devRef .tc main_arg11)))

theorem A23 : VA V (Proc.devRef .tc main_v23) = T0 V := segA_out V
theorem B23 : VB V (Proc.devRef .tc main_v23) = T0 V := (segB_keep _ main_v23 (by decide)).trans (A23 V)
theorem B36 : VB V (Proc.devRef .tc main_v36) = G1 V := by
  rw [VB, segB_out, keepA V main_arg0 (by decide), keepA V main_arg1 (by decide), keepA V main_arg2 (by decide), A23]
theorem C23 : VC V (Proc.devRef .tc main_v23) = T0 V :=
  (segC2_keep _ main_v23 (by decide)).trans ((segC1_keep _ main_v23 (by decide)).trans (B23 V))
theorem C68 : VC V (Proc.devRef .tc main_v68) = T1 V := by
  rw [VC, segC_out, keepB V main_arg8 (by decide), keepB V main_arg9 (by decide), keepB V main_arg10 (by decide), keepB V main_arg11 (by decide), B36]
theorem D23 : VD V (Proc.devRef .tc main_v23) = T0 V := (segD_keep _ main_v23 (by decide)).trans (C23 V)
theorem D68 : VD V (Proc.devRef .tc main_v68) = T1 V := (segD_keep _ main_v68 (by decide)).trans (C68 V)
theorem D81 : VD V (Proc.devRef .tc main_v81) = G2 V := by
  rw [VD, segD_out, keepC V main_arg0 (by decide), keepC V main_arg1 (by decide), keepC V main_arg2 (by decide), C68]
theorem E23 : VE V (Proc.devRef .tc main_v23) = T0 V :=
  (segE2_keep _ main_v23 (by decide)).trans ((segE1_keep _ main_v23 (by decide)).trans (D23 V))
theorem E68 : VE V (Proc.devRef .tc main_v68) = T1 V :=
  (segE2_keep _ main_v68 (by decide)).trans ((segE1_keep _ main_v68 (by decide)).trans (D68 V))
theorem E113 : VE V (Proc.devRef .tc main_v113) = T2 V := by
  rw [VE, segE_out, keepD V main_arg8 (by decide), keepD V main_arg9 (by decide), keepD V main_arg10 (by decide), keepD V main_arg11 (by decide), D81]

end Stages

section Results

variable (m : (ℓ : Loc nD τ sig) → Buf (Elt Ideal) ℓ) (c : Dev nD)

/-- The first result: the first layer of the arguments. -/
def H0 : FVec Ideal S100000x64 .f32 :=
  Cert.Spec.layerR (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))
/-- The first aggregate. -/
def A1 : FVec Ideal S100000x64 .f32 :=
  Cert.Spec.aggChain gather_S100000x64_S1600000x1_S1600000x64_1_0_n_n_0_1_164 scatter_S100000x64_S1600000x1_S1600000x64_1_0_0_1
    bcast_S1600000_S1600000x1_0 bcast_S_S1600000 bcast_S1600000x1_S1600000x64_0_1 bcast_S_S100000x64
    (m ((c.tc : Thread nD τ).loc main_arg0)) (m ((c.tc : Thread nD τ).loc main_arg1)) (m ((c.tc : Thread nD τ).loc main_arg2)) (H0 m c)
/-- The second result: the second layer of the first aggregate. -/
def H1 : FVec Ideal S100000x64 .f32 :=
  Cert.Spec.layerR (A1 m c) (w0 (m ((c.tc : Thread nD τ).loc main_arg8))) (v0 (m ((c.tc : Thread nD τ).loc main_arg9)))
    (v0 (m ((c.tc : Thread nD τ).loc main_arg10))) (v0 (m ((c.tc : Thread nD τ).loc main_arg11)))
/-- The second aggregate. -/
def A2 : FVec Ideal S100000x64 .f32 :=
  Cert.Spec.aggChain gather_S100000x64_S1600000x1_S1600000x64_1_0_n_n_0_1_164 scatter_S100000x64_S1600000x1_S1600000x64_1_0_0_1
    bcast_S1600000_S1600000x1_0 bcast_S_S1600000 bcast_S1600000x1_S1600000x64_0_1 bcast_S_S100000x64
    (m ((c.tc : Thread nD τ).loc main_arg0)) (m ((c.tc : Thread nD τ).loc main_arg1)) (m ((c.tc : Thread nD τ).loc main_arg2)) (H1 m c)
/-- The third result: the third layer of the second aggregate. -/
def H2 : FVec Ideal S100000x64 .f32 :=
  Cert.Spec.layerR (A2 m c) (w1 (m ((c.tc : Thread nD τ).loc main_arg8))) (v1 (m ((c.tc : Thread nD τ).loc main_arg9)))
    (v1 (m ((c.tc : Thread nD τ).loc main_arg10))) (v1 (m ((c.tc : Thread nD τ).loc main_arg11)))

theorem T0_eq : T0 (launchContents m c) = H0 m c := layerT_eq _ _ _ _ _
theorem G1_eq : G1 (launchContents m c) = A1 m c := by
  show aggT _ _ _ (T0 (launchContents m c)) = _
  rw [T0_eq]; rfl
theorem T1_eq : T1 (launchContents m c) = H1 m c := by
  show layerT (G1 (launchContents m c)) _ _ _ _ = _
  rw [G1_eq, layerT_eq]; rfl
theorem G2_eq : G2 (launchContents m c) = A2 m c := by
  show aggT _ _ _ (T1 (launchContents m c)) = _
  rw [T1_eq]; rfl
theorem T2_eq : T2 (launchContents m c) = H2 m c := by
  show layerT (G2 (launchContents m c)) _ _ _ _ = _
  rw [G2_eq, layerT_eq]; rfl

end Results

/-- On every device, from any memory with zero counters: every weakly fair execution of the reference terminates with
    its three results at the specification's three layers of the arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
        r.2.mem ((c.tc : Thread nD τ).loc main_v23) = H0 m c
      ∧ r.2.mem ((c.tc : Thread nD τ).loc main_v68) = H1 m c
      ∧ r.2.mem ((c.tc : Thread nD τ).loc main_v113) = H2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.ReferenceIdeal.defs (F := Ideal)) _ _).mono (fun _ h c =>
    ⟨(h c main_v23).trans (((congrFun (after_ops _) _).trans (E23 _)).trans (T0_eq m c)),
     (h c main_v68).trans (((congrFun (after_ops _) _).trans (E68 _)).trans (T1_eq m c)),
     (h c main_v113).trans (((congrFun (after_ops _) _).trans (E113 _)).trans (T2_eq m c)),
     (h c main_arg0).trans ((congrFun (after_ops _) _).trans (keepE _ main_arg0 (by decide))),
     (h c main_arg1).trans ((congrFun (after_ops _) _).trans (keepE _ main_arg1 (by decide))),
     (h c main_arg2).trans ((congrFun (after_ops _) _).trans (keepE _ main_arg2 (by decide))),
     (h c main_arg3).trans ((congrFun (after_ops _) _).trans (keepE _ main_arg3 (by decide))),
     (h c main_arg4).trans ((congrFun (after_ops _) _).trans (keepE _ main_arg4 (by decide))),
     (h c main_arg5).trans ((congrFun (after_ops _) _).trans (keepE _ main_arg5 (by decide))),
     (h c main_arg6).trans ((congrFun (after_ops _) _).trans (keepE _ main_arg6 (by decide))),
     (h c main_arg7).trans ((congrFun (after_ops _) _).trans (keepE _ main_arg7 (by decide))),
     (h c main_arg8).trans ((congrFun (after_ops _) _).trans (keepE _ main_arg8 (by decide))),
     (h c main_arg9).trans ((congrFun (after_ops _) _).trans (keepE _ main_arg9 (by decide))),
     (h c main_arg10).trans ((congrFun (after_ops _) _).trans (keepE _ main_arg10 (by decide))),
     (h c main_arg11).trans ((congrFun (after_ops _) _).trans (keepE _ main_arg11 (by decide)))⟩)
    (run_after m ρ)

end Cert.ReferenceIdeal.RefValue

end
-- ==== Proof.RefFrame.lean ====
/-
  The reference program runs and leaves its arguments unchanged: its run with the three results dropped.
-/
import proofs.«172633_j57071525429473_1_alg».proof.Defs
import proofs.«172633_j57071525429473_1_alg».proof.Proof.RefRun

noncomputable section

namespace Cert.ReferenceIdeal.RefValue

open Cert.ReferenceIdeal Cert.ReferenceIdeal.Gen Idealize.ShloMosaic Idealize.SL.Sem

/-- Every weakly fair execution of the reference terminates with its twelve arguments as they were at launch. -/
theorem frame [hPre_finite_inputs : Cert.Pre_finite_inputs.Facts] :
    Cert.frame_ReferenceIdeal (hReferenceIdeal := Cert.ReferenceIdeal.Gen.facts) (hPre_finite_inputs := hPre_finite_inputs) :=
  fun m g _ => (θ_run (Cert.ReferenceIdeal.defs (F := Ideal)) _ _).mono (fun _ h c => (h c).2.2.2) (run m g)

end Cert.ReferenceIdeal.RefValue

end
-- ==== Proof.PreFinite.lean ====
/-
  The precondition read back: every float argument has only real entries.

  The predicate is a conjunction, one conjunct per float argument, each saying that every entry's absolute value is below
  +∞.  An extended real x with max x (−x) < ⊤ is neither ⊤ nor ⊥, hence a real number.
-/
import proofs.«172633_j57071525429473_1_alg».proof.Pre_finite_inputs
import proofs.«172633_j57071525429473_1_alg».proof.Proof.Gen.Pre_finite_inputs
import proofs.«172633_j57071525429473_1_alg».proof.Proof.Spec
import Idealize.ShloMosaic.Lib.ReduceAll

noncomputable section

namespace Cert.PreFinite

open Idealize.ShloMosaic Cert.Pre_finite_inputs

/-- The scalar shape has one index. -/
instance : Subsingleton S_.Idx := ⟨fun _ _ => funext fun d => d.elim0⟩

/-- A one-bit word made from a Boolean is 1 exactly when the Boolean is true. -/
theorem ofBool_one {b : Bool} : BitVec.ofBool b = 1#1 ↔ b = true := by cases b <;> decide

/-- An extended real whose absolute value compares below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ v : ℝ, x = (v : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have h2 : max x (-x) < ⊤ := by
    have := ofBool_one.1 h1
    exact of_decide_eq_true this
  induction x using EReal.rec with
  | bot => simp at h2
  | coe r => exact ⟨r, rfl⟩
  | top => simp at h2

/-- One conjunct of the predicate: all entries of one argument compare below +∞ in absolute value, so all are real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x)
        (broadcastInDim s ![] hb (constant (F := Ideal) S_ .f32 0x7F800000#32))) (constantI S_ 1 1#1) hr hu ValueIdx.ix0
      = 1#1) : Cert.Spec.Real' x := by
  intro i
  exact real_of_abs_lt (x i) (Host.reduce_andi_all _ _ hr hu _ e i)

/-- The precondition gives real entries in all ten float arguments. -/
theorem reals_of_pre (a0 a1 : IVec Cert.Pre_finite_inputs.S1600000 32) (a2 : FVec Ideal Cert.Pre_finite_inputs.S1600000 .f32)
    (a3 : FVec Ideal Cert.Pre_finite_inputs.S100000x64 .f32) (a4 : FVec Ideal Cert.Pre_finite_inputs.S64x64 .f32)
    (a5 a6 a7 : FVec Ideal Cert.Pre_finite_inputs.S64 .f32) (a8 : FVec Ideal Cert.Pre_finite_inputs.S2x64x64 .f32)
    (a9 a10 a11 : FVec Ideal Cert.Pre_finite_inputs.S2x64 .f32)
    (h : Cert.Pre_finite_inputs.fn (F := Ideal) a0 a1 a2 a3 a4 a5 a6 a7 a8 a9 a10 a11 = fun _ => 1#1) :
    Cert.Spec.Real' a2 ∧ Cert.Spec.Real' a3 ∧ Cert.Spec.Real' a4 ∧ Cert.Spec.Real' a5 ∧ Cert.Spec.Real' a6
      ∧ Cert.Spec.Real' a7 ∧ Cert.Spec.Real' a8 ∧ Cert.Spec.Real' a9 ∧ Cert.Spec.Real' a10 ∧ Cert.Spec.Real' a11 := by
  have h0 := congrFun h ValueIdx.ix0
  dsimp only [Cert.Pre_finite_inputs.fn, Cert.Pre_finite_inputs.fn_part1, Cert.Pre_finite_inputs.fn_part2] at h0
  obtain ⟨h9, e11⟩ := IntOp.andi_eq_one.1 h0
  obtain ⟨h8, e10⟩ := IntOp.andi_eq_one.1 h9
  obtain ⟨h7, e9⟩ := IntOp.andi_eq_one.1 h8
  obtain ⟨h6, e8⟩ := IntOp.andi_eq_one.1 h7
  obtain ⟨h5, e7⟩ := IntOp.andi_eq_one.1 h6
  obtain ⟨h4, e6⟩ := IntOp.andi_eq_one.1 h5
  obtain ⟨h3, e5⟩ := IntOp.andi_eq_one.1 h4
  obtain ⟨h2, e4⟩ := IntOp.andi_eq_one.1 h3
  obtain ⟨e2, e3⟩ := IntOp.andi_eq_one.1 h2
  exact ⟨real_of_all a2 _ _ _ e2, real_of_all a3 _ _ _ e3, real_of_all a4 _ _ _ e4, real_of_all a5 _ _ _ e5,
    real_of_all a6 _ _ _ e6, real_of_all a7 _ _ _ e7, real_of_all a8 _ _ _ e8, real_of_all a9 _ _ _ e9,
    real_of_all a10 _ _ _ e10, real_of_all a11 _ _ _ e11⟩

end Cert.PreFinite

end
-- ==== Proof.AggReal.lean ====
/-
  The aggregation along the edges keeps real entries real: every entry of the result is the zero of the accumulator
  plus a finite sum of products of a real weight with a real entry of the operand.
-/
import proofs.«172633_j57071525429473_1_alg».proof.Proof.Spec
import proofs.«172633_j57071525429473_1_alg».proof.Proof.LibAggregate

noncomputable section

open scoped BigOperators

namespace Cert.Spec

open Idealize.ShloMosaic Idealize.ShloMosaic.ValueIdx

/-- A finite sum of reals is real. -/
theorem real_finset_sum {ι : Type} (s : Finset ι) (f : ι → EReal) (hf : ∀ i ∈ s, ∃ v : ℝ, f i = (v : EReal)) :
    ∃ v : ℝ, ∑ i ∈ s, f i = (v : EReal) := by
  classical
  induction s using Finset.induction_on with
  | empty => exact ⟨0, by simp⟩
  | insert a s ha ih =>
    obtain ⟨va, hva⟩ := hf a (Finset.mem_insert_self a s)
    obtain ⟨vs, hvs⟩ := ih (fun i hi => hf i (Finset.mem_insert_of_mem hi))
    exact ⟨va + vs, by rw [Finset.sum_insert ha, hva, hvs, EReal.coe_add]⟩

/-- A sum of two reals is real. -/
theorem real_add (a b : EReal) (ha : ∃ v : ℝ, a = (v : EReal)) (hb : ∃ v : ℝ, b = (v : EReal)) :
    ∃ v : ℝ, a + b = (v : EReal) := by
  obtain ⟨u, hu⟩ := ha
  obtain ⟨v, hv⟩ := hb
  exact ⟨u + v, by rw [hu, hv, EReal.coe_add]⟩

/-- Every entry of a broadcast is an entry of its operand. -/
theorem real_broadcastInDim {s t : Shape} (dims : Fin s.rank → Fin t.rank) (h : s.BroadcastsInDim t dims)
    (x : s.Idx → EReal) (hx : Real' x) : Real' (broadcastInDim t dims h x) := fun _ => hx _

/-- Every entry of a gather is an entry of its operand. -/
theorem real_gather {s si t : Shape} {w : Nat} (d : GatherDims s si t) (x : s.Idx → EReal) (idx : IVec si w)
    (hx : Real' x) : Real' (Host.gather d x idx) := fun _ => hx _

/-- A pointwise product of real arrays is real. -/
theorem real_mulf {s : Shape} {φ : FTy} (a b : FVec Ideal s φ) (ha : Real' a) (hb : Real' b) : Real' (mulf a b) := by
  intro i
  obtain ⟨u, hu⟩ := ha i
  obtain ⟨v, hv⟩ := hb i
  exact ⟨u * v, by rw [mulf_apply, hu, hv, EReal.coe_mul]⟩

/-- The aggregation of a real matrix along real weights is real. -/
theorem aggChain_real (wfg : GatherDims.WF SND SE1 SED [1] [0] [] [0] [] 1 ![1, 64])
    (wfs : ScatterDims.WF SND SE1 SED [1] [0] [0] 1)
    (hb1 : SE.BroadcastsInDim SE1 (![0] : Fin 1 → Fin SE1.rank))
    (hb0 : S0.BroadcastsInDim SE (![] : Fin 0 → Fin SE.rank))
    (hb2 : SE1.BroadcastsInDim SED (![0, 1] : Fin 2 → Fin SED.rank))
    (hbz : S0.BroadcastsInDim SND (![] : Fin 0 → Fin SND.rank))
    (rows cols : IVec SE 32) (vals : FVec Ideal SE .f32) (H : FVec Ideal SND .f32) (hv : Real' vals) (hH : Real' H) :
    Real' (aggChain (Cert.Aggregate.rowGather 100000 1600000 64 wfg) (Cert.Aggregate.rowScatter 100000 1600000 64 wfs)
      hb1 hb0 hb2 hbz rows cols vals H) := by
  intro i
  obtain ⟨n, k, rfl⟩ : ∃ (n : Fin 100000) (k : Fin 64), i = ix2 n k := ⟨i 0, i 1, eq_ix2 i⟩
  unfold aggChain
  rw [Cert.Aggregate.scatterAdd_rows_apply]
  have h0 : broadcastInDim SND ![] hbz (constant (F := Ideal) S0 .f32 0x00000000#32) (ix2 n k)
      = ((0 : ℝ) : EReal) := by
    show Ideal.ofBits .f32 0x00000000#32 = _
    rw [Ideal.ofBits_zero_f32, EReal.coe_zero]
  exact real_add _ _ ⟨0, h0⟩ (real_finset_sum _ _ (fun e _ => real_mulf _ _
    (real_broadcastInDim _ _ _ (real_broadcastInDim _ _ _ hv)) (real_gather _ _ _ hH) _))

end Cert.Spec

end
-- ==== Proof.Bridge.lean ====
/-
  The reference's three results and the idealized kernel program's three results are equal, from memories that agree on
  the arguments, when the float arguments have only real entries.

  Both programs' results are the same tower over the same arguments: a layer, the aggregation of its output along the
  edges, a layer of that with the first slices of the stacked arguments, the aggregation again, a layer with the second
  slices. The reference's layers are in the deviations form and the kernel program's in the moments form; on real entries
  the two forms agree and give real entries, the aggregation keeps real entries real, and a slice of an array with real
  entries has real entries. So the towers agree level by level.
-/
import proofs.«172633_j57071525429473_1_alg».proof.Defs
import proofs.«172633_j57071525429473_1_alg».proof.Proof.RefRun
import proofs.«172633_j57071525429473_1_alg».proof.Proof.KVal
import proofs.«172633_j57071525429473_1_alg».proof.Proof.PreFinite
import proofs.«172633_j57071525429473_1_alg».proof.Proof.BnAlgebra
import proofs.«172633_j57071525429473_1_alg».proof.Proof.AggReal

noncomputable section

namespace Cert.Bridge

open Idealize.ShloMosaic Idealize.SL.Sem Cert.Spec

/-! ## The two programs cut the same slices and aggregate alike -/

theorem wA_eq : Cert.KernelIdeal.KHost.wA = Cert.ReferenceIdeal.RefValue.w0 := rfl
theorem wB_eq : Cert.KernelIdeal.KHost.wB = Cert.ReferenceIdeal.RefValue.w1 := rfl
theorem vA_eq : Cert.KernelIdeal.KHost.vA = Cert.ReferenceIdeal.RefValue.v0 := rfl
theorem vB_eq : Cert.KernelIdeal.KHost.vB = Cert.ReferenceIdeal.RefValue.v1 := rfl
theorem agg_eq (rows cols : IVec SE 32) (vals : FVec Ideal SE .f32) (H : FVec Ideal SND .f32) :
    Cert.KernelIdeal.KHost.agg rows cols vals H = Cert.ReferenceIdeal.RefValue.aggT rows cols vals H := rfl

/-! ## Real entries -/

/-- Every entry of a slice is an entry of the stack. -/
theorem real_w0 {a : FVec Ideal Cert.ReferenceIdeal.S2x64x64 .f32} (h : Real' a) : Real' (Cert.ReferenceIdeal.RefValue.w0 a) := fun _ => h _
theorem real_w1 {a : FVec Ideal Cert.ReferenceIdeal.S2x64x64 .f32} (h : Real' a) : Real' (Cert.ReferenceIdeal.RefValue.w1 a) := fun _ => h _
theorem real_v0 {a : FVec Ideal Cert.ReferenceIdeal.S2x64 .f32} (h : Real' a) : Real' (Cert.ReferenceIdeal.RefValue.v0 a) := fun _ => h _
theorem real_v1 {a : FVec Ideal Cert.ReferenceIdeal.S2x64 .f32} (h : Real' a) : Real' (Cert.ReferenceIdeal.RefValue.v1 a) := fun _ => h _

/-- The aggregation along the edges, over the reference's records, keeps real entries real. -/
theorem real_agg (rows cols : IVec SE 32) (vals : FVec Ideal SE .f32) (H : FVec Ideal SND .f32) (hv : Real' vals) (hH : Real' H) :
    Real' (Cert.ReferenceIdeal.RefValue.aggT rows cols vals H) :=
  Cert.Spec.aggChain_real Cert.ReferenceIdeal.Gen.gather_S100000x64_S1600000x1_S1600000x64_1_0_n_n_0_1_164_wf
    Cert.ReferenceIdeal.Gen.scatter_S100000x64_S1600000x1_S1600000x64_1_0_0_1_wf _ _ _ _ rows cols vals H hv hH

/-- One more level of the tower: from equal real inputs, the deviations-form layer of the aggregate is the moments-form
    layer of the aggregate, and it is real. -/
theorem step (rows cols : IVec SE 32) (vals : FVec Ideal SE .f32) (hv : Real' vals) {HR HK : FVec Ideal SND .f32} (e : HR = HK) (hK : Real' HK)
    {W : SDD.Idx → EReal} {b γ β : SD.Idx → EReal} (hW : Real' W) (hb : Real' b) (hγ : Real' γ) (hβ : Real' β) :
    layerR (Cert.ReferenceIdeal.RefValue.aggT rows cols vals HR) W b γ β = layerK (Cert.ReferenceIdeal.RefValue.aggT rows cols vals HK) W b γ β
      ∧ Real' (layerK (Cert.ReferenceIdeal.RefValue.aggT rows cols vals HK) W b γ β) := by
  subst e
  have hA := real_agg rows cols vals HR hv hK
  exact ⟨(layerK_eq_layerR hA hW hb hγ hβ).symm, layerK_real hA hW hb hγ hβ⟩

/-- The three results agree, device by device. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) :
    Cert.ReferenceIdeal.RefValue.H0 m' c = Cert.KernelIdeal.KVal.K0 m c
      ∧ Cert.ReferenceIdeal.RefValue.H1 m' c = Cert.KernelIdeal.KVal.K1 m c
      ∧ Cert.ReferenceIdeal.RefValue.H2 m' c = Cert.KernelIdeal.KVal.K2 m c := by
  obtain ⟨e0, e1, e2, e3, e4, e5, e6, e7, e8, e9, e10, e11⟩ := hagree
  obtain ⟨r2, r3, r4, r5, r6, r7, r8, r9, r10, r11⟩ := Cert.PreFinite.reals_of_pre _ _ _ _ _ _ _ _ _ _ _ _ (hpre c)
  simp only [Cert.ReferenceIdeal.RefValue.H2, Cert.ReferenceIdeal.RefValue.A2, Cert.ReferenceIdeal.RefValue.H1, Cert.ReferenceIdeal.RefValue.A1,
    Cert.ReferenceIdeal.RefValue.H0, Cert.KernelIdeal.KVal.K2, Cert.KernelIdeal.KVal.A2, Cert.KernelIdeal.KVal.K1, Cert.KernelIdeal.KVal.A1,
    Cert.KernelIdeal.KVal.K0, e0, e1, e2, e3, e4, e5, e6, e7, e8, e9, e10, e11]
  have h0 : layerR (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = layerK (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
    (layerK_eq_layerR r3 r4 r5 r6 r7).symm
  have k0 := layerK_real r3 r4 r5 r6 r7
  obtain ⟨h1, k1⟩ := step (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) r2 h0 k0 (real_w0 r8) (real_v0 r9) (real_v0 r10) (real_v0 r11)
  obtain ⟨h2, k2⟩ := step (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) r2 h1 k1 (real_w1 r8) (real_v1 r9) (real_v1 r10) (real_v1 r11)
  exact ⟨h0, h1, h2⟩

end Cert.Bridge

end
-- ==== Proof.lean ====
/-
  The certificate's claim, proved.

  Three frames: the kernel program at the bit patterns, the same program at the extended reals, and the reference each run
  to the end without fault and leave their twelve argument arrays as launched (the generated modules Proof/Gen/Kernel/Frame
  and Proof/Gen/KernelIdeal/Frame for the two kernel programs; Proof/RefFrame for the reference: its run with the results
  dropped). The idealization rewrote no operation, so there is nothing for it to preserve.

  The algebraic claim. At the extended reals, from memories that agree on the arguments, all of whose float entries are
  finite, both programs end with the same three [100000, 64] outputs. Each output is a layer: X·W + b, normalised column by
  column over the 100000 rows, scaled by γ, shifted by β, rectified; the second and third layers take as X the previous
  output aggregated along 1600000 weighted edges, and their W, b, γ, β from the stacked arguments. The kernel program
  gathers the column statistics as the sum and the sum of squares, takes the variance as the second moment less the squared
  mean, and folds the affine transform into one scale and one shift (Proof/KValRun: its run ends at the layers of Proof/Spec
  in that moments form). The reference takes the variance as the mean squared deviation from the mean (Proof/RefRun: its run
  ends at the layers in that deviations form). On real entries the two forms are equal and real (Proof/BnAlgebra), the
  aggregation keeps real entries real (Proof/AggReal), the precondition makes every float argument's entries real
  (Proof/PreFinite), and so the two towers of layers agree level by level (Proof/Bridge).
-/
import proofs.«172633_j57071525429473_1_alg».proof.Defs
import proofs.«172633_j57071525429473_1_alg».proof.Proof.Gen.Kernel
import proofs.«172633_j57071525429473_1_alg».proof.Proof.Gen.Kernel.Skeleton
import proofs.«172633_j57071525429473_1_alg».proof.Proof.Gen.Kernel.Launch
import proofs.«172633_j57071525429473_1_alg».proof.Proof.Gen.Kernel.Points
import proofs.«172633_j57071525429473_1_alg».proof.Proof.Gen.Kernel.Frame
import proofs.«172633_j57071525429473_1_alg».proof.Proof.Gen.KernelIdeal
import proofs.«172633_j57071525429473_1_alg».proof.Proof.Gen.KernelIdeal.Skeleton
import proofs.«172633_j57071525429473_1_alg».proof.Proof.Gen.KernelIdeal.Launch
import proofs.«172633_j57071525429473_1_alg».proof.Proof.Gen.KernelIdeal.Points
import proofs.«172633_j57071525429473_1_alg».proof.Proof.Gen.KernelIdeal.Frame
import proofs.«172633_j57071525429473_1_alg».proof.Proof.Gen.ReferenceIdeal
import proofs.«172633_j57071525429473_1_alg».proof.Proof.Gen.Pre_finite_inputs
import proofs.«172633_j57071525429473_1_alg».proof.Proof.KValRun
import proofs.«172633_j57071525429473_1_alg».proof.Proof.RefFrame
import proofs.«172633_j57071525429473_1_alg».proof.Proof.Bridge
import Idealize.ShloMosaic.Adequacy
import Idealize.ShloMosaic.Init

noncomputable section

namespace Cert.Proof

open Idealize.ShloMosaic Idealize.SL.Sem Cert.Kernel

/-- At the ideal values, from memories agreeing on the arguments, both programs run, the idealized kernel program to the
    specification's three layers in the moments form and the reference to the same three in the deviations form; on
    the precondition's real entries the two forms are equal, so the results are, and both leave the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KVal.K0 m c, fun c => Cert.KernelIdeal.KVal.K1 m c, fun c => Cert.KernelIdeal.KVal.K2 m c,
    Cert.KernelIdeal.KVal.run m ρ, ?_⟩
  refine (θ_run _ _ _).mono (fun _ h c => ?_) (Cert.ReferenceIdeal.RefValue.run m' ρ')
  obtain ⟨h0, h1, h2⟩ := Cert.Bridge.results_eq m m' hpre c (hagree c)
  obtain ⟨p0, p1, p2, rest⟩ := h c
  exact ⟨p0.trans h0, p1.trans h1, p2.trans h2, rest⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.RefValue.frame,
  trivial,
  algebraic⟩

end Cert.Proof

end
